-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v61)) (v1 : (c : Dev Cert.KernelIdeal.nD) → Buf (Elt Ideal) ((c.tc : Thread Cert.KernelIdeal.nD Cert.KernelIdeal.τ).loc Cert.KernelIdeal.main_v60_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_v60_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S128 .f32) (main_arg9 : FVec F S128x128 .f32) (main_arg10 : FVec F S64x1 .f32) (main_arg11 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S64x1 .f32 := Host.absf main_arg10
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S128 .f32) (main_arg6 : FVec F S128 .f32) (main_arg7 : FVec F S128x128 .f32) (main_arg8 : FVec F S128 .f32) (main_arg9 : FVec F S128x128 .f32) (main_arg10 : FVec F S64x1 .f32) (main_arg11 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x600000 32) (main_arg2 : FVec F S128x128 .f32) (main_arg3 : FVec F S128 .f32) (main_arg4 : FVec F S128x128 .f32) (main_arg5 : FVec F S128 .f32) (main_arg6 : FVec F S128 .f32) (main_arg7 : FVec F S128x128 .f32) (main_arg8 : FVec F S128 .f32) (main_arg9 : FVec F S128x128 .f32) (main_arg10 : FVec F S64x1 .f32) (main_arg11 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S64x1 : Shape := ⟨2, ![64, 1]⟩
abbrev S1 : Shape := ⟨1, ![1]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩
abbrev S5000 : Shape := ⟨1, ![5000]⟩
abbrev S5000x1 : Shape := ⟨2, ![5000, 1]⟩
abbrev S1x1 : Shape := ⟨2, ![1, 1]⟩
abbrev S5000x64 : Shape := ⟨2, ![5000, 64]⟩

abbrev nBuf : Space → Nat
  | .hbm => 90
  | .vmem => 34
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S64x1, .f32⟩
  | .hbm, ⟨11, _⟩ => ⟨S1, .f32⟩
  | .hbm, ⟨12, _⟩ => ⟨S1x600000, .i32⟩
  | .hbm, ⟨13, _⟩ => ⟨S600000, .i32⟩
  | .hbm, ⟨14, _⟩ => ⟨S1x600000, .i32⟩
  | .hbm, ⟨15, _⟩ => ⟨S600000, .i32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S600000x128, .f32⟩
  | .hbm, ⟨25, _⟩ => ⟨S_, .f32⟩
  | .hbm, ⟨26, _⟩ => ⟨S100000x128, .f32⟩
  | .hbm, ⟨27, _⟩ => ⟨S600000x1, .i32⟩
  | .hbm, ⟨28, _⟩ => ⟨S100000x128, .f32⟩
  | .hbm, ⟨29, _⟩ => ⟨S_, .f32⟩
  | .hbm, ⟨30, _⟩ => ⟨S600000, .f32⟩
  | .hbm, ⟨31, _⟩ => ⟨S_, .f32⟩
  | .hbm, ⟨32, _⟩ => ⟨S100000, .f32⟩
  | .hbm, ⟨33, _⟩ => ⟨S600000x1, .i32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x128, .f32⟩
  | .hbm, ⟨40, _⟩ => ⟨S100000x128, .f32⟩
  | .hbm, ⟨41, _⟩ => ⟨S1x128, .f32⟩
  | .hbm, ⟨42, _⟩ => ⟨S100000x128, .f32⟩
  | .hbm, ⟨43, _⟩ => ⟨S1x128, .f32⟩
  | .hbm, ⟨44, _⟩ => ⟨S1x128, .f32⟩
  | .hbm, ⟨45, _⟩ => ⟨S128, .f32⟩
  | .hbm, ⟨46, _⟩ => ⟨S_, .f32⟩
  | .hbm, ⟨47, _⟩ => ⟨S128, .f32⟩
  | .hbm, ⟨48, _⟩ => ⟨S128, .f32⟩
  | .hbm, ⟨49, _⟩ => ⟨S128, .f32⟩
  | .hbm, ⟨50, _⟩ => ⟨S_, .f32⟩
  | .hbm, ⟨51, _⟩ => ⟨S128, .f32⟩
  | .hbm, ⟨52, _⟩ => ⟨S128, .f32⟩
  | .hbm, ⟨53, _⟩ => ⟨S128, .f32⟩
  | .hbm, ⟨54, _⟩ => ⟨S128, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S100000x128, .f32⟩
  | .hbm, ⟨60, _⟩ => ⟨S_, .i32⟩
  | .hbm, ⟨61, _⟩ => ⟨S600000, .i32⟩
  | .hbm, ⟨62, _⟩ => ⟨S600000, .i1⟩
  | .hbm, ⟨63, _⟩ => ⟨S_, .i32⟩
  | .hbm, ⟨64, _⟩ => ⟨S600000, .i32⟩
  | .hbm, ⟨65, _⟩ => ⟨S600000, .i32⟩
  | .hbm, ⟨66, _⟩ => ⟨S600000, .i32⟩
  | .hbm, ⟨67, _⟩ => ⟨S600000x1, .i32⟩
  | .hbm, ⟨68, _⟩ => ⟨S600000x128, .f32⟩
  | .hbm, ⟨69, _⟩ => ⟨S_, .f32⟩
  | .hbm, ⟨70, _⟩ => ⟨S100000x128, .f32⟩
  | .hbm, ⟨71, _⟩ => ⟨S600000x1, .i32⟩
  | .hbm, ⟨72, _⟩ => ⟨S100000x128, .f32⟩
  | .hbm, ⟨73, _⟩ => ⟨S_, .f32⟩
  | .hbm, ⟨74, _⟩ => ⟨S600000, .f32⟩
  | .hbm, ⟨75, _⟩ => ⟨S_, .f32⟩
  | .hbm, ⟨76, _⟩ => ⟨S100000, .f32⟩
  | .hbm, ⟨77, _⟩ => ⟨S600000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .f32⟩
  | .hbm, ⟨82, _⟩ => ⟨S100000x1, .f32⟩
  | .hbm, ⟨83, _⟩ => ⟨S100000x128, .f32⟩
  | .hbm, ⟨84, _⟩ => ⟨S100000x128, .f32⟩
  | .hbm, ⟨85, _⟩ => ⟨S1x128, .f32⟩
  | .hbm, ⟨86, _⟩ => ⟨S1x1, .f32⟩
  | .hbm, ⟨87, _⟩ => ⟨S100000x128, .f32⟩
  | .hbm, ⟨88, _⟩ => ⟨S100000x1, .f32⟩
  | .hbm, ⟨89, _⟩ => ⟨S100000, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S128x128, .f32⟩
  | .local _ .vmem, ⟨26, _⟩ => ⟨S1x128, .f32⟩
  | .local _ .vmem, ⟨27, _⟩ => ⟨S128x128, .f32⟩
  | .local _ .vmem, ⟨28, _⟩ => ⟨S64x1, .f32⟩
  | .local _ .vmem, ⟨29, _⟩ => ⟨S1x1, .f32⟩
  | .local _ .vmem, ⟨30, _⟩ => ⟨S5000x128, .f32⟩
  | .local _ .vmem, ⟨31, _⟩ => ⟨S5000x128, .f32⟩
  | .local _ .vmem, ⟨32, _⟩ => ⟨S5000x1, .f32⟩
  | .local _ .vmem, ⟨33, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25_0 : Ref sig .tc := ⟨.hbm, 43, rfl⟩
abbrev main_v25_1 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_6 : Ref sig .tc := ⟨.hbm, 60, rfl⟩
abbrev main_v39 : Ref sig .tc := ⟨.hbm, 61, rfl⟩
abbrev main_v40 : Ref sig .tc := ⟨.hbm, 62, rfl⟩
abbrev main_c_7 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_8 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_9 : Ref sig .tc := ⟨.hbm, 73, rfl⟩
abbrev main_v49 : Ref sig .tc := ⟨.hbm, 74, rfl⟩
abbrev main_cst_10 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60_0 : Ref sig .tc := ⟨.hbm, 87, rfl⟩
abbrev main_v60_1 : Ref sig .tc := ⟨.hbm, 88, rfl⟩
abbrev main_v61 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg6_0 : Ref sig .tc := ⟨.vmem, 29, rfl⟩
abbrev cc3_stg7_0 : Ref sig .tc := ⟨.vmem, 30, rfl⟩
abbrev cc3_stg7_1 : Ref sig .tc := ⟨.vmem, 31, rfl⟩
abbrev cc3_stg8_0 : Ref sig .tc := ⟨.vmem, 32, rfl⟩
abbrev cc3_stg8_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem6_0 : DmaSem sig := 29
abbrev cc3_sem7_0 : DmaSem sig := 30
abbrev cc3_sem7_1 : DmaSem sig := 31
abbrev cc3_sem8_0 : DmaSem sig := 32
abbrev cc3_sem8_1 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S5000x1 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  reduces_S5000x128_S128 : S5000x128.Reduces [0] S128
  shapeCasts_S1x128_S128 : S1x128.ShapeCasts S128
  bcast_S_S128 : S_.BroadcastsInDim S128 (![] : Fin 0 → Fin S128.rank)
  shapeCasts_S1_S1x1 : S1.ShapeCasts S1x1
  slices_S5000x128_o0_0_S5000x64 : S5000x128.Slices ![0, 0] S5000x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S100000x1_S100000 : S100000x1.ShapeCasts S100000
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S5000x128_S128x128_S5000x128_1_0_0_1_n_n_wf : DotDims.WF S5000x128 S128x128 S5000x128 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x1.size a ≤ S64x1.size a
  hwx3_5 : ∀ i : grid3.Coords, EltTy.bits .f32 = 32 ∨ (Rect.block (s := S64x1) S64x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x1.size a ≤ S1x1.size a
  hwx3_6 : ∀ i : grid3.Coords, EltTy.bits .f32 = 32 ∨ (Rect.block (s := S1x1) S1x1.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x128.size a ≤ S100000x128.size a
  hwx3_7 : ∀ i : grid3.Coords, EltTy.bits .f32 = 32 ∨ (Rect.block (s := S100000x128) S5000x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S5000x1.size a ≤ S100000x1.size a
  hwx3_8 : ∀ i : grid3.Coords, EltTy.bits .f32 = 32 ∨ (Rect.block (s := S100000x1) S5000x1.size (cc3_transform_8 i) (hinb3_8 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v24) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25_0) S1x128.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v25_1) S1x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v24) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v35) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v36) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v37) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v38) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v57) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg7) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg9) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg10) S64x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v59) S1x1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v60_0) S5000x128.size cc3_transform_7 reads3_7 true false 2 stage3_7 sem3_7
    hrank3 hreads3_7 hinb3_7 nbuf3_7 (Memref.isWhole_whole _) hwx3_7 hstage3_7

abbrev win3_8 : Pipeline.Window sig grid3 :=
  Pipeline.Window.ofSpec (Memref.whole main_v60_1) S5000x1.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S64x1 : Shape := ⟨2, ![64, 1]⟩
abbrev S1 : Shape := ⟨1, ![1]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S1x128 : Shape := ⟨2, ![1, 128]⟩
abbrev S100000x64 : Shape := ⟨2, ![100000, 64]⟩
abbrev S1x1 : Shape := ⟨2, ![1, 1]⟩

abbrev nBuf : Space → Nat
  | .hbm => 151
  | .vmem => 0
  | .smem => 0
  | _ => 0

abbrev hbmTy0_0 (i : Nat) : BufTy := match i % 128 with
  | 0 => ⟨S100000x128, .f32⟩
  | 1 => ⟨S2x600000, .i32⟩
  | 2 => ⟨S128x128, .f32⟩
  | 3 => ⟨S128, .f32⟩
  | 4 => ⟨S128x128, .f32⟩
  | 5 => ⟨S128, .f32⟩
  | 6 => ⟨S128, .f32⟩
  | 7 => ⟨S128x128, .f32⟩
  | 8 => ⟨S128, .f32⟩
  | 9 => ⟨S128x128, .f32⟩
  | 10 => ⟨S64x1, .f32⟩
  | 11 => ⟨S1, .f32⟩
  | 12 => ⟨S1x600000, .i32⟩
  | 13 => ⟨S600000, .i32⟩
  | 14 => ⟨S1x600000, .i32⟩
  | 15 => ⟨S600000, .i32⟩
  | 16 => ⟨S_, .i32⟩
  | 17 => ⟨S600000, .i32⟩
  | 18 => ⟨S600000, .i1⟩
  | 19 => ⟨S_, .i32⟩
  | 20 => ⟨S600000, .i32⟩
  | 21 => ⟨S600000, .i32⟩
  | 22 => ⟨S600000, .i32⟩
  | 23 => ⟨S600000x1, .i32⟩
  | 24 => ⟨S600000x128, .f32⟩
  | 25 => ⟨S_, .f32⟩
  | 26 => ⟨S100000x128, .f32⟩
  | 27 => ⟨S600000x1, .i32⟩
  | 28 => ⟨S100000x128, .f32⟩
  | 29 => ⟨S_, .f32⟩
  | 30 => ⟨S600000, .f32⟩
  | 31 => ⟨S_, .f32⟩
  | 32 => ⟨S100000, .f32⟩
  | 33 => ⟨S600000x1, .i32⟩
  | 34 => ⟨S100000, .f32⟩
  | 35 => ⟨S_, .f32⟩
  | 36 => ⟨S100000, .f32⟩
  | 37 => ⟨S100000, .f32⟩
  | 38 => ⟨S100000x1, .f32⟩
  | 39 => ⟨S100000x128, .f32⟩
  | 40 => ⟨S100000x128, .f32⟩
  | 41 => ⟨S100000x128, .f32⟩
  | 42 => ⟨S1x128, .f32⟩
  | 43 => ⟨S100000x128, .f32⟩
  | 44 => ⟨S100000x128, .f32⟩
  | 45 => ⟨S100000x128, .f32⟩
  | 46 => ⟨S100000x128, .f32⟩
  | 47 => ⟨S100000x128, .f32⟩
  | 48 => ⟨S_, .f32⟩
  | 49 => ⟨S100000, .f32⟩
  | 50 => ⟨S100000x1, .f32⟩
  | 51 => ⟨S100000x1, .f32⟩
  | 52 => ⟨S_, .f32⟩
  | 53 => ⟨S100000x1, .f32⟩
  | 54 => ⟨S100000x1, .f32⟩
  | 55 => ⟨S100000x128, .f32⟩
  | 56 => ⟨S100000x128, .f32⟩
  | 57 => ⟨S_, .f32⟩
  | 58 => ⟨S100000x128, .f32⟩
  | 59 => ⟨S100000x128, .f32⟩
  | 60 => ⟨S_, .f32⟩
  | 61 => ⟨S128, .f32⟩
  | 62 => ⟨S_, .f32⟩
  | 63 => ⟨S128, .f32⟩
  | 64 => ⟨S128, .f32⟩
  | 65 => ⟨S_, .i32⟩
  | 66 => ⟨S_, .f32⟩
  | 67 => ⟨S128, .f32⟩
  | 68 => ⟨S1x128, .f32⟩
  | 69 => ⟨S_, .f32⟩
  | 70 => ⟨S1x128, .f32⟩
  | 71 => ⟨S1x128, .f32⟩
  | 72 => ⟨S100000x128, .f32⟩
  | 73 => ⟨S100000x128, .f32⟩
  | 74 => ⟨S100000x128, .f32⟩
  | 75 => ⟨S_, .f32⟩
  | 76 => ⟨S_, .f32⟩
  | 77 => ⟨S_, .f32⟩
  | 78 => ⟨S_, .f32⟩
  | 79 => ⟨S128, .f32⟩
  | 80 => ⟨S128, .f32⟩
  | 81 => ⟨S128, .f32⟩
  | 82 => ⟨S_, .f32⟩
  | 83 => ⟨S_, .i1⟩
  | 84 => ⟨S_, .f32⟩
  | 85 => ⟨S_, .f32⟩
  | 86 => ⟨S128, .f32⟩
  | 87 => ⟨S128, .f32⟩
  | 88 => ⟨S1x128, .f32⟩
  | 89 => ⟨S100000x128, .f32⟩
  | 90 => ⟨S100000x128, .f32⟩
  | 91 => ⟨S_, .f32⟩
  | 92 => ⟨S128, .f32⟩
  | 93 => ⟨S128, .f32⟩
  | 94 => ⟨S128, .f32⟩
  | 95 => ⟨S1x128, .f32⟩
  | 96 => ⟨S100000x128, .f32⟩
  | 97 => ⟨S100000x128, .f32⟩
  | 98 => ⟨S1x128, .f32⟩
  | 99 => ⟨S100000x128, .f32⟩
  | 100 => ⟨S100000x128, .f32⟩
  | 101 => ⟨S1x128, .f32⟩
  | 102 => ⟨S100000x128, .f32⟩
  | 103 => ⟨S100000x128, .f32⟩
  | 104 => ⟨S_, .i32⟩
  | 105 => ⟨S600000, .i32⟩
  | 106 => ⟨S600000, .i1⟩
  | 107 => ⟨S_, .i32⟩
  | 108 => ⟨S600000, .i32⟩
  | 109 => ⟨S600000, .i32⟩
  | 110 => ⟨S600000, .i32⟩
  | 111 => ⟨S600000x1, .i32⟩
  | 112 => ⟨S600000x128, .f32⟩
  | 113 => ⟨S_, .f32⟩
  | 114 => ⟨S100000x128, .f32⟩
  | 115 => ⟨S600000x1, .i32⟩
  | 116 => ⟨S100000x128, .f32⟩
  | 117 => ⟨S_, .f32⟩
  | 118 => ⟨S600000, .f32⟩
  | 119 => ⟨S_, .f32⟩
  | 120 => ⟨S100000, .f32⟩
  | 121 => ⟨S600000x1, .i32⟩
  | 122 => ⟨S100000, .f32⟩
  | 123 => ⟨S_, .f32⟩
  | 124 => ⟨S100000, .f32⟩
  | 125 => ⟨S100000, .f32⟩
  | 126 => ⟨S100000x1, .f32⟩
  | 127 => ⟨S100000x128, .f32⟩
  | _ => ⟨S100000x128, .f32⟩

abbrev hbmTy0_1 (i : Nat) : BufTy := match i % 128 with
  | 0 => ⟨S100000x128, .f32⟩
  | 1 => ⟨S100000x128, .f32⟩
  | 2 => ⟨S1x128, .f32⟩
  | 3 => ⟨S100000x128, .f32⟩
  | 4 => ⟨S100000x128, .f32⟩
  | 5 => ⟨S100000x128, .f32⟩
  | 6 => ⟨S100000x128, .f32⟩
  | 7 => ⟨S100000x128, .f32⟩
  | 8 => ⟨S_, .f32⟩
  | 9 => ⟨S100000, .f32⟩
  | 10 => ⟨S100000x1, .f32⟩
  | 11 => ⟨S100000x1, .f32⟩
  | 12 => ⟨S_, .f32⟩
  | 13 => ⟨S100000x1, .f32⟩
  | 14 => ⟨S100000x1, .f32⟩
  | 15 => ⟨S100000x128, .f32⟩
  | 16 => ⟨S100000x128, .f32⟩
  | 17 => ⟨S100000x64, .f32⟩
  | 18 => ⟨S100000x1, .f32⟩
  | 19 => ⟨S1x1, .f32⟩
  | 20 => ⟨S100000x1, .f32⟩
  | 21 => ⟨S100000x1, .f32⟩
  | 22 => ⟨S100000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_call0_v0 : Ref sig .tc := ⟨.hbm, 47, rfl⟩
abbrev main_call0_cst : Ref sig .tc := ⟨.hbm, 48, rfl⟩
abbrev main_call0_v1 : Ref sig .tc := ⟨.hbm, 49, rfl⟩
abbrev main_call0_v2 : Ref sig .tc := ⟨.hbm, 50, rfl⟩
abbrev main_v29 : Ref sig .tc := ⟨.hbm, 51, rfl⟩
abbrev main_cst_4 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_call1_cst : Ref sig .tc := ⟨.hbm, 57, rfl⟩
abbrev main_call1_v0 : Ref sig .tc := ⟨.hbm, 58, rfl⟩
abbrev main_v34 : Ref sig .tc := ⟨.hbm, 59, rfl⟩
abbrev main_cst_5 : Ref sig .tc := ⟨.hbm, 60, rfl⟩
abbrev main_v35 : Ref sig .tc := ⟨.hbm, 61, rfl⟩
abbrev main_cst_6 : Ref sig .tc := ⟨.hbm, 62, rfl⟩
abbrev main_v36 : Ref sig .tc := ⟨.hbm, 63, rfl⟩
abbrev main_v37 : Ref sig .tc := ⟨.hbm, 64, rfl⟩
abbrev main_c_7 : Ref sig .tc := ⟨.hbm, 65, rfl⟩
abbrev main_call2_cst : Ref sig .tc := ⟨.hbm, 66, rfl⟩
abbrev main_call2_v0 : Ref sig .tc := ⟨.hbm, 67, rfl⟩
abbrev main_call2_v1 : Ref sig .tc := ⟨.hbm, 68, rfl⟩
abbrev main_call2_cst_0 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_v6 : Ref sig .tc := ⟨.hbm, 74, rfl⟩
abbrev main_call2_v7 : Ref sig .tc := ⟨.hbm, 75, rfl⟩
abbrev main_call2_cst_1 : Ref sig .tc := ⟨.hbm, 76, rfl⟩
abbrev main_call2_v8 : Ref sig .tc := ⟨.hbm, 77, rfl⟩
abbrev main_call2_cst_2 : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_call2_cst_3 : Ref sig .tc := ⟨.hbm, 82, rfl⟩
abbrev main_call2_v12 : Ref sig .tc := ⟨.hbm, 83, rfl⟩
abbrev main_call2_cst_4 : Ref sig .tc := ⟨.hbm, 84, rfl⟩
abbrev main_call2_call0_v0 : Ref sig .tc := ⟨.hbm, 85, rfl⟩
abbrev main_call2_call0_v1 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_cst_8 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_c_9 : Ref sig .tc := ⟨.hbm, 104, rfl⟩
abbrev main_v54 : Ref sig .tc := ⟨.hbm, 105, rfl⟩
abbrev main_v55 : Ref sig .tc := ⟨.hbm, 106, rfl⟩
abbrev main_c_10 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_cst_11 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_cst_12 : Ref sig .tc := ⟨.hbm, 117, rfl⟩
abbrev main_v64 : Ref sig .tc := ⟨.hbm, 118, rfl⟩
abbrev main_cst_13 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_cst_14 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_call3_v0 : Ref sig .tc := ⟨.hbm, 135, rfl⟩
abbrev main_call3_cst : Ref sig .tc := ⟨.hbm, 136, rfl⟩
abbrev main_call3_v1 : Ref sig .tc := ⟨.hbm, 137, rfl⟩
abbrev main_call3_v2 : Ref sig .tc := ⟨.hbm, 138, rfl⟩
abbrev main_v79 : Ref sig .tc := ⟨.hbm, 139, rfl⟩
abbrev main_cst_15 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  reducesTo_S100000x128_S128_d0 : S100000x128.ReducesTo [0] S128
  bcast_S_S128 : S_.BroadcastsInDim S128 (![] : Fin 0 → Fin S128.rank)
  bcast_S_S1x128 : S_.BroadcastsInDim S1x128 (![] : Fin 0 → Fin S1x128.rank)
  slices_S100000x128_S100000x64_0_0 : S100000x128.Slices ![0, 0] S100000x64
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S100000x128_S128x128_S100000x128_1_0_0_1_n_n_wf : DotDims.WF S100000x128 S128x128 S100000x128 [1] [0] [0] [1] [] []
  dot_S100000x64_S64x1_S100000x1_1_0_0_1_n_n_wf : DotDims.WF S100000x64 S64x1 S100000x1 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.Spec.lean ====
/-
  The stages of the two-layer mean-aggregation network, each as ONE function of whole arrays, for any float
  instance: the edge endpoints, the mean over incoming edges, the affine combination of a node's aggregated
  and own features, the row-wise normalisation by max(‖row‖, ε), the positive part, column sums, the batch
  normalisation (its mean and variance as the reference computes them, and its affine application), and the
  linear head on the first 64 embedding columns. Both programs' results are compositions of these.
-/
import proofs.«103985_j71854802862201_1_alg».proof.ReferenceIdeal
import proofs.«103985_j71854802862201_1_alg».proof.KernelIdeal
import Idealize.ShloMosaic.PureOps.Ideal

noncomputable section

namespace Cert.Spec

open Idealize.ShloMosaic Cert.ReferenceIdeal Cert.ReferenceIdeal.Facts₀

variable {F : FTy → Type} [FloatOps F] [Cert.ReferenceIdeal.Facts]

/-- Row `0` of the edge list: the source node of every edge. -/
def srcOf (ei : IVec S2x600000 32) : IVec S600000 32 :=
  shapeCast S600000 (extractStridedSlice S1x600000 ![0, 0] ei slices_S2x600000_S1x600000_0_0) shapeCasts_S1x600000_S600000

/-- Row `1` of the edge list: the destination node of every edge. -/
def dstOf (ei : IVec S2x600000 32) : IVec S600000 32 :=
  shapeCast S600000 (extractStridedSlice S1x600000 ![1, 0] ei slices_S2x600000_S1x600000_1_0) shapeCasts_S1x600000_S600000

/-- The mean of the features of a node's in-neighbours: the rows `feat[src e]` (a negative index wrapped
    once) summed into row `dst e`, divided by max(number of incoming edges, 1). -/
def aggr (feat : FVec F S100000x128 .f32) (src dst : IVec S600000 32) : FVec F S100000x128 .f32 :=
  Host.divf
    (Host.scatterAdd scatter_S100000x128_S600000x1_S600000x128_1_0_0_1
      (broadcastInDim S100000x128 ![] bcast_S_S100000x128 (constant S_ .f32 0x00000000#32))
      (broadcastInDim S600000x1 ![0] bcast_S600000_S600000x1_0 dst)
      (Host.gather gather_S100000x128_S600000x1_S600000x128_1_0_n_n_0_1_1128 feat
        (broadcastInDim S600000x1 ![0] bcast_S600000_S600000x1_0
          (select (cmpi .slt src (broadcastInDim S600000 ![] bcast_S_S600000 (constantI S_ 32 0#32)))
            (addi src (broadcastInDim S600000 ![] bcast_S_S600000 (constantI S_ 32 100000#32))) src))))
    (broadcastInDim S100000x128 ![0, 1] bcast_S100000x1_S100000x128_0_1
      (broadcastInDim S100000x1 ![0] bcast_S100000_S100000x1_0
        (maximumf
          (Host.scatterAdd scatter_S100000_S600000x1_S600000_n_0_0_1
            (broadcastInDim S100000 ![] bcast_S_S100000 (constant S_ .f32 0x00000000#32))
            (broadcastInDim S600000x1 ![0] bcast_S600000_S600000x1_0 dst)
            (broadcastInDim S600000 ![] bcast_S_S600000 (constant S_ .f32 0x3F800000#32)))
          (broadcastInDim S100000 ![] bcast_S_S100000 (constant S_ .f32 0x3F800000#32)))))

/-- `mean · W_l + b + x · W_r`, the bias given as a one-row array. -/
def lin2 (mean x : FVec F S100000x128 .f32) (Wl : FVec F S128x128 .f32) (b2 : FVec F S1x128 .f32)
    (Wr : FVec F S128x128 .f32) : FVec F S100000x128 .f32 :=
  addf
    (addf (Host.dotGeneral dot_S100000x128_S128x128_S100000x128_1_0_0_1_n_n none mean Wl)
      (broadcastInDim S100000x128 ![0, 1] bcast_S1x128_S100000x128_0_1 b2))
    (Host.dotGeneral dot_S100000x128_S128x128_S100000x128_1_0_0_1_n_n none x Wr)

/-- Every row divided by max(its Euclidean norm, ε), ε the float 1e-12. -/
def l2n (out : FVec F S100000x128 .f32) : FVec F S100000x128 .f32 :=
  Host.divf out
    (broadcastInDim S100000x128 ![0, 1] bcast_S100000x1_S100000x128_0_1
      (maximumf
        (Host.sqrt (broadcastInDim S100000x1 ![0] bcast_S100000_S100000x1_0
          (Host.reduceAdd (mulf out out) (constant S_ .f32 0x00000000#32) reducesTo_S100000x128_S100000_d1 h_S_)))
        (broadcastInDim S100000x1 ![] bcast_S_S100000x1 (constant S_ .f32 0x2B8CBCCC#32))))

/-- One graph-convolution layer, bias as a one-row array. -/
def sage2 (mean x : FVec F S100000x128 .f32) (Wl : FVec F S128x128 .f32) (b2 : FVec F S1x128 .f32)
    (Wr : FVec F S128x128 .f32) : FVec F S100000x128 .f32 :=
  l2n (lin2 mean x Wl b2 Wr)

/-- A length-128 vector as a one-row array. -/
def row (b : FVec F S128 .f32) : FVec F S1x128 .f32 := broadcastInDim S1x128 ![1] bcast_S128_S1x128_1 b

/-- The positive part. -/
def relu (x : FVec F S100000x128 .f32) : FVec F S100000x128 .f32 :=
  maximumf x (broadcastInDim S100000x128 ![] bcast_S_S100000x128 (constant S_ .f32 0x00000000#32))

/-- The sum of every column. -/
def colSum (h : FVec F S100000x128 .f32) : FVec F S128 .f32 :=
  Host.reduceAdd h (constant S_ .f32 0x00000000#32) reducesTo_S100000x128_S128_d0 h_S_

/-- The float 100000 at every column. -/
def nCols : FVec F S128 .f32 := broadcastInDim S128 ![] bcast_S_S128 (constant S_ .f32 0x47C35000#32)

/-- The column means. -/
def muRef (h : FVec F S100000x128 .f32) : FVec F S128 .f32 := Host.divf (colSum h) nCols

/-- The column variances as jnp.var computes them: the mean of the squared deviations from the column mean,
    divided by `100000 - ddof` with `ddof = 0`, guarded by `100000 - ddof > 0`. -/
def varRef (h : FVec F S100000x128 .f32) : FVec F S128 .f32 :=
  let mean4 : FVec F S100000x128 .f32 := broadcastInDim S100000x128 ![0, 1] bcast_S1x128_S100000x128_0_1
    (Host.divf (broadcastInDim S1x128 ![1] bcast_S128_S1x128_1 (colSum h))
      (broadcastInDim S1x128 ![] bcast_S_S1x128 (constant S_ .f32 0x47C35000#32)))
  let dev : FVec F S100000x128 .f32 := subf h mean4
  let nrm : FVec F S_ .f32 := subf (constant S_ .f32 0x47C35000#32) (sitofp .f32 (constantI S_ 32 0#32))
  select (broadcastInDim S128 ![] bcast_S_S128 (cmpf .ogt nrm (constant S_ .f32 0x00000000#32)))
    (Host.divf (colSum (mulf dev dev)) (broadcastInDim S128 ![] bcast_S_S128 nrm))
    (broadcastInDim S128 ![] bcast_S_S128 (id (constant S_ .f32 0x7FC00000#32)))

/-- A one-row array repeated down the 100000 rows. -/
def rows (r : FVec F S1x128 .f32) : FVec F S100000x128 .f32 :=
  broadcastInDim S100000x128 ![0, 1] bcast_S1x128_S100000x128_0_1 r

/-- The reference's batch normalisation: `(h - μ) · rsqrt(var + ε) · γ + β`, ε the float 1e-5. -/
def bnRef (h : FVec F S100000x128 .f32) (γ β : FVec F S128 .f32) : FVec F S100000x128 .f32 :=
  addf
    (mulf
      (mulf (subf h (rows (row (muRef h))))
        (rows (row (Host.rsqrt (addf (varRef h) (broadcastInDim S128 ![] bcast_S_S128 (constant S_ .f32 0x3727C5AC#32)))))))
      (rows (row γ)))
    (rows (row β))

/-- The embedding's first 64 columns times the head's weights plus its bias (a 1×1 array), as a column. -/
def head2 (embed : FVec F S100000x128 .f32) (fcW : FVec F S64x1 .f32) (fcb2 : FVec F S1x1 .f32) : FVec F S100000x1 .f32 :=
  addf
    (Host.dotGeneral dot_S100000x64_S64x1_S100000x1_1_0_0_1_n_n none
      (extractStridedSlice S100000x64 ![0, 0] embed slices_S100000x128_S100000x64_0_0) fcW)
    (broadcastInDim S100000x1 ![0, 1] bcast_S1x1_S100000x1_0_1 fcb2)

/-- The head's output as a vector. -/
def head (embed : FVec F S100000x128 .f32) (fcW : FVec F S64x1 .f32) (fcb : FVec F S1 .f32) : FVec F S100000 .f32 :=
  shapeCast S100000 (head2 embed fcW (broadcastInDim S1x1 ![1] bcast_S1_S1x1_1 fcb)) shapeCasts_S100000x1_S100000

/-- The hidden features after layer one, its positive part and the reference's batch normalisation. -/
def hiddenRef (x : FVec F S100000x128 .f32) (ei : IVec S2x600000 32) (W1l : FVec F S128x128 .f32) (b1 : FVec F S128 .f32)
    (W1r : FVec F S128x128 .f32) (γ β : FVec F S128 .f32) : FVec F S100000x128 .f32 :=
  bnRef (relu (sage2 (aggr x (srcOf ei) (dstOf ei)) x W1l (row b1) W1r)) γ β

/-- The embedding: layer two on the hidden features. -/
def embedOf (hid : FVec F S100000x128 .f32) (ei : IVec S2x600000 32) (W2l : FVec F S128x128 .f32) (b2 : FVec F S128 .f32)
    (W2r : FVec F S128x128 .f32) : FVec F S100000x128 .f32 :=
  sage2 (aggr hid (srcOf ei) (dstOf ei)) hid W2l (row b2) W2r

/-! ## The kernel's arrangement of the batch normalisation -/

section Kernel
variable [Cert.KernelIdeal.Facts]

/-- A length-128 vector as a one-row array, by re-reading its elements in row-major order. -/
def row1 (b : FVec F S128 .f32) : FVec F S1x128 .f32 :=
  shapeCast S1x128 b Cert.KernelIdeal.Facts₀.shapeCasts_S128_S1x128

/-- The affine application over one-row statistics: `(h - μ) · rsqrt(var + ε) · γ + β`, ε the float 1e-5. -/
def bnApply (h : FVec F S100000x128 .f32) (mu var g b : FVec F S1x128 .f32) : FVec F S100000x128 .f32 :=
  addf
    (mulf
      (mulf (subf h (rows mu))
        (rows (rsqrt (addf var (broadcast S1x128 (Scalar.ofBits .f32 0x3727C5AC#32))))))
      (rows g))
    (rows b)

/-- The column variances as the kernel computes them: the mean of the squares minus the squared mean. -/
def varKer (h : FVec F S100000x128 .f32) : FVec F S128 .f32 :=
  subf (Host.divf (colSum (mulf h h)) nCols) (mulf (muRef h) (muRef h))

/-- The kernel's batch normalisation. -/
def bnKer (h : FVec F S100000x128 .f32) (γ β : FVec F S128 .f32) : FVec F S100000x128 .f32 :=
  bnApply h (row1 (muRef h)) (row1 (varKer h)) (row1 γ) (row1 β)

end Kernel

end Cert.Spec

end
-- ==== Proof.Bridges.lean ====
/-
  Two spellings of the same array: a length-128 vector as a one-row array, by a reshape or by a broadcast along the
  new leading axis; and a one-element vector as a 1×1 array, likewise.
-/
import proofs.«103985_j71854802862201_1_alg».proof.Proof.Spec
import proofs.«103985_j71854802862201_1_alg».proof.Proof.Gen.ReferenceIdeal
import proofs.«103985_j71854802862201_1_alg».proof.Proof.Gen.KernelIdeal
import Idealize.ShloMosaic.Lib.ValueIdx
import Idealize.ShloMosaic.Lib.ValueLayout
import Idealize.ShloMosaic.Lib.Pipeline.Value

noncomputable section

namespace Cert.Spec

open Idealize.ShloMosaic Idealize.ShloMosaic.ValueIdx

variable {F : FTy → Type} [FloatOps F]

/-- Reshaping a length-128 vector to one row and broadcasting it along a new leading axis both put `b j` at `(0, j)`. -/
theorem row1_eq_row (b : FVec F Cert.ReferenceIdeal.S128 .f32) : row1 b = row b := by
  funext j
  obtain ⟨u, i, rfl⟩ : ∃ (u : Fin 1) (i : Fin 128), j = ix2 u i := ⟨j 0, j 1, eq_ix2 j⟩
  unfold row1 row
  rw [shapeCast_a_1a_apply]
  exact (broadcastInDim_apply _ _ b (ix2 u i) (ix1 i) (fun a => by match a with | ⟨0, _⟩ => rfl)).symm

/-- The one-element index type. -/
instance : Subsingleton Cert.ReferenceIdeal.S1.Idx :=
  ⟨fun x y => funext fun a => Fin.ext (by
    match a with
    | ⟨0, _⟩ => exact (Nat.lt_one_iff.mp (x _).isLt).trans (Nat.lt_one_iff.mp (y _).isLt).symm)⟩

/-- A one-element vector reshaped to 1×1 and broadcast to 1×1 are the same array: both hold its one element. -/
theorem fcb_eq (b : FVec F Cert.ReferenceIdeal.S1 .f32) :
    shapeCast Cert.KernelIdeal.S1x1 b Cert.KernelIdeal.Facts₀.shapeCasts_S1_S1x1
      = broadcastInDim Cert.ReferenceIdeal.S1x1 ![1] Cert.ReferenceIdeal.Facts₀.bcast_S1_S1x1_1 b := by
  funext j
  unfold shapeCast broadcastInDim
  exact congrArg b (Subsingleton.elim _ _)

end Cert.Spec

end
-- ==== Proof.KerRun.lean ====
/-
  The idealised kernel program's run with its two results NAMED: every weakly fair execution ends with the
  prediction vector and the embedding at what the last boundary's contents hold (the fold of the four regions'
  write-backs and the host operations between them over the launch memory), the arguments as launched.
-/
import proofs.«103985_j71854802862201_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the eight segments, read at the two result buffers and at every argument. -/
theorem run_values : θ_run defs (onTc (τ := τ) (main (F := F))) ⟨m, fun _ => 0, ρ⟩ (fun r => ∀ c : Dev nD,
      r.2.mem ((c.tc : Thread nD τ).loc main_v61) = W8 m ρ c (Proc.devRef .tc main_v61)
      ∧ r.2.mem ((c.tc : Thread nD τ).loc main_v60_0) = W8 m ρ c (Proc.devRef .tc main_v60_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v61 (by decide)), h c _ (mem_uc main_v60_0 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c)⟩)

end Cert.KernelIdeal.Run

end
-- ==== Proof.KerChain.lean ====
/-
  What the idealised kernel program's last boundary holds at its two results, as a composition of the stages of
  Spec.lean: the host operations between the regions are read as those stages (the mean over incoming edges, the
  batch statistics' means and variances, the reshapes of the biases), each region's array as what that region writes,
  and every other buffer is carried unchanged across the segments that do not write it.
-/
import proofs.«103985_j71854802862201_1_alg».proof.Proof.Spec
import proofs.«103985_j71854802862201_1_alg».proof.Proof.Gen.ReferenceIdeal
import proofs.«103985_j71854802862201_1_alg».proof.Proof.Gen.KernelIdeal.Frame
import Idealize.ShloMosaic.Lib.StableHlo.Run
import Idealize.ShloMosaic.Lib.Pipeline.Value

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

/-- A host stretch leaves a buffer alone when none of its operations writes it. -/
local macro "host_skip " h:ident : tactic => `(tactic|
  exact StableHlo.after_of_forall_not_mem _ _ (List.forall_iff_forall_mem.mp (by
    simp only [$h:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-! ## The host stretches, from any entry contents -/

section Host
variable (X : Valuation τ sig (Elt Ideal))

attribute [local irreducible] Host.gather Host.scatterAdd Host.divf in
theorem host0_src : after (hostOps0 (F := Ideal)) X (Proc.devRef .tc main_v1) = Cert.Spec.srcOf (X (Proc.devRef .tc main_arg1)) := by
  after_results_simp
  rfl

attribute [local irreducible] Host.gather Host.scatterAdd Host.divf in
theorem host0_dst : after (hostOps0 (F := Ideal)) X (Proc.devRef .tc main_v3) = Cert.Spec.dstOf (X (Proc.devRef .tc main_arg1)) := by
  after_results_simp
  rfl

attribute [local irreducible] Host.gather Host.scatterAdd Host.divf in
set_option maxHeartbeats 2000000 in
/-- The first stretch computes the mean of the in-neighbours' input features. -/
theorem host0_mean : after (hostOps0 (F := Ideal)) X (Proc.devRef .tc main_v22)
    = Cert.Spec.aggr (F := Ideal) (X (Proc.devRef .tc main_arg0)) (Cert.Spec.srcOf (X (Proc.devRef .tc main_arg1))) (Cert.Spec.dstOf (X (Proc.devRef .tc main_arg1))) := by
  after_results_simp
  rfl

attribute [local irreducible] Host.gather Host.scatterAdd Host.divf in
theorem host0_bias : after (hostOps0 (F := Ideal)) X (Proc.devRef .tc main_v23) = Cert.Spec.row1 (F := Ideal) (X (Proc.devRef .tc main_arg3)) := by
  after_results_simp
  rfl

/-- The column means as a one-row array, from the accumulated column sums. -/
theorem host2_mu : after (hostOps2 (F := Ideal)) X (Proc.devRef .tc main_v34)
    = Cert.Spec.row1 (F := Ideal) (Host.divf (shapeCast S128 (X (Proc.devRef .tc main_v25_0)) shapeCasts_S1x128_S128) Cert.Spec.nCols) := by
  after_results_simp
  rfl

/-- The column variances as a one-row array: the mean of the squares minus the squared mean. -/
theorem host2_var : after (hostOps2 (F := Ideal)) X (Proc.devRef .tc main_v35)
    = Cert.Spec.row1 (F := Ideal) (subf (Host.divf (shapeCast S128 (X (Proc.devRef .tc main_v25_1)) shapeCasts_S1x128_S128) Cert.Spec.nCols)
        (mulf (Host.divf (shapeCast S128 (X (Proc.devRef .tc main_v25_0)) shapeCasts_S1x128_S128) Cert.Spec.nCols)
          (Host.divf (shapeCast S128 (X (Proc.devRef .tc main_v25_0)) shapeCasts_S1x128_S128) Cert.Spec.nCols))) := by
  after_results_simp
  rfl

theorem host2_gamma : after (hostOps2 (F := Ideal)) X (Proc.devRef .tc main_v36) = Cert.Spec.row1 (F := Ideal) (X (Proc.devRef .tc main_arg5)) := by
  after_results_simp
  rfl

theorem host2_beta : after (hostOps2 (F := Ideal)) X (Proc.devRef .tc main_v37) = Cert.Spec.row1 (F := Ideal) (X (Proc.devRef .tc main_arg6)) := by
  after_results_simp
  rfl

attribute [local irreducible] Host.gather Host.scatterAdd Host.divf in
set_option maxHeartbeats 2000000 in
/-- The third stretch computes the mean of the in-neighbours' hidden features, over the edge endpoints found by the first. -/
theorem host3_mean : after (hostOps3 (F := Ideal)) X (Proc.devRef .tc main_v57)
    = Cert.Spec.aggr (F := Ideal) (X (Proc.devRef .tc main_v38)) (X (Proc.devRef .tc main_v1)) (X (Proc.devRef .tc main_v3)) := by
  after_results_simp
  rfl

attribute [local irreducible] Host.gather Host.scatterAdd Host.divf in
theorem host3_bias : after (hostOps3 (F := Ideal)) X (Proc.devRef .tc main_v58) = Cert.Spec.row1 (F := Ideal) (X (Proc.devRef .tc main_arg8)) := by
  after_results_simp
  rfl

attribute [local irreducible] Host.gather Host.scatterAdd Host.divf in
theorem host3_fcb : after (hostOps3 (F := Ideal)) X (Proc.devRef .tc main_v59) = shapeCast S1x1 (X (Proc.devRef .tc main_arg11)) shapeCasts_S1_S1x1 := by
  after_results_simp
  rfl

theorem host4_preds : after (hostOps4 (F := Ideal)) X (Proc.devRef .tc main_v61) = shapeCast S100000 (X (Proc.devRef .tc main_v60_1)) shapeCasts_S100000x1_S100000 := by
  after_results_simp
  rfl

end Host

/-! ## The regions' results, as hypotheses the assembly supplies -/

/-- What each region leaves in its output arrays, from ANY entry contents. -/
structure Regions : Prop where
  r0 : ∀ (V : (c : Dev nD) → (b : Ref sig .tc) → Buf (Elt Ideal) ((c : Thread nD τ).loc b)) (c : Dev nD),
    (dat0 (F := Ideal) V c).arrAt 5 cfg0.N
      = Cert.Spec.relu (F := Ideal) (Cert.Spec.sage2 (V c main_v22) (V c main_arg0) (V c main_arg2) (V c main_v23) (V c main_arg4))
  r1s : ∀ (V : (c : Dev nD) → (b : Ref sig .tc) → Buf (Elt Ideal) ((c : Thread nD τ).loc b)) (c : Dev nD),
    (dat1 (F := Ideal) V c).arrAt 1 cfg1.N
      = shapeCast S1x128 (Cert.Spec.colSum (F := Ideal) (V c main_v24)) shapeCasts_S128_S1x128
  r1q : ∀ (V : (c : Dev nD) → (b : Ref sig .tc) → Buf (Elt Ideal) ((c : Thread nD τ).loc b)) (c : Dev nD),
    (dat1 (F := Ideal) V c).arrAt 2 cfg1.N
      = shapeCast S1x128 (Cert.Spec.colSum (F := Ideal) (mulf (V c main_v24) (V c main_v24))) shapeCasts_S128_S1x128
  r2 : ∀ (V : (c : Dev nD) → (b : Ref sig .tc) → Buf (Elt Ideal) ((c : Thread nD τ).loc b)) (c : Dev nD),
    (dat2 (F := Ideal) V c).arrAt 5 cfg2.N
      = Cert.Spec.bnApply (F := Ideal) (V c main_v24) (V c main_v34) (V c main_v35) (V c main_v36) (V c main_v37)
  r3e : ∀ (V : (c : Dev nD) → (b : Ref sig .tc) → Buf (Elt Ideal) ((c : Thread nD τ).loc b)) (c : Dev nD),
    (dat3 (F := Ideal) V c).arrAt 7 cfg3.N
      = Cert.Spec.sage2 (F := Ideal) (V c main_v57) (V c main_v38) (V c main_arg7) (V c main_v58) (V c main_arg9)
  r3p : ∀ (V : (c : Dev nD) → (b : Ref sig .tc) → Buf (Elt Ideal) ((c : Thread nD τ).loc b)) (c : Dev nD),
    (dat3 (F := Ideal) V c).arrAt 8 cfg3.N
      = Cert.Spec.head2 (F := Ideal) (Cert.Spec.sage2 (V c main_v57) (V c main_v38) (V c main_arg7) (V c main_v58) (V c main_arg9))
          (V c main_arg10) (V c main_v59)

/-! ## The walk through the eight segments -/

section Walk
variable (m : (ℓ : Loc nD τ sig) → Buf (Elt Ideal) ℓ) (ρ : Dev nD → PrngReg) (c : Dev nD)

/-- The edge sources and destinations, from the launch contents of the edge list. -/
def srcA := Cert.Spec.srcOf (W0 m ρ c (Proc.devRef .tc main_arg1))
def dstA := Cert.Spec.dstOf (W0 m ρ c (Proc.devRef .tc main_arg1))
/-- The hidden features after layer one and its positive part. -/
def h1 := Cert.Spec.relu (F := Ideal) (Cert.Spec.sage2 (Cert.Spec.aggr (W0 m ρ c (Proc.devRef .tc main_arg0)) (srcA m ρ c) (dstA m ρ c)) (W0 m ρ c (Proc.devRef .tc main_arg0)) (W0 m ρ c (Proc.devRef .tc main_arg2))
  (Cert.Spec.row1 (W0 m ρ c (Proc.devRef .tc main_arg3))) (W0 m ρ c (Proc.devRef .tc main_arg4)))
/-- … batch-normalised in the kernel's arrangement. -/
def hb := Cert.Spec.bnKer (F := Ideal) (h1 m ρ c) (W0 m ρ c (Proc.devRef .tc main_arg5)) (W0 m ρ c (Proc.devRef .tc main_arg6))
/-- The embedding. -/
def emb := Cert.Spec.sage2 (F := Ideal) (Cert.Spec.aggr (hb m ρ c) (srcA m ρ c) (dstA m ρ c)) (hb m ρ c) (W0 m ρ c (Proc.devRef .tc main_arg7))
  (Cert.Spec.row1 (W0 m ρ c (Proc.devRef .tc main_arg8))) (W0 m ρ c (Proc.devRef .tc main_arg9))

/-! ### Region 0's entry -/
theorem v1_mean : V1 m ρ c main_v22 = Cert.Spec.aggr (F := Ideal) (W0 m ρ c (Proc.devRef .tc main_arg0)) (srcA m ρ c) (dstA m ρ c) := host0_mean (W0 m ρ c)
theorem v1_bias : V1 m ρ c main_v23 = Cert.Spec.row1 (F := Ideal) (W0 m ρ c (Proc.devRef .tc main_arg3)) := host0_bias (W0 m ρ c)
theorem v1_arg0 : V1 m ρ c main_arg0 = (W0 m ρ c (Proc.devRef .tc main_arg0)) := by host_skip hostOps0
theorem v1_arg2 : V1 m ρ c main_arg2 = (W0 m ρ c (Proc.devRef .tc main_arg2)) := by host_skip hostOps0
theorem v1_arg4 : V1 m ρ c main_arg4 = (W0 m ρ c (Proc.devRef .tc main_arg4)) := by host_skip hostOps0

/-- After region 0 the hidden-feature array holds the positive part of layer one. -/
theorem v2_h (R : Regions) : V2 m ρ c main_v24 = h1 m ρ c := by
  refine (W2_arr m ρ c 5).trans ((R.r0 (V1 m ρ) c).trans ?_)
  rw [v1_mean, v1_bias, v1_arg0, v1_arg2, v1_arg4]
  rfl

/-! ### Region 1 and the statistics -/
theorem w3_sum (R : Regions) : W3 m ρ c (Proc.devRef .tc main_v25_0) = shapeCast S1x128 (Cert.Spec.colSum (F := Ideal) (h1 m ρ c)) shapeCasts_S128_S1x128 := by
  refine (W3_arr m ρ c 1).trans ((R.r1s (V2 m ρ) c).trans ?_)
  rw [v2_h m ρ c R]
theorem w3_sumsq (R : Regions) : W3 m ρ c (Proc.devRef .tc main_v25_1)
    = shapeCast S1x128 (Cert.Spec.colSum (F := Ideal) (mulf (h1 m ρ c) (h1 m ρ c))) shapeCasts_S128_S1x128 := by
  refine (W3_arr m ρ c 2).trans ((R.r1q (V2 m ρ) c).trans ?_)
  rw [v2_h m ρ c R]
theorem w3_h (R : Regions) : W3 m ρ c (Proc.devRef .tc main_v24) = h1 m ρ c :=
  ((W3_arr m ρ c 0).trans (((dat1 (V2 m ρ) c).arrAt_in 0 rfl _).trans (A_eq1 (V2 m ρ) c 0))).trans (v2_h m ρ c R)
theorem w3_arg5 : W3 m ρ c (Proc.devRef .tc main_arg5) = (W0 m ρ c (Proc.devRef .tc main_arg5)) :=
  (W3_of_ne m ρ c main_arg5 (by decide)).trans ((W2_of_ne m ρ c main_arg5 (by decide)).trans (by host_skip hostOps0))
theorem w3_arg6 : W3 m ρ c (Proc.devRef .tc main_arg6) = (W0 m ρ c (Proc.devRef .tc main_arg6)) :=
  (W3_of_ne m ρ c main_arg6 (by decide)).trans ((W2_of_ne m ρ c main_arg6 (by decide)).trans (by host_skip hostOps0))

/-! ### Region 2's entry -/
theorem v4_h (R : Regions) : V4 m ρ c main_v24 = h1 m ρ c :=
  (by host_skip hostOps2 : W4 m ρ c (Proc.devRef .tc main_v24) = W3 m ρ c (Proc.devRef .tc main_v24)).trans (w3_h m ρ c R)
theorem v4_mu (R : Regions) : V4 m ρ c main_v34 = Cert.Spec.row1 (F := Ideal) (Cert.Spec.muRef (h1 m ρ c)) := by
  refine (host2_mu (W3 m ρ c)).trans ?_
  rw [w3_sum m ρ c R]
  exact congrArg (fun z => Cert.Spec.row1 (F := Ideal) (Host.divf z Cert.Spec.nCols)) (shapeCast_shapeCast _ _ _)
theorem v4_var (R : Regions) : V4 m ρ c main_v35 = Cert.Spec.row1 (F := Ideal) (Cert.Spec.varKer (h1 m ρ c)) := by
  refine (host2_var (W3 m ρ c)).trans ?_
  rw [w3_sum m ρ c R, w3_sumsq m ρ c R]
  have e1 : shapeCast S128 (shapeCast S1x128 (Cert.Spec.colSum (F := Ideal) (h1 m ρ c)) shapeCasts_S128_S1x128) shapeCasts_S1x128_S128
      = Cert.Spec.colSum (F := Ideal) (h1 m ρ c) := shapeCast_shapeCast _ _ _
  have e2 : shapeCast S128 (shapeCast S1x128 (Cert.Spec.colSum (F := Ideal) (mulf (h1 m ρ c) (h1 m ρ c))) shapeCasts_S128_S1x128) shapeCasts_S1x128_S128
      = Cert.Spec.colSum (F := Ideal) (mulf (h1 m ρ c) (h1 m ρ c)) := shapeCast_shapeCast _ _ _
  rw [e1, e2]
  rfl
theorem v4_gamma : V4 m ρ c main_v36 = Cert.Spec.row1 (F := Ideal) (W0 m ρ c (Proc.devRef .tc main_arg5)) := by
  refine (host2_gamma (W3 m ρ c)).trans ?_
  rw [w3_arg5]
theorem v4_beta : V4 m ρ c main_v37 = Cert.Spec.row1 (F := Ideal) (W0 m ρ c (Proc.devRef .tc main_arg6)) := by
  refine (host2_beta (W3 m ρ c)).trans ?_
  rw [w3_arg6]

/-- After region 2 the normalised hidden features. -/
theorem w5_hb (R : Regions) : W5 m ρ c (Proc.devRef .tc main_v38) = hb m ρ c := by
  refine (W5_arr m ρ c 5).trans ((R.r2 (V4 m ρ) c).trans ?_)
  rw [v4_h m ρ c R, v4_mu m ρ c R, v4_var m ρ c R, v4_gamma, v4_beta]
  rfl

/-! ### Region 3's entry -/
theorem w5_src : W5 m ρ c (Proc.devRef .tc main_v1) = srcA m ρ c :=
  (W5_of_ne m ρ c main_v1 (by decide)).trans ((by host_skip hostOps2 : W4 m ρ c (Proc.devRef .tc main_v1) = W3 m ρ c (Proc.devRef .tc main_v1)).trans
    ((W3_of_ne m ρ c main_v1 (by decide)).trans ((W2_of_ne m ρ c main_v1 (by decide)).trans (host0_src (W0 m ρ c)))))
theorem w5_dst : W5 m ρ c (Proc.devRef .tc main_v3) = dstA m ρ c :=
  (W5_of_ne m ρ c main_v3 (by decide)).trans ((by host_skip hostOps2 : W4 m ρ c (Proc.devRef .tc main_v3) = W3 m ρ c (Proc.devRef .tc main_v3)).trans
    ((W3_of_ne m ρ c main_v3 (by decide)).trans ((W2_of_ne m ρ c main_v3 (by decide)).trans (host0_dst (W0 m ρ c)))))
theorem w5_arg7 : W5 m ρ c (Proc.devRef .tc main_arg7) = (W0 m ρ c (Proc.devRef .tc main_arg7)) :=
  (W5_of_ne m ρ c main_arg7 (by decide)).trans ((by host_skip hostOps2 : W4 m ρ c (Proc.devRef .tc main_arg7) = W3 m ρ c (Proc.devRef .tc main_arg7)).trans
    ((W3_of_ne m ρ c main_arg7 (by decide)).trans ((W2_of_ne m ρ c main_arg7 (by decide)).trans (by host_skip hostOps0))))
theorem w5_arg8 : W5 m ρ c (Proc.devRef .tc main_arg8) = (W0 m ρ c (Proc.devRef .tc main_arg8)) :=
  (W5_of_ne m ρ c main_arg8 (by decide)).trans ((by host_skip hostOps2 : W4 m ρ c (Proc.devRef .tc main_arg8) = W3 m ρ c (Proc.devRef .tc main_arg8)).trans
    ((W3_of_ne m ρ c main_arg8 (by decide)).trans ((W2_of_ne m ρ c main_arg8 (by decide)).trans (by host_skip hostOps0))))
theorem w5_arg9 : W5 m ρ c (Proc.devRef .tc main_arg9) = (W0 m ρ c (Proc.devRef .tc main_arg9)) :=
  (W5_of_ne m ρ c main_arg9 (by decide)).trans ((by host_skip hostOps2 : W4 m ρ c (Proc.devRef .tc main_arg9) = W3 m ρ c (Proc.devRef .tc main_arg9)).trans
    ((W3_of_ne m ρ c main_arg9 (by decide)).trans ((W2_of_ne m ρ c main_arg9 (by decide)).trans (by host_skip hostOps0))))
theorem w5_arg10 : W5 m ρ c (Proc.devRef .tc main_arg10) = (W0 m ρ c (Proc.devRef .tc main_arg10)) :=
  (W5_of_ne m ρ c main_arg10 (by decide)).trans ((by host_skip hostOps2 : W4 m ρ c (Proc.devRef .tc main_arg10) = W3 m ρ c (Proc.devRef .tc main_arg10)).trans
    ((W3_of_ne m ρ c main_arg10 (by decide)).trans ((W2_of_ne m ρ c main_arg10 (by decide)).trans (by host_skip hostOps0))))
theorem w5_arg11 : W5 m ρ c (Proc.devRef .tc main_arg11) = (W0 m ρ c (Proc.devRef .tc main_arg11)) :=
  (W5_of_ne m ρ c main_arg11 (by decide)).trans ((by host_skip hostOps2 : W4 m ρ c (Proc.devRef .tc main_arg11) = W3 m ρ c (Proc.devRef .tc main_arg11)).trans
    ((W3_of_ne m ρ c main_arg11 (by decide)).trans ((W2_of_ne m ρ c main_arg11 (by decide)).trans (by host_skip hostOps0))))

theorem v6_mean (R : Regions) : V6 m ρ c main_v57 = Cert.Spec.aggr (F := Ideal) (hb m ρ c) (srcA m ρ c) (dstA m ρ c) := by
  refine (host3_mean (W5 m ρ c)).trans ?_
  rw [w5_hb m ρ c R, w5_src, w5_dst]
theorem v6_hb (R : Regions) : V6 m ρ c main_v38 = hb m ρ c :=
  (by host_skip hostOps3 : W6 m ρ c (Proc.devRef .tc main_v38) = W5 m ρ c (Proc.devRef .tc main_v38)).trans (w5_hb m ρ c R)
theorem v6_bias : V6 m ρ c main_v58 = Cert.Spec.row1 (F := Ideal) (W0 m ρ c (Proc.devRef .tc main_arg8)) := by
  refine (host3_bias (W5 m ρ c)).trans ?_
  rw [w5_arg8]
theorem v6_fcb : V6 m ρ c main_v59 = shapeCast S1x1 (W0 m ρ c (Proc.devRef .tc main_arg11)) shapeCasts_S1_S1x1 := by
  refine (host3_fcb (W5 m ρ c)).trans ?_
  rw [w5_arg11]
theorem v6_arg7 : V6 m ρ c main_arg7 = (W0 m ρ c (Proc.devRef .tc main_arg7)) :=
  (by host_skip hostOps3 : W6 m ρ c (Proc.devRef .tc main_arg7) = W5 m ρ c (Proc.devRef .tc main_arg7)).trans (w5_arg7 m ρ c)
theorem v6_arg9 : V6 m ρ c main_arg9 = (W0 m ρ c (Proc.devRef .tc main_arg9)) :=
  (by host_skip hostOps3 : W6 m ρ c (Proc.devRef .tc main_arg9) = W5 m ρ c (Proc.devRef .tc main_arg9)).trans (w5_arg9 m ρ c)
theorem v6_arg10 : V6 m ρ c main_arg10 = (W0 m ρ c (Proc.devRef .tc main_arg10)) :=
  (by host_skip hostOps3 : W6 m ρ c (Proc.devRef .tc main_arg10) = W5 m ρ c (Proc.devRef .tc main_arg10)).trans (w5_arg10 m ρ c)

/-! ### Region 3 and the last stretch -/
theorem w7_emb (R : Regions) : W7 m ρ c (Proc.devRef .tc main_v60_0) = emb m ρ c := by
  refine (W7_arr m ρ c 7).trans ((R.r3e (V6 m ρ) c).trans ?_)
  rw [v6_mean m ρ c R, v6_hb m ρ c R, v6_bias, v6_arg7, v6_arg9]
  rfl
theorem w7_preds (R : Regions) : W7 m ρ c (Proc.devRef .tc main_v60_1)
    = Cert.Spec.head2 (F := Ideal) (emb m ρ c) (W0 m ρ c (Proc.devRef .tc main_arg10)) (shapeCast S1x1 (W0 m ρ c (Proc.devRef .tc main_arg11)) shapeCasts_S1_S1x1) := by
  refine (W7_arr m ρ c 8).trans ((R.r3p (V6 m ρ) c).trans ?_)
  rw [v6_mean m ρ c R, v6_hb m ρ c R, v6_bias, v6_fcb, v6_arg7, v6_arg9, v6_arg10]
  rfl

/-- The embedding at the last boundary. -/
theorem w8_emb (R : Regions) : W8 m ρ c (Proc.devRef .tc main_v60_0) = emb m ρ c :=
  (by host_skip hostOps4 : W8 m ρ c (Proc.devRef .tc main_v60_0) = W7 m ρ c (Proc.devRef .tc main_v60_0)).trans (w7_emb m ρ c R)
/-- The predictions at the last boundary: the head's column re-read as a vector. -/
theorem w8_preds (R : Regions) : W8 m ρ c (Proc.devRef .tc main_v61)
    = shapeCast S100000 (Cert.Spec.head2 (F := Ideal) (emb m ρ c) (W0 m ρ c (Proc.devRef .tc main_arg10)) (shapeCast S1x1 (W0 m ρ c (Proc.devRef .tc main_arg11)) shapeCasts_S1_S1x1))
        shapeCasts_S100000x1_S100000 := by
  refine (host4_preds (W7 m ρ c)).trans ?_
  rw [w7_preds m ρ c R]

end Walk

end Cert.KernelIdeal.Chain

end
-- ==== Proof.SageRow.lean ====
/-
  One node of a mean-aggregation layer, as arithmetic on extended reals: an entry of the affine combination
  mean · W_l + b + x · W_r from the node's two feature rows; an entry of a row divided by max(‖row‖, ε); the linear
  head on the first 64 entries of a row. And two layout readings: a vector viewed as a one-column matrix, and a
  one-column matrix repeated along the columns.
-/
import Idealize.ShloMosaic.PureOps.Ideal
import Idealize.ShloMosaic.Lib.ValueIdx
import Idealize.ShloMosaic.Lib.Pipeline.Value

noncomputable section

namespace Cert.Spec

open Idealize.ShloMosaic Idealize.ShloMosaic.ValueIdx
open scoped BigOperators

/-- One entry of mean · W_l + b + x · W_r, from one row of the aggregated and one row of the own features. -/
def linAt (mr xr : Fin 128 → EReal) (Wl Wr : (⟨2, ![128, 128]⟩ : Shape).Idx → EReal)
    (b : (⟨2, ![1, 128]⟩ : Shape).Idx → EReal) (j : Fin 128) : EReal :=
  (∑ k : Fin 128, mr k * Wl (ix2 k j)) + b (ix2 (0 : Fin 1) j) + ∑ k : Fin 128, xr k * Wr (ix2 k j)

/-- One entry of a row divided by max(its Euclidean norm, ε), ε the float 1e-12. -/
def l2At (o : Fin 128 → EReal) (j : Fin 128) : EReal :=
  Ideal.div (o j) (max (Ideal.sqrt (∑ j' : Fin 128, o j' * o j')) (Ideal.ofBits .f32 0x2B8CBCCC#32))

/-- The head at a node: the first 64 entries of its embedding row against the weights, plus the bias. -/
def headAt (e : Fin 128 → EReal) (fcW : (⟨2, ![64, 1]⟩ : Shape).Idx → EReal) (fcb2 : (⟨2, ![1, 1]⟩ : Shape).Idx → EReal) : EReal :=
  (∑ k : Fin 64, e (Fin.castLE (by decide) k) * fcW (ix2 k (0 : Fin 1))) + fcb2 (ix2 (0 : Fin 1) (0 : Fin 1))

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Spec

end
-- ==== Proof.SageAt.lean ====
/-
  The specification's layer, positive part and head READ AT AN ENTRY, at the exact values: the reference's products
  are sums over the middle positions, its row reduction the sum of a row's squares, its broadcasts repeat a row or a
  column; so an entry of a layer's output depends only on the node's own two feature rows.
-/
import proofs.«103985_j71854802862201_1_alg».proof.Proof.Spec
import proofs.«103985_j71854802862201_1_alg».proof.Proof.SageRow
import proofs.«103985_j71854802862201_1_alg».proof.Proof.Gen.ReferenceIdeal
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

set_option maxRecDepth 16384

noncomputable section

namespace Cert.Spec

open Idealize.ShloMosaic Idealize.ShloMosaic.ValueIdx
open scoped BigOperators

section Reference
open Cert.ReferenceIdeal Cert.ReferenceIdeal.Facts₀
variable [Cert.ReferenceIdeal.Facts]

theorem refDot_lhs0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide),
    dif_pos (show (0 : Fin S100000x128.rank) ∈ dot_S100000x128_S128x128_S100000x128_1_0_0_1_n_n.lhsNonContracting by decide)]
  rfl

theorem refDot_rhs1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide),
    dif_pos (show (1 : Fin S128x128.rank) ∈ dot_S100000x128_S128x128_S100000x128_1_0_0_1_n_n.rhsNonContracting by decide)]
  rfl

/-- The reference's product of a 100000×128 array with a 128×128 matrix at an entry: the sum over the 128 middle positions. -/
theorem refDot_apply (a : FVec Ideal S100000x128 .f32) (W : FVec Ideal S128x128 .f32) (i : Fin 100000) (j : Fin 128) :
    Host.dotGeneral (F := Ideal) dot_S100000x128_S128x128_S100000x128_1_0_0_1_n_n none a W (ix2 i j)
      = ∑ k : Fin 128, a (ix2 i k) * W (ix2 k j) := by
  show FloatOps.dotGeneral dot_S100000x128_S128x128_S100000x128_1_0_0_1_n_n none .single a W (ix2 i j) = _
  rw [Ideal.dotGeneral_apply, ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 i j)
      ((contrEquiv1 dot_S100000x128_S128x128_S100000x128_1_0_0_1_n_n 128 rfl rfl).symm k) = ix2 i k :=
    funext fun a => Fin.ext (by
      match a with
      | ⟨0, _⟩ => exact refDot_lhs0 _ _
      | ⟨1, _⟩ => exact (dot_S100000x128_S128x128_S100000x128_1_0_0_1_n_n.lhsIdx_val_of_single rfl _ _).trans hk)
  have er : dot_S100000x128_S128x128_S100000x128_1_0_0_1_n_n.rhsIdx (ix2 i j)
      ((contrEquiv1 dot_S100000x128_S128x128_S100000x128_1_0_0_1_n_n 128 rfl rfl).symm k) = ix2 k j :=
    funext fun a => Fin.ext (by
      match a with
      | ⟨0, _⟩ => exact (dot_S100000x128_S128x128_S100000x128_1_0_0_1_n_n.rhsIdx_val_of_single rfl _ _).trans hk
      | ⟨1, _⟩ => exact refDot_rhs1 _ _)
  rw [el, er]

theorem hostSqrt_apply {s : Shape} {φ : FTy} (x : FVec Ideal s φ) (i : s.Idx) : Host.sqrt x i = Ideal.sqrt (x i) := rfl

theorem lin2_apply (mean x : FVec Ideal S100000x128 .f32) (Wl : FVec Ideal S128x128 .f32) (b2 : FVec Ideal S1x128 .f32)
    (Wr : FVec Ideal S128x128 .f32) (i : Fin 100000) (j : Fin 128) :
    lin2 (F := Ideal) mean x Wl b2 Wr (ix2 i j)
      = linAt (fun k => mean (ix2 i k)) (fun k => x (ix2 i k)) Wl Wr b2 j := by
  unfold lin2 linAt
  rw [addf_apply, addf_apply, refDot_apply, refDot_apply,
    broadcastInDim_apply ![0, 1] bcast_S1x128_S100000x128_0_1 b2 (ix2 i j) (ix2 (0 : Fin 1) j)
      (fun a => by match a with | ⟨0, _⟩ => rfl | ⟨1, _⟩ => rfl)]

theorem l2n_apply (out : FVec Ideal S100000x128 .f32) (i : Fin 100000) (j : Fin 128) :
    l2n (F := Ideal) out (ix2 i j) = l2At (fun j' => out (ix2 i j')) j := by
  have hR : S100000x128.Reduces [1] S100000 := by decide
  have hl : ∀ k : Fin 128, hR.lift (ix1 i) k = ix2 i k := fun k => funext fun c => Fin.ext (by
    match c with | ⟨0, _⟩ => rfl | ⟨1, _⟩ => rfl)
  unfold l2n l2At
  rw [hostDivf_apply,
    broadcastInDim_apply ![0, 1] bcast_S100000x1_S100000x128_0_1 _ (ix2 i j) (ix2 i (0 : Fin 1))
      (fun a => by match a with | ⟨0, _⟩ => rfl | ⟨1, _⟩ => rfl),
    maximumf_apply, broadcastInDim_scalar_apply, constant_apply]
  rw [hostSqrt_apply, broadcastInDim_apply ![0] bcast_S100000_S100000x1_0 _ (ix2 i (0 : Fin 1)) (ix1 i)
      (fun a => by match a with | ⟨0, _⟩ => rfl),
    hostReduceAdd_apply, Ideal.hostReduceAdd_single reducesTo_S100000x128_S100000_d1 hR, constant_apply,
    Ideal.ofBits_zero_f32, zero_add]
  refine congrArg (fun s => Ideal.div _ (max (Ideal.sqrt s) _)) ?_
  exact Finset.sum_congr rfl fun k _ => by rw [hl k]; rfl

/-- One layer at an entry: the affine combination of the node's two rows, normalised. -/
theorem sage2_apply (mean x : FVec Ideal S100000x128 .f32) (Wl : FVec Ideal S128x128 .f32) (b2 : FVec Ideal S1x128 .f32)
    (Wr : FVec Ideal S128x128 .f32) (i : Fin 100000) (j : Fin 128) :
    sage2 (F := Ideal) mean x Wl b2 Wr (ix2 i j)
      = l2At (linAt (fun k => mean (ix2 i k)) (fun k => x (ix2 i k)) Wl Wr b2) j := by
  unfold sage2
  rw [l2n_apply]
  exact congrArg (fun o => l2At o j) (funext fun j' => lin2_apply mean x Wl b2 Wr i j')

/-- The positive part at an entry. -/
theorem relu_apply (x : FVec Ideal S100000x128 .f32) (i : S100000x128.Idx) : relu (F := Ideal) x i = max (x i) 0 := by
  unfold relu
  rw [maximumf_apply, broadcastInDim_scalar_apply, constant_apply, Ideal.ofBits_zero_f32]

theorem refHead_lhs0 (i : S100000x1.Idx) (q : dot_S100000x64_S64x1_S100000x1_1_0_0_1_n_n.contr.Idx) :
    (dot_S100000x64_S64x1_S100000x1_1_0_0_1_n_n.lhsIdx i q 0).val = (i 0).val := by
  unfold DotDims.lhsIdx
  rw [dif_neg (show ¬(0 : Fin S100000x64.rank) ∈ dot_S100000x64_S64x1_S100000x1_1_0_0_1_n_n.lhsBatch by decide),
    dif_pos (show (0 : Fin S100000x64.rank) ∈ dot_S100000x64_S64x1_S100000x1_1_0_0_1_n_n.lhsNonContracting by decide)]
  rfl

theorem refHead_rhs1 (i : S100000x1.Idx) (q : dot_S100000x64_S64x1_S100000x1_1_0_0_1_n_n.contr.Idx) :
    (dot_S100000x64_S64x1_S100000x1_1_0_0_1_n_n.rhsIdx i q 1).val = (i 1).val := by
  unfold DotDims.rhsIdx
  rw [dif_neg (show ¬(1 : Fin S64x1.rank) ∈ dot_S100000x64_S64x1_S100000x1_1_0_0_1_n_n.rhsBatch by decide),
    dif_pos (show (1 : Fin S64x1.rank) ∈ dot_S100000x64_S64x1_S100000x1_1_0_0_1_n_n.rhsNonContracting by decide)]
  rfl

/-- The reference's product of a 100000×64 array with a 64×1 column at an entry: the sum over the 64 middle positions. -/
theorem refHead_apply (a : FVec Ideal S100000x64 .f32) (W : FVec Ideal S64x1 .f32) (i : Fin 100000) (u : Fin 1) :
    Host.dotGeneral (F := Ideal) dot_S100000x64_S64x1_S100000x1_1_0_0_1_n_n none a W (ix2 i u)
      = ∑ k : Fin 64, a (ix2 i k) * W (ix2 k u) := by
  show FloatOps.dotGeneral dot_S100000x64_S64x1_S100000x1_1_0_0_1_n_n none .single a W (ix2 i u) = _
  rw [Ideal.dotGeneral_apply, ← Equiv.sum_comp (contrEquiv1 dot_S100000x64_S64x1_S100000x1_1_0_0_1_n_n 64 rfl rfl).symm]
  refine Finset.sum_congr rfl fun k _ => ?_
  have hk := contrEquiv1_symm_val dot_S100000x64_S64x1_S100000x1_1_0_0_1_n_n 64 rfl rfl k
  have el : dot_S100000x64_S64x1_S100000x1_1_0_0_1_n_n.lhsIdx (ix2 i u)
      ((contrEquiv1 dot_S100000x64_S64x1_S100000x1_1_0_0_1_n_n 64 rfl rfl).symm k) = ix2 i k :=
    funext fun a => Fin.ext (by
      match a with
      | ⟨0, _⟩ => exact refHead_lhs0 _ _
      | ⟨1, _⟩ => exact (dot_S100000x64_S64x1_S100000x1_1_0_0_1_n_n.lhsIdx_val_of_single rfl _ _).trans hk)
  have er : dot_S100000x64_S64x1_S100000x1_1_0_0_1_n_n.rhsIdx (ix2 i u)
      ((contrEquiv1 dot_S100000x64_S64x1_S100000x1_1_0_0_1_n_n 64 rfl rfl).symm k) = ix2 k u :=
    funext fun a => Fin.ext (by
      match a with
      | ⟨0, _⟩ => exact (dot_S100000x64_S64x1_S100000x1_1_0_0_1_n_n.rhsIdx_val_of_single rfl _ _).trans hk
      | ⟨1, _⟩ => exact refHead_rhs1 _ _)
  rw [el, er]

/-- The head at a node. -/
theorem head2_apply (embed : FVec Ideal S100000x128 .f32) (fcW : FVec Ideal S64x1 .f32) (fcb2 : FVec Ideal S1x1 .f32)
    (i : Fin 100000) :
    head2 (F := Ideal) embed fcW fcb2 (ix2 i (0 : Fin 1)) = headAt (fun j => embed (ix2 i j)) fcW fcb2 := by
  unfold head2 headAt
  rw [addf_apply, refHead_apply,
    broadcastInDim_apply ![0, 1] bcast_S1x1_S100000x1_0_1 fcb2 (ix2 i (0 : Fin 1)) (ix2 (0 : Fin 1) (0 : Fin 1))
      (fun a => by match a with | ⟨0, _⟩ => rfl | ⟨1, _⟩ => rfl)]
  refine congrArg (· + _) (Finset.sum_congr rfl fun k _ => ?_)
  rw [slice2_axis1_apply 0 embed slices_S100000x128_S100000x64_0_0 i k (Fin.castLE (by decide) k) (Nat.zero_add _).symm]

end Reference

end Cert.Spec

end
-- ==== Proof.SagePay.lean ====
/-
  What the two graph-convolution bodies store, READ AT AN ENTRY at the exact values: the body's matrix products into
  a zero accumulator are sums over the middle positions (the roundings to bf16 on the way in are the identity), the
  reduction along a row is the sum of a row's squares, so the stored block is, row by row, the normalised affine combination
  of that row of the two feature blocks (its positive part in the first layer), and the second layer's prediction
  block is the head on that row.
-/
import proofs.«103985_j71854802862201_1_alg».proof.Proof.SageRow
import proofs.«103985_j71854802862201_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.SagePay

open Cert.KernelIdeal Cert.KernelIdeal.Gen Cert.Spec
open Idealize.ShloMosaic Idealize.ShloMosaic.ValueIdx
open scoped BigOperators

theorem kerDot_lhs0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

theorem kerDot_rhs1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The body's product of a 5000×128 block with a 128×128 matrix, accumulated into zero, at an entry: the sum
    over the 128 middle positions. -/
theorem kerDot_apply {φ₁ φ₂ : FTy} (a : FVec Ideal S5000x128 φ₁) (W : FVec Ideal S128x128 φ₂) (r : Fin 5000) (j : Fin 128) :
    matmul (F := Ideal) dot_S5000x128_S128x128_S5000x128_1_0_0_1_n_n none a W (constant S5000x128 .f32 0x00000000#32) (ix2 r j)
      = ∑ k : Fin 128, a (ix2 r k) * W (ix2 k j) := by
  show FloatOps.matmul dot_S5000x128_S128x128_S5000x128_1_0_0_1_n_n none a W (constant S5000x128 .f32 0x00000000#32) (ix2 r j) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r j)
      ((contrEquiv1 dot_S5000x128_S128x128_S5000x128_1_0_0_1_n_n 128 rfl rfl).symm k) = ix2 r k :=
    funext fun a => Fin.ext (by
      match a with
      | ⟨0, _⟩ => exact kerDot_lhs0 _ _
      | ⟨1, _⟩ => exact (dot_S5000x128_S128x128_S5000x128_1_0_0_1_n_n.lhsIdx_val_of_single rfl _ _).trans hk)
  have er : dot_S5000x128_S128x128_S5000x128_1_0_0_1_n_n.rhsIdx (ix2 r j)
      ((contrEquiv1 dot_S5000x128_S128x128_S5000x128_1_0_0_1_n_n 128 rfl rfl).symm k) = ix2 k j :=
    funext fun a => Fin.ext (by
      match a with
      | ⟨0, _⟩ => exact (dot_S5000x128_S128x128_S5000x128_1_0_0_1_n_n.rhsIdx_val_of_single rfl _ _).trans hk
      | ⟨1, _⟩ => exact kerDot_rhs1 _ _)
  rw [el, er]

/-- The affine combination of a block of aggregated rows and a block of own rows, as the body computes it. -/
def kLin (x0 x1 : FVec Ideal S5000x128 .f32) (x2 x4 : FVec Ideal S128x128 .f32) (x3 : FVec Ideal S1x128 .f32) :
    FVec Ideal S5000x128 .f32 :=
  addf
    (addf (matmul dot_S5000x128_S128x128_S5000x128_1_0_0_1_n_n none (truncf .bf16 x0 bitsLt_bf16_f32)
        (truncf .bf16 x2 bitsLt_bf16_f32) (constant S5000x128 .f32 0x00000000#32))
      (broadcastTo S5000x128 x3 broadcasts_S1x128_S5000x128))
    (matmul dot_S5000x128_S128x128_S5000x128_1_0_0_1_n_n none (truncf .bf16 x1 bitsLt_bf16_f32)
      (truncf .bf16 x4 bitsLt_bf16_f32) (constant S5000x128 .f32 0x00000000#32))

/-- The row normalisation of a block, as the body computes it. -/
def kNorm (o : FVec Ideal S5000x128 .f32) : FVec Ideal S5000x128 .f32 :=
  divf o
    (broadcastTo S5000x128
      (maximumf
        (sqrt (shapeCast S5000x1
          (multiReduction .add [1] S5000 (mulf o o) 0x00000000#32 reduces_S5000x128_S5000 (.inl rfl) rfl)
          shapeCasts_S5000_S5000x1))
        (broadcast S5000x1 (Scalar.ofBits .f32 0x2B8CBCCC#32)))
      broadcasts_S5000x1_S5000x128)

theorem kLin_apply (x0 x1 : FVec Ideal S5000x128 .f32) (x2 x4 : FVec Ideal S128x128 .f32) (x3 : FVec Ideal S1x128 .f32)
    (r : Fin 5000) (j : Fin 128) :
    kLin x0 x1 x2 x4 x3 (ix2 r j) = linAt (fun k => x0 (ix2 r k)) (fun k => x1 (ix2 r k)) x2 x4 x3 j := by
  unfold kLin linAt
  rw [addf_apply, addf_apply, kerDot_apply, kerDot_apply, broadcastTo_1b_ab_apply]
  rfl

theorem sqrt_apply {s : Shape} {φ : FTy} (x : FVec Ideal s φ) (i : s.Idx) : sqrt x i = Ideal.sqrt (x i) := rfl

theorem kNorm_apply (o : FVec Ideal S5000x128 .f32) (r : Fin 5000) (j : Fin 128) :
    kNorm o (ix2 r j) = l2At (fun j' => o (ix2 r j')) j := by
  have hl : ∀ k : Fin 128, reduces_S5000x128_S5000.lift (ix1 r) k = ix2 r k := fun k => funext fun c => Fin.ext (by
    match c with | ⟨0, _⟩ => rfl | ⟨1, _⟩ => rfl)
  unfold kNorm l2At
  rw [divf_apply, broadcastTo_a1_ab_apply, maximumf_apply, broadcast_apply, sqrt_apply, shapeCast_a_a1_apply]
  refine congrArg (fun s => Ideal.div _ (max (Ideal.sqrt s) _)) ?_
  refine (Ideal.multiReduction_add_single (mulf o o) 0x00000000#32 reduces_S5000x128_S5000 _ _ (ix1 r)).trans ?_
  exact Finset.sum_congr rfl fun k _ => by rw [hl k]; rfl

/-- Region 0's stored block is the positive part of the normalised affine combination. -/
theorem pay0_eq (x0 x1 : Vec Ideal S5000x128 .f32) (x2 x4 : Vec Ideal S128x128 .f32) (x3 : Vec Ideal S1x128 .f32) :
    k0_pay1 x0 x1 x2 x4 x3
      = maximumf (kNorm (kLin x0 x1 x2 x4 x3)) (broadcast S5000x128 (Scalar.ofBits .f32 0x00000000#32)) := by
  unfold k0_pay1 kNorm kLin
  simp only [shapeCast_self]

/-- Region 0's stored block at an entry, from row `r` of its two feature blocks. -/
theorem pay0_apply (x0 x1 : Vec Ideal S5000x128 .f32) (x2 x4 : Vec Ideal S128x128 .f32) (x3 : Vec Ideal S1x128 .f32)
    (r : Fin 5000) (j : Fin 128) :
    k0_pay1 x0 x1 x2 x4 x3 (ix2 r j)
      = max (l2At (linAt (fun k => x0 (ix2 r k)) (fun k => x1 (ix2 r k)) x2 x4 x3) j) 0 := by
  rw [pay0_eq, maximumf_apply, broadcast_apply, kNorm_apply]
  refine congrArg₂ max (congrArg (fun o => l2At o j) (funext fun j' => kLin_apply x0 x1 x2 x4 x3 r j')) ?_
  exact Ideal.ofBits_zero_f32

/-- Region 3's stored embedding block is the normalised affine combination. -/
theorem pay3_eq (x0 x1 : Vec Ideal S5000x128 .f32) (x2 x4 : Vec Ideal S128x128 .f32) (x3 : Vec Ideal S1x128 .f32) :
    k3_pay1 x0 x1 x2 x4 x3 = kNorm (kLin x0 x1 x2 x4 x3) := by
  unfold k3_pay1 kNorm kLin
  simp only [shapeCast_self]

/-- Region 3's stored embedding block at an entry. -/
theorem pay3_apply (x0 x1 : Vec Ideal S5000x128 .f32) (x2 x4 : Vec Ideal S128x128 .f32) (x3 : Vec Ideal S1x128 .f32)
    (r : Fin 5000) (j : Fin 128) :
    k3_pay1 x0 x1 x2 x4 x3 (ix2 r j)
      = l2At (linAt (fun k => x0 (ix2 r k)) (fun k => x1 (ix2 r k)) x2 x4 x3) j := by
  rw [pay3_eq, kNorm_apply]
  exact congrArg (fun o => l2At o j) (funext fun j' => kLin_apply x0 x1 x2 x4 x3 r j')

theorem kerHead_lhs0 (i : S5000x1.Idx) (q : dot_S5000x64_S64x1_S5000x1_1_0_0_1_n_n.contr.Idx) :
    (dot_S5000x64_S64x1_S5000x1_1_0_0_1_n_n.lhsIdx i q 0).val = (i 0).val := by
  unfold DotDims.lhsIdx
  rw [dif_neg (show ¬(0 : Fin S5000x64.rank) ∈ dot_S5000x64_S64x1_S5000x1_1_0_0_1_n_n.lhsBatch by decide),
    dif_pos (show (0 : Fin S5000x64.rank) ∈ dot_S5000x64_S64x1_S5000x1_1_0_0_1_n_n.lhsNonContracting by decide)]
  rfl

theorem kerHead_rhs1 (i : S5000x1.Idx) (q : dot_S5000x64_S64x1_S5000x1_1_0_0_1_n_n.contr.Idx) :
    (dot_S5000x64_S64x1_S5000x1_1_0_0_1_n_n.rhsIdx i q 1).val = (i 1).val := by
  unfold DotDims.rhsIdx
  rw [dif_neg (show ¬(1 : Fin S64x1.rank) ∈ dot_S5000x64_S64x1_S5000x1_1_0_0_1_n_n.rhsBatch by decide),
    dif_pos (show (1 : Fin S64x1.rank) ∈ dot_S5000x64_S64x1_S5000x1_1_0_0_1_n_n.rhsNonContracting by decide)]
  rfl

/-- The body's product of a 5000×64 block with a 64×1 column, accumulated into zero, at an entry. -/
theorem kerHead_apply {φ₁ φ₂ : FTy} (a : FVec Ideal S5000x64 φ₁) (W : FVec Ideal S64x1 φ₂) (r : Fin 5000) (u : Fin 1) :
    matmul (F := Ideal) dot_S5000x64_S64x1_S5000x1_1_0_0_1_n_n none a W (constant S5000x1 .f32 0x00000000#32) (ix2 r u)
      = ∑ k : Fin 64, a (ix2 r k) * W (ix2 k u) := by
  show FloatOps.matmul dot_S5000x64_S64x1_S5000x1_1_0_0_1_n_n none a W (constant S5000x1 .f32 0x00000000#32) (ix2 r u) = _
  rw [Ideal.matmul_constant_zero_apply, ← Equiv.sum_comp (contrEquiv1 dot_S5000x64_S64x1_S5000x1_1_0_0_1_n_n 64 rfl rfl).symm]
  refine Finset.sum_congr rfl fun k _ => ?_
  have hk := contrEquiv1_symm_val dot_S5000x64_S64x1_S5000x1_1_0_0_1_n_n 64 rfl rfl k
  have el : dot_S5000x64_S64x1_S5000x1_1_0_0_1_n_n.lhsIdx (ix2 r u)
      ((contrEquiv1 dot_S5000x64_S64x1_S5000x1_1_0_0_1_n_n 64 rfl rfl).symm k) = ix2 r k :=
    funext fun a => Fin.ext (by
      match a with
      | ⟨0, _⟩ => exact kerHead_lhs0 _ _
      | ⟨1, _⟩ => exact (dot_S5000x64_S64x1_S5000x1_1_0_0_1_n_n.lhsIdx_val_of_single rfl _ _).trans hk)
  have er : dot_S5000x64_S64x1_S5000x1_1_0_0_1_n_n.rhsIdx (ix2 r u)
      ((contrEquiv1 dot_S5000x64_S64x1_S5000x1_1_0_0_1_n_n 64 rfl rfl).symm k) = ix2 k u :=
    funext fun a => Fin.ext (by
      match a with
      | ⟨0, _⟩ => exact (dot_S5000x64_S64x1_S5000x1_1_0_0_1_n_n.rhsIdx_val_of_single rfl _ _).trans hk
      | ⟨1, _⟩ => exact kerHead_rhs1 _ _)
  rw [el, er]

/-- The head on a block of embedding rows, as the body computes it. -/
def kHead (e : FVec Ideal S5000x128 .f32) (w : FVec Ideal S64x1 .f32) (fb : FVec Ideal S1x1 .f32) : FVec Ideal S5000x1 .f32 :=
  addf
    (matmul dot_S5000x64_S64x1_S5000x1_1_0_0_1_n_n none
      (truncf .bf16 (extractStridedSlice S5000x64 ![0, 0] e slices_S5000x128_o0_0_S5000x64) bitsLt_bf16_f32)
      (truncf .bf16 w bitsLt_bf16_f32) (constant S5000x1 .f32 0x00000000#32))
    (broadcastTo S5000x1 fb broadcasts_S1x1_S5000x1)

theorem kHead_apply (e : FVec Ideal S5000x128 .f32) (w : FVec Ideal S64x1 .f32) (fb : FVec Ideal S1x1 .f32) (r : Fin 5000) :
    kHead e w fb (ix2 r (0 : Fin 1)) = headAt (fun j => e (ix2 r j)) w fb := by
  unfold kHead headAt
  rw [addf_apply, kerHead_apply, broadcastTo_1b_ab_apply]
  refine congrArg (· + _) (Finset.sum_congr rfl fun k _ => ?_)
  rw [truncf_apply, truncf_apply,
    slice2_axis1_apply 0 e slices_S5000x128_o0_0_S5000x64 r k (Fin.castLE (by decide) k) (Nat.zero_add _).symm]

/-- Region 3's stored prediction block is the head on its stored embedding block. -/
theorem pay3h_eq (x0 x1 : Vec Ideal S5000x128 .f32) (x2 x4 : Vec Ideal S128x128 .f32) (x3 : Vec Ideal S1x128 .f32)
    (w : Vec Ideal S64x1 .f32) (fb : Vec Ideal S1x1 .f32) :
    k3_pay2 x0 x1 x2 x4 x3 w fb = kHead (k3_pay1 x0 x1 x2 x4 x3) w fb := by
  unfold k3_pay2 kHead
  simp only [shapeCast_self]

/-- Region 3's stored prediction block at a row. -/
theorem pay3h_apply (x0 x1 : Vec Ideal S5000x128 .f32) (x2 x4 : Vec Ideal S128x128 .f32) (x3 : Vec Ideal S1x128 .f32)
    (w : Vec Ideal S64x1 .f32) (fb : Vec Ideal S1x1 .f32) (r : Fin 5000) :
    k3_pay2 x0 x1 x2 x4 x3 w fb (ix2 r (0 : Fin 1))
      = headAt (l2At (linAt (fun k => x0 (ix2 r k)) (fun k => x1 (ix2 r k)) x2 x4 x3)) w fb := by
  rw [pay3h_eq, kHead_apply]
  exact congrArg (fun e => headAt e w fb) (funext fun j => pay3_apply x0 x1 x2 x4 x3 r j)

end Cert.KernelIdeal.SagePay

end
-- ==== Proof.Region0.lean ====
/-
  REGION 0, the first graph-convolution layer. The grid's point `t` reads rows `5000 t … 5000 t + 4999` of the
  aggregated and of the own features and the whole weights and bias, and stores, row by row, the positive part of the
  normalised affine combination of that row of the two feature blocks. An entry of the specification's first layer
  depends on the node's own two feature rows in the same way, so what point `t` writes back is block `t` of the
  specification; the 20 blocks cover the 100000 rows (row `i` is in block `i / 5000`), so the output array ends
  holding the specification's array.
-/
import proofs.«103985_j71854802862201_1_alg».proof.Proof.SageAt
import proofs.«103985_j71854802862201_1_alg».proof.Proof.SagePay
import proofs.«103985_j71854802862201_1_alg».proof.Proof.Gen.ReferenceIdeal
import proofs.«103985_j71854802862201_1_alg».proof.Proof.Gen.KernelIdeal.Frame
import Idealize.ShloMosaic.Lib.Pipeline.Value
import Idealize.ShloMosaic.Lib.ValueIdx

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The printed index maps over the 20 grid points: the two feature windows and the output move down the rows with the
    point, the weight and bias windows stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The aggregated-feature window's block at point `t` is rows `5000 t … 5000 t + 4999` of its array. -/
theorem blk0_apply (t : Fin cfg0.N) (y : S5000x128.Idx) (i : S100000x128.Idx)
    (h0 : (i 0).val = 5000 * t.val + (y 0).val) (h1 : (i 1).val = (y 1).val) :
    (iblk0 V c 0 t : Vec Ideal S5000x128 .f32) y = (V c main_v22 : S100000x128.Idx → Elt Ideal .f32) i := by
  obtain ⟨e0, e1, -⟩ := idx_facts t
  unfold iblk0
  rw [View.read_apply]
  show V c main_v22 _ = V c main_v22 _
  refine congrArg _ (funext fun a => Fin.ext ?_)
  match a with
  | ⟨0, _⟩ => show win0_0.index t 0 * 5000 + 1 * (y 0).val = (i 0).val; rw [e0, h0]; omega
  | ⟨1, _⟩ => show win0_0.index t 1 * 128 + 1 * (y 1).val = (i 1).val; rw [e1, h1]; omega

/-- The own-feature window's block at point `t` is the same rows of its array. -/
theorem blk1_apply (t : Fin cfg0.N) (y : S5000x128.Idx) (i : S100000x128.Idx)
    (h0 : (i 0).val = 5000 * t.val + (y 0).val) (h1 : (i 1).val = (y 1).val) :
    (iblk0 V c 1 t : Vec Ideal S5000x128 .f32) y = (V c main_arg0 : S100000x128.Idx → Elt Ideal .f32) i := by
  obtain ⟨-, -, e0, e1, -⟩ := idx_facts t
  unfold iblk0
  rw [View.read_apply]
  show V c main_arg0 _ = V c main_arg0 _
  refine congrArg _ (funext fun a => Fin.ext ?_)
  match a with
  | ⟨0, _⟩ => show win0_1.index t 0 * 5000 + 1 * (y 0).val = (i 0).val; rw [e0, h0]; omega
  | ⟨1, _⟩ => show win0_1.index t 1 * 128 + 1 * (y 1).val = (i 1).val; rw [e1, h1]; omega

/-- The weight and bias windows hold their whole arrays at every point. -/
theorem blk2_whole (t : Fin cfg0.N) : (iblk0 V c 2 t : Vec Ideal S128x128 .f32) = V c main_arg2 := by
  obtain ⟨-, -, -, -, e0, e1, -⟩ := idx_facts t
  funext y
  unfold iblk0
  rw [View.read_apply]
  show V c main_arg2 _ = V c main_arg2 _
  refine congrArg _ (funext fun a => Fin.ext ?_)
  match a with
  | ⟨0, _⟩ => show win0_2.index t 0 * 128 + 1 * (y 0).val = (y 0).val; rw [e0]; omega
  | ⟨1, _⟩ => show win0_2.index t 1 * 128 + 1 * (y 1).val = (y 1).val; rw [e1]; omega

theorem blk3_whole (t : Fin cfg0.N) : (iblk0 V c 3 t : Vec Ideal S1x128 .f32) = V c main_v23 := by
  obtain ⟨-, -, -, -, -, -, e0, e1, -⟩ := idx_facts t
  funext y
  unfold iblk0
  rw [View.read_apply]
  show V c main_v23 _ = V c main_v23 _
  refine congrArg _ (funext fun a => Fin.ext ?_)
  match a with
  | ⟨0, _⟩ => show win0_3.index t 0 * 1 + 1 * (y 0).val = (y 0).val; rw [e0]; omega
  | ⟨1, _⟩ => show win0_3.index t 1 * 128 + 1 * (y 1).val = (y 1).val; rw [e1]; omega

theorem blk4_whole (t : Fin cfg0.N) : (iblk0 V c 4 t : Vec Ideal S128x128 .f32) = V c main_arg4 := by
  obtain ⟨-, -, -, -, -, -, -, -, e0, e1, -⟩ := idx_facts t
  funext y
  unfold iblk0
  rw [View.read_apply]
  show V c main_arg4 _ = V c main_arg4 _
  refine congrArg _ (funext fun a => Fin.ext ?_)
  match a with
  | ⟨0, _⟩ => show win0_4.index t 0 * 128 + 1 * (y 0).val = (y 0).val; rw [e0]; omega
  | ⟨1, _⟩ => show win0_4.index t 1 * 128 + 1 * (y 1).val = (y 1).val; rw [e1]; omega

/-- What the region's output array ends holding: the positive part of the first layer. -/
abbrev G : FVec Ideal Cert.ReferenceIdeal.S100000x128 .f32 :=
  Cert.Spec.relu (F := Ideal) (Cert.Spec.sage2 (V c main_v22) (V c main_arg0) (V c main_arg2) (V c main_v23) (V c main_arg4))

/-- ONE ENTRY: the stored block at an entry of row `y 0` is the specification at the array entry in row `i 0`, when the
    two feature blocks' rows `y 0` are the arrays' rows `i 0` and the columns agree: both sides are the same function
    of those two rows. -/
theorem point_eq (x0 x1 : Vec Ideal S5000x128 .f32) (A0 A1 : FVec Ideal Cert.ReferenceIdeal.S100000x128 .f32)
    (Wl Wr : FVec Ideal Cert.ReferenceIdeal.S128x128 .f32) (b : FVec Ideal Cert.ReferenceIdeal.S1x128 .f32)
    (y : S5000x128.Idx) (i : Cert.ReferenceIdeal.S100000x128.Idx)
    (h0 : ∀ (r : Fin 5000) (p : Fin 100000), r.val = (y 0).val → p.val = (i 0).val → ∀ k : Fin 128, x0 (ix2 r k) = A0 (ix2 p k))
    (h1 : ∀ (r : Fin 5000) (p : Fin 100000), r.val = (y 0).val → p.val = (i 0).val → ∀ k : Fin 128, x1 (ix2 r k) = A1 (ix2 p k))
    (hj : (y 1).val = (i 1).val) :
    k0_pay1 x0 x1 Wl Wr b y = Cert.Spec.relu (F := Ideal) (Cert.Spec.sage2 A0 A1 Wl b Wr) i := by
  obtain ⟨r, j, rfl⟩ : ∃ (r : Fin 5000) (j : Fin 128), y = ix2 r j := ⟨y 0, y 1, eq_ix2 y⟩
  obtain ⟨p, q, rfl⟩ : ∃ (p : Fin 100000) (q : Fin 128), i = ix2 p q := ⟨i 0, i 1, eq_ix2 i⟩
  obtain rfl : j = q := Fin.ext hj
  rw [SagePay.pay0_apply, Cert.Spec.relu_apply, Cert.Spec.sage2_apply,
    show (fun k => x0 (ix2 r k)) = (fun k => A0 (ix2 p k)) from funext (h0 r p rfl rfl),
    show (fun k => x1 (ix2 r k)) = (fun k => A1 (ix2 p k)) from funext (h1 r p rfl rfl)]

/-- WHAT POINT `t` WRITES BACK is block `t` of `G`. -/
theorem flushed_eq (t : Fin cfg0.N) :
    (dat0 (F := Ideal) V c).flushed 5 t = ((cfg0.win 5).blk t).view.read (Elt Ideal) (G V c) := by
  show (cfg0.win 5).cut (grid0.coords t) ((dat0 (F := Ideal) V c).after 5 t) = _
  rw [after0_5]
  unfold out0_5
  rw [View.canon_unit_zero hz]
  simp only [View.ld_unit_zero (S := S5000x128) hz, View.ld_unit_zero (S := S128x128) hz, View.ld_unit_zero (S := S1x128) hz]
  rw [blk2_whole, blk3_whole, blk4_whole]
  obtain ⟨-, -, -, -, -, -, -, -, -, -, e0, e1⟩ := idx_facts t
  funext y
  show k0_pay1 (iblk0 V c 0 t) (iblk0 V c 1 t) (V c main_arg2) (V c main_arg4) (V c main_v23) y
    = G V c (((cfg0.win 5).blk t).view.emb y)
  have hi0 : ((((cfg0.win 5).blk t).view.emb y) 0).val = 5000 * t.val + (y 0).val := by
    show win0_5.index t 0 * 5000 + 1 * (y 0).val = _; rw [e0]; omega
  have hi1 : ((((cfg0.win 5).blk t).view.emb y) 1).val = (y 1).val := by
    show win0_5.index t 1 * 128 + 1 * (y 1).val = _; rw [e1]; omega
  exact point_eq (iblk0 V c 0 t) (iblk0 V c 1 t) (V c main_v22) (V c main_arg0) (V c main_arg2) (V c main_arg4) (V c main_v23)
    y (((cfg0.win 5).blk t).view.emb y)
    (fun r p hr hp k => blk0_apply V c t (ix2 r k) (ix2 p k) (by show p.val = 5000 * t.val + r.val; rw [hp, hr, hi0]) rfl)
    (fun r p hr hp k => blk1_apply V c t (ix2 r k) (ix2 p k) (by show p.val = 5000 * t.val + r.val; rw [hp, hr, hi0]) rfl)
    hi1.symm

/-- An entry of the array is in point `t`'s block iff each coordinate is in the block's range on its axis. -/
theorem mem_blk (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v24).slice (win0_5.rect t)).set ↔ _
  rw [View.set_slice_whole, Rect.mem_set_unit]
  exact Iff.rfl

/-- Every entry is written back: row `i` by the point `i / 5000`. -/
theorem cover (i : S100000x128.Idx) :
    ∃ t : Fin cfg0.N, (cfg0.win 5).flush t = true ∧ i ∈ ((cfg0.win 5).blk t).view.set := by
  have hN : cfg0.N = 20 := N_0
  have hi0 : (i 0).val < 100000 := (i 0).isLt
  have hi1 : (i 1).val < 128 := (i 1).isLt
  obtain ⟨t, ht⟩ : ∃ t : Fin cfg0.N, t.val = (i 0).val / 5000 := ⟨⟨(i 0).val / 5000, by rw [hN]; omega⟩, rfl⟩
  obtain ⟨-, -, -, -, -, -, -, -, -, -, e0, e1⟩ := idx_facts t
  refine ⟨t, flush0_5 t, ?_⟩
  rw [mem_blk]
  intro a
  match a with
  | ⟨0, _⟩ =>
    show win0_5.index t 0 * 5000 ≤ (i 0).val ∧ (i 0).val < win0_5.index t 0 * 5000 + 5000
    rw [e0, ht]; omega
  | ⟨1, _⟩ =>
    show win0_5.index t 1 * 128 ≤ (i 1).val ∧ (i 1).val < win0_5.index t 1 * 128 + 128
    rw [e1]; omega

/-- THE REGION'S OUTPUT ARRAY after its last point: the positive part of the first layer of the arrays it was entered with. -/
theorem final : (dat0 (F := Ideal) V c).arrAt 5 cfg0.N
      = Cert.Spec.relu (F := Ideal) (Cert.Spec.sage2 (V c main_v22) (V c main_arg0) (V c main_arg2) (V c main_v23) (V c main_arg4)) :=
  (dat0 (F := Ideal) V c).arrAt_eq_of_cover 5 (G V c) (fun t _ => flushed_eq V c t) cover

end Cert.KernelIdeal.Region0

end
-- ==== Proof.LibTiles.lean ====
/-
  SUMS BY TILES, WITH ZERO PADDING. A sum over `K` terms, padded with zeros to `L = N · T` terms and accumulated tile by
  tile (`N` tiles of `T` consecutive terms), is the sum of the `K` terms. Stated over any commutative additive monoid
  (the extended reals among them: no finiteness is used), through the partial sums over the first `n` tiles, which is
  the invariant of an accumulation over the tiles in order.
-/
import Idealize.ShloMosaic.PureOps.Ideal

noncomputable section

open scoped BigOperators

namespace Cert.Spec

variable {M : Type*} [AddCommMonoid M]

/-- A finite family extended to every natural number by zero. -/
def ext0 {L : ℕ} (g : Fin L → M) (k : ℕ) : M := if h : k < L then g ⟨k, h⟩ else 0

theorem ext0_lt {L : ℕ} (g : Fin L → M) {k : ℕ} (h : k < L) : ext0 g k = g ⟨k, h⟩ := dif_pos h
theorem ext0_ge {L : ℕ} (g : Fin L → M) {k : ℕ} (h : L ≤ k) : ext0 g k = 0 := dif_neg (Nat.not_lt.mpr h)

/-- A sum over the family is the sum of its extension over the range. -/
theorem sum_eq_sum_range_ext0 {L : ℕ} (g : Fin L → M) : ∑ k : Fin L, g k = ∑ k ∈ Finset.range L, ext0 g k := by
  rw [Finset.sum_range]
  exact Finset.sum_congr rfl fun k _ => (ext0_lt g k.isLt).symm

/-- Past the family's length the extension adds nothing. -/
theorem sum_range_ext0_of_le {L n : ℕ} (g : Fin L → M) (h : L ≤ n) : ∑ k ∈ Finset.range n, ext0 g k = ∑ k : Fin L, g k := by
  obtain ⟨d, rfl⟩ := Nat.exists_eq_add_of_le h
  rw [Finset.sum_range_add, ← sum_eq_sum_range_ext0, Finset.sum_eq_zero (fun x _ => ext0_ge g (Nat.le_add_right L x)), add_zero]

/-- THE PARTIAL SUM over the first `n` tiles of width `T`. -/
def tiles (T : ℕ) {L : ℕ} (g : Fin L → M) (n : ℕ) : M := ∑ k ∈ Finset.range (n * T), ext0 g k

/-- Before the first tile: nothing. -/
@[simp] theorem tiles_zero (T : ℕ) {L : ℕ} (g : Fin L → M) : tiles T g 0 = 0 := by
  simp [tiles]

/-- One more tile adds that tile's `T` terms (of the extension: no side condition). -/
theorem tiles_succ_ext0 (T : ℕ) {L : ℕ} (g : Fin L → M) (t : ℕ) :
    tiles T g (t + 1) = tiles T g t + ∑ j : Fin T, ext0 g (t * T + j.val) := by
  unfold tiles
  rw [Nat.succ_mul, Finset.sum_range_add, Finset.sum_range (fun x => ext0 g (t * T + x))]

/-- One more tile inside the family adds that tile's `T` terms. -/
theorem tiles_succ (T : ℕ) {L : ℕ} (g : Fin L → M) (t : ℕ) (h : (t + 1) * T ≤ L) :
    tiles T g (t + 1) = tiles T g t + ∑ j : Fin T, g ⟨t * T + j.val, by
      have := j.isLt; rw [Nat.succ_mul] at h; omega⟩ := by
  rw [tiles_succ_ext0]
  refine congrArg (tiles T g t + ·) (Finset.sum_congr rfl fun j _ => ?_)
  exact ext0_lt g _

/-- The same with the tile's terms NAMED: whatever the accumulation adds at tile `t`, if term `j` of it is the
    family's term `t · T + j`. -/
theorem tiles_succ_of_eq (T : ℕ) {L : ℕ} (g : Fin L → M) (t : ℕ) (h : (t + 1) * T ≤ L) (a : Fin T → M)
    (ha : ∀ (j : Fin T) (hj : t * T + j.val < L), a j = g ⟨t * T + j.val, hj⟩) :
    tiles T g t + ∑ j : Fin T, a j = tiles T g (t + 1) := by
  rw [tiles_succ T g t h]
  exact congrArg (tiles T g t + ·) (Finset.sum_congr rfl fun j _ => ha j _)

/-- Once the tiles cover the family, the partial sum is the whole sum. -/
theorem tiles_full (T : ℕ) {L : ℕ} (g : Fin L → M) (n : ℕ) (h : L ≤ n * T) : tiles T g n = ∑ k : Fin L, g k :=
  sum_range_ext0_of_le g h

/-- As a double sum: the first `n` tiles, tile by tile. -/
theorem tiles_eq_sum_sum (T : ℕ) {L : ℕ} (g : Fin L → M) (n : ℕ) :
    tiles T g n = ∑ t : Fin n, ∑ j : Fin T, ext0 g (t.val * T + j.val) := by
  induction n with
  | zero => simp
  | succ n ih => rw [tiles_succ_ext0, ih, Fin.sum_univ_castSucc]; rfl

/-- ZERO PADDING: a family of `L` terms that is `f` on the first `K` and zero after sums to `f`'s sum. -/
theorem sum_pad {K L : ℕ} (hKL : K ≤ L) (f : Fin K → M) (g : Fin L → M)
    (hlo : ∀ (k : Fin L) (h : k.val < K), g k = f ⟨k.val, h⟩) (hhi : ∀ k : Fin L, K ≤ k.val → g k = 0) :
    ∑ k : Fin L, g k = ∑ k : Fin K, f k := by
  rw [sum_eq_sum_range_ext0 g, ← sum_range_ext0_of_le f hKL]
  refine Finset.sum_congr rfl fun k hk => ?_
  have hkL : k < L := Finset.mem_range.mp hk
  rw [ext0_lt g hkL]
  by_cases h : k < K
  · rw [ext0_lt f h]; exact hlo ⟨k, hkL⟩ h
  · rw [ext0_ge f (Nat.not_lt.mp h)]; exact hhi ⟨k, hkL⟩ (Nat.not_lt.mp h)

/-- TILES WITH ZERO PADDING, whole: `N` tiles of width `T` covering a family of `L = N · T` terms that is `f` on the first
    `K` and zero after accumulate `f`'s sum. -/
theorem tiles_pad (T N : ℕ) {K L : ℕ} (hL : L = N * T) (hKL : K ≤ L) (f : Fin K → M) (g : Fin L → M)
    (hlo : ∀ (k : Fin L) (h : k.val < K), g k = f ⟨k.val, h⟩) (hhi : ∀ k : Fin L, K ≤ k.val → g k = 0) :
    tiles T g N = ∑ k : Fin K, f k := by
  rw [tiles_full T g N (le_of_eq hL), sum_pad hKL f g hlo hhi]

/-- The same as the double sum over the tiles and their terms. -/
theorem sum_tiles_pad (T N : ℕ) {K L : ℕ} (hL : L = N * T) (hKL : K ≤ L) (f : Fin K → M) (g : Fin L → M)
    (hlo : ∀ (k : Fin L) (h : k.val < K), g k = f ⟨k.val, h⟩) (hhi : ∀ k : Fin L, K ≤ k.val → g k = 0) :
    ∑ t : Fin N, ∑ j : Fin T, g ⟨t.val * T + j.val, by
      have := t.isLt; have := j.isLt; subst hL
      calc t.val * T + j.val < t.val * T + T := by omega
        _ = (t.val + 1) * T := (Nat.succ_mul _ _).symm
        _ ≤ N * T := Nat.mul_le_mul_right T (by omega)⟩ = ∑ k : Fin K, f k := by
  rw [← tiles_pad T N hL hKL f g hlo hhi, tiles_eq_sum_sum]
  exact Finset.sum_congr rfl fun t _ => Finset.sum_congr rfl fun j _ => (ext0_lt g _).symm

/-! ## At this program's sizes: 28224 terms padded to 28672 = 28 tiles of 1024 -/

/-- The encoder's accumulation: 28 tiles of 1024 over the zero-padded 28672 accumulate the 28224-term sum. -/
theorem tiles_28_1024 (f : Fin 28224 → M) (g : Fin 28672 → M)
    (hlo : ∀ (k : Fin 28672) (h : k.val < 28224), g k = f ⟨k.val, h⟩) (hhi : ∀ k : Fin 28672, 28224 ≤ k.val → g k = 0) :
    tiles 1024 g 28 = ∑ k : Fin 28224, f k :=
  tiles_pad 1024 28 (by norm_num) (by norm_num) f g hlo hhi

/-- One grid point of the accumulation, at these sizes. -/
theorem tiles_succ_1024 (g : Fin 28672 → M) (t : ℕ) (ht : t < 28) :
    tiles 1024 g (t + 1) = tiles 1024 g t + ∑ j : Fin 1024, g ⟨t * 1024 + j.val, by have := j.isLt; omega⟩ :=
  tiles_succ 1024 g t (by omega)

end Cert.Spec

end
-- ==== Proof.Region1.lean ====
/-
  THE BATCH-NORMALISATION STATISTICS. The 20 grid points run in order over the 20 tiles of 5000 rows of the hidden
  features h. Two one-row accumulators (the column sums of h and of h·h) live in buffers whose block index never
  moves and that are written back after the last point only. The first point stores zeros and then adds its tile's
  column sums; every later point adds its tile's column sums to what the point before left. After point t the
  accumulator's column j holds the sum of h over rows below 5000(t+1): by induction on the point, through the partial
  sums by tiles. After the last point this is the whole column sum, which is what the reference's reduction over
  axis 0 computes (from the zero initial value).
-/
import proofs.«103985_j71854802862201_1_alg».proof.Proof.Spec
import proofs.«103985_j71854802862201_1_alg».proof.Proof.LibTiles
import proofs.«103985_j71854802862201_1_alg».proof.Proof.Gen.ReferenceIdeal
import proofs.«103985_j71854802862201_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Tactic

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx

theorem hz : (![0, 0] : Fin 2 → Nat) = fun _ => 0 := funext fun a => by fin_cases a <;> rfl

/-! ## What each case of the body leaves in the two accumulators -/

section Pieces
variable {F : FTy → Type} [FloatOps F]

/-- A LATER POINT leaves, in the first accumulator holding acc, acc plus the tile's column sums. -/
theorem out_B_1 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond1_0 i) (x0 : Vec F S5000x128 .f32) (xo1 xo2 : Vec F S1x128 .f32) :
    out1_B_1 c i a1 h1 a2 h2 a3 h3 hc x0 xo1 xo2 = k1_pay4 x0 xo1 := by
  unfold out1_B_1
  rw [View.read_writes_eq_canon _ _ _ (cover1_B_1 c i a1 h1 a2 h2 a3 h3 hc x0 xo1 xo2)]
  unfold kernelRun1_B
  dsimp only
  rw [View.canon_unit_zero hz]
  simp only [View.readAt_eq_ld, h1.read_unread, h2.read_unread, View.ld_unit_zero (S := S5000x128) hz,
    View.ld_unit_zero (S := S1x128) hz]

/-- and in the second accumulator holding acc, acc plus the column sums of the tile's squares. -/
theorem out_B_2 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond1_0 i) (x0 : Vec F S5000x128 .f32) (xo1 xo2 : Vec F S1x128 .f32) :
    out1_B_2 c i a1 h1 a2 h2 a3 h3 hc x0 xo1 xo2 = k1_pay5 x0 xo2 := by
  unfold out1_B_2
  rw [View.read_writes_eq_canon _ _ _ (cover1_B_2 c i a1 h1 a2 h2 a3 h3 hc x0 xo1 xo2)]
  unfold kernelRun1_B
  dsimp only
  rw [View.canon_unit_zero hz]
  simp only [View.readAt_eq_ld, h1.read_unread, h3.read_unread, View.ld_unit_zero (S := S5000x128) hz,
    View.ld_unit_zero (S := S1x128) hz]

/-- THE FIRST POINT stores the zero row, reads it back, and leaves it plus the tile's column sums. -/
theorem out_A_1 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond1_0 i) (x0 : Vec F S5000x128 .f32) :
    out1_A_1 c i a1 h1 a2 h2 a3 h3 hc x0 = k1_pay4 x0 (k1_pay1 (F := F)) := by
  unfold out1_A_1
  rw [View.read_writes_eq_canon _ _ _ (cover1_A_1 c i a1 h1 a2 h2 a3 h3 hc x0)]
  unfold kernelRun1_A
  dsimp only
  sl_unfold_words
  rw [View.canon_cons_unit_zero (S := S1x128) hz, View.readCov_unit_zero (S := S1x128) _ hz]
  simp only [View.readAt_eq_ld, h1.read_unread, View.ld_unit_zero (S := S5000x128) hz]

theorem out_A_2 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond1_0 i) (x0 : Vec F S5000x128 .f32) :
    out1_A_2 c i a1 h1 a2 h2 a3 h3 hc x0 = k1_pay5 x0 (k1_pay2 (F := F)) := by
  unfold out1_A_2
  rw [View.read_writes_eq_canon _ _ _ (cover1_A_2 c i a1 h1 a2 h2 a3 h3 hc x0)]
  unfold kernelRun1_A
  dsimp only
  sl_unfold_words
  rw [View.canon_cons_unit_zero (S := S1x128) hz, View.readCov_unit_zero (S := S1x128) _ hz]
  simp only [View.readAt_eq_ld, h1.read_unread, View.ld_unit_zero (S := S5000x128) hz]

end Pieces

/-! ## The arithmetic at a column (the extended reals) -/

/-- The zero row's entries are the extended real 0. -/
theorem pay1_zero (j : Fin 128) : k1_pay1 (F := Ideal) (ix2 (0 : Fin 1) j) = 0 := Ideal.ofBits_zero_f32

theorem pay2_zero (j : Fin 128) : k1_pay2 (F := Ideal) (ix2 (0 : Fin 1) j) = 0 := Ideal.ofBits_zero_f32

/-- The sum over the rows of a 5000 × 128 block, at column j, is the sum of that column's 5000 entries. -/
theorem rowsum_apply (x : FVec Ideal S5000x128 .f32) (j : Fin 128) :
    Ideal.reduceAdd reduces_S5000x128_S128 x (ix1 j) = ∑ r : Fin 5000, x (ix2 r j) := by
  refine (Ideal.reduceAdd_single reduces_S5000x128_S128 x (ix1 j)).trans ?_
  show ∑ r : Fin 5000, x (reduces_S5000x128_S128.lift (ix1 j) r) = _
  refine Finset.sum_congr rfl fun r _ => congrArg x (funext fun a => Fin.ext ?_)
  match a with
  | ⟨0, _⟩ => rfl
  | ⟨1, _⟩ => rfl

/-- THE FIRST ACCUMULATOR'S UPDATE AT A COLUMN: what it held plus the tile's column sum. -/
theorem pay4_apply (x : FVec Ideal S5000x128 .f32) (acc : FVec Ideal S1x128 .f32) (j : Fin 128) :
    k1_pay4 (F := Ideal) x acc (ix2 (0 : Fin 1) j) = acc (ix2 (0 : Fin 1) j) + ∑ r : Fin 5000, x (ix2 r j) := by
  unfold k1_pay4 k1_pay3
  simp only [shapeCast_self]
  show acc (ix2 (0 : Fin 1) j)
    + shapeCast S1x128 (Ideal.reduceAdd reduces_S5000x128_S128 x) shapeCasts_S128_S1x128 (ix2 (0 : Fin 1) j) = _
  refine congrArg (acc (ix2 (0 : Fin 1) j) + ·) ?_
  exact (shapeCast_a_1a_apply (a := 128) (Ideal.reduceAdd reduces_S5000x128_S128 x) shapeCasts_S128_S1x128 0 j).trans
    (rowsum_apply x j)

/-- THE SECOND ACCUMULATOR'S UPDATE AT A COLUMN: what it held plus the tile's column sum of squares. -/
theorem pay5_apply (x : FVec Ideal S5000x128 .f32) (acc : FVec Ideal S1x128 .f32) (j : Fin 128) :
    k1_pay5 (F := Ideal) x acc (ix2 (0 : Fin 1) j)
      = acc (ix2 (0 : Fin 1) j) + ∑ r : Fin 5000, x (ix2 r j) * x (ix2 r j) := by
  unfold k1_pay5 k1_pay3
  simp only [shapeCast_self]
  show acc (ix2 (0 : Fin 1) j)
    + shapeCast S1x128 (Ideal.reduceAdd reduces_S5000x128_S128 (mulf x x)) shapeCasts_S128_S1x128 (ix2 (0 : Fin 1) j) = _
  refine congrArg (acc (ix2 (0 : Fin 1) j) + ·) ?_
  exact (shapeCast_a_1a_apply (a := 128) (Ideal.reduceAdd reduces_S5000x128_S128 (mulf x x)) shapeCasts_S128_S1x128 0 j).trans
    (rowsum_apply (mulf x x) j)

/-- THE REFERENCE'S COLUMN SUM at column j: the sum of the column's 100000 entries (from the zero initial value). -/
theorem colSum_apply (h : FVec Ideal S100000x128 .f32) (j : Fin 128) :
    Cert.Spec.colSum (F := Ideal) h (ix1 j) = ∑ R : Fin 100000, h (ix2 R j) := by
  unfold Cert.Spec.colSum
  show Ideal.hostReduceAdd Cert.ReferenceIdeal.Facts₀.reducesTo_S100000x128_S128_d0 h (Ideal.ofBits .f32 0x00000000#32) (ix1 j) = _
  have hr : Shape.Reduces S100000x128 [0] S128 := by decide
  rw [Ideal.hostReduceAdd_single _ hr h _ (ix1 j), Ideal.ofBits_zero_f32, zero_add]
  show ∑ R : Fin 100000, h (hr.lift (ix1 j) R) = _
  refine Finset.sum_congr rfl fun R _ => congrArg h (funext fun a => Fin.ext ?_)
  match a with
  | ⟨0, _⟩ => rfl
  | ⟨1, _⟩ => rfl

/-- The same, as the one-row array the kernel's window holds. -/
theorem spec_apply (h : FVec Ideal S100000x128 .f32) (j : Fin 128) :
    shapeCast S1x128 (Cert.Spec.colSum (F := Ideal) h) shapeCasts_S128_S1x128 (ix2 (0 : Fin 1) j)
      = ∑ R : Fin 100000, h (ix2 R j) :=
  (shapeCast_a_1a_apply (a := 128) (Cert.Spec.colSum (F := Ideal) h) shapeCasts_S128_S1x128 0 j).trans (colSum_apply h j)

/-! ## The accumulators after each point -/

variable (V : (c : Dev nD) → (b : Ref sig .tc) → Buf (Elt Ideal) ((c : Thread nD τ).loc b)) (c : Dev nD)

/-- The printed index maps, decided over the grid: at point t the feature block sits at block row t, the two
    accumulators' blocks at the origin. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- Row r, column j of the feature block at point t is row 5000t + r of the feature array. -/
theorem blk_apply (t : Fin cfg1.N) (r : Fin 5000) (j : Fin 128) (R : Fin 100000) (hR : R.val = t.val * 5000 + r.val) :
    (iblk1 V c 0 t : FVec Ideal S5000x128 .f32) (ix2 r j) = (V c main_v24 : FVec Ideal S100000x128 .f32) (ix2 R j) := by
  obtain ⟨e0, e1, -⟩ := idx_facts t
  unfold iblk1
  rw [View.read_apply]
  show V c main_v24 _ = V c main_v24 _
  refine congrArg (V c main_v24) (funext fun a => Fin.ext ?_)
  match a with
  | ⟨0, _⟩ => show win1_0.index t (0 : Fin 2) * 5000 + 1 * r.val = R.val; rw [e0, hR]; omega
  | ⟨1, _⟩ => show win1_0.index t (1 : Fin 2) * 128 + 1 * j.val = j.val; rw [e1]; omega

/-- The first point: the zero rows plus the first tile's sums. -/
theorem outs_A (t : Fin cfg1.N) (h0 : t.val % 20 = 0) :
    outsAt1 (F := Ideal) V c t.val t.isLt
      = (k1_pay4 (iblk1 V c 0 t) (k1_pay1 (F := Ideal)), k1_pay5 (iblk1 V c 0 t) (k1_pay2 (F := Ideal))) :=
  (outsAt1_A V c t h0).trans (congrArg₂ Prod.mk
    (out_A_1 c (grid1.coords t) (ms1_0 t) (hs1_0 t) (ms1_1 t) (hs1_1 t) (ms1_2 t) (hs1_2 t) ((hcond1_0 t).mpr h0) (iblk1 V c 0 t))
    (out_A_2 c (grid1.coords t) (ms1_0 t) (hs1_0 t) (ms1_1 t) (hs1_1 t) (ms1_2 t) (hs1_2 t) ((hcond1_0 t).mpr h0) (iblk1 V c 0 t)))

/-- A later point: what the point before left plus this tile's sums. -/
theorem outs_B (t : Fin cfg1.N) (h0 : ¬t.val % 20 = 0) :
    outsAt1 (F := Ideal) V c t.val t.isLt
      = (k1_pay4 (iblk1 V c 0 t) (outsAt1 V c (t.val - 1) (Nat.lt_of_le_of_lt (Nat.sub_le _ _) t.isLt)).1,
         k1_pay5 (iblk1 V c 0 t) (outsAt1 V c (t.val - 1) (Nat.lt_of_le_of_lt (Nat.sub_le _ _) t.isLt)).2) :=
  (outsAt1_B V c t h0).trans (congrArg₂ Prod.mk
    (out_B_1 c (grid1.coords t) (ms1_0 t) (hs1_0 t) (ms1_1 t) (hs1_1 t) (ms1_2 t) (hs1_2 t) (fun h => h0 ((hcond1_0 t).mp h))
      (iblk1 V c 0 t) (outsAt1 V c (t.val - 1) (Nat.lt_of_le_of_lt (Nat.sub_le _ _) t.isLt)).1
      (outsAt1 V c (t.val - 1) (Nat.lt_of_le_of_lt (Nat.sub_le _ _) t.isLt)).2)
    (out_B_2 c (grid1.coords t) (ms1_0 t) (hs1_0 t) (ms1_1 t) (hs1_1 t) (ms1_2 t) (hs1_2 t) (fun h => h0 ((hcond1_0 t).mp h))
      (iblk1 V c 0 t) (outsAt1 V c (t.val - 1) (Nat.lt_of_le_of_lt (Nat.sub_le _ _) t.isLt)).1
      (outsAt1 V c (t.val - 1) (Nat.lt_of_le_of_lt (Nat.sub_le _ _) t.isLt)).2))

/-- Column j of a 100000 × 128 array, as a family over the rows. -/
def col (h : FVec Ideal S100000x128 .f32) (j : Fin 128) : Fin 100000 → EReal := fun R => h (ix2 R j)

/-- THE INVARIANT: after point n, column j of the first accumulator is the sum of h over the first n + 1 tiles of
    5000 rows, and of the second the sum of h · h over them — by induction on the point. -/
theorem inv : ∀ (n : ℕ) (hn : n < cfg1.N) (j : Fin 128),
    (outsAt1 (F := Ideal) V c n hn).1 (ix2 (0 : Fin 1) j) = Cert.Spec.tiles 5000 (col (V c main_v24) j) (n + 1)
    ∧ (outsAt1 (F := Ideal) V c n hn).2 (ix2 (0 : Fin 1) j)
        = Cert.Spec.tiles 5000 (col (mulf (V c main_v24) (V c main_v24)) j) (n + 1)
  | 0, hn, j => by
    have e : outsAt1 (F := Ideal) V c 0 hn
        = (k1_pay4 (iblk1 V c 0 ⟨0, hn⟩) (k1_pay1 (F := Ideal)), k1_pay5 (iblk1 V c 0 ⟨0, hn⟩) (k1_pay2 (F := Ideal))) :=
      outs_A V c ⟨0, hn⟩ rfl
    rw [e]
    dsimp only
    refine ⟨(pay4_apply (iblk1 V c 0 ⟨0, hn⟩) k1_pay1 j).trans ?_, (pay5_apply (iblk1 V c 0 ⟨0, hn⟩) k1_pay2 j).trans ?_⟩
    · refine (congrArg (· + _) ((pay1_zero j).trans (Cert.Spec.tiles_zero 5000 (col (V c main_v24) j)).symm)).trans ?_
      exact Cert.Spec.tiles_succ_of_eq 5000 (col (V c main_v24) j) 0 (by norm_num) _
        (fun r hr => blk_apply V c ⟨0, hn⟩ r j ⟨0 * 5000 + r.val, hr⟩ rfl)
    · refine (congrArg (· + _) ((pay2_zero j).trans
        (Cert.Spec.tiles_zero 5000 (col (mulf (V c main_v24) (V c main_v24)) j)).symm)).trans ?_
      exact Cert.Spec.tiles_succ_of_eq 5000 (col (mulf (V c main_v24) (V c main_v24)) j) 0 (by norm_num) _
        (fun r hr => congrArg₂ (· * ·) (blk_apply V c ⟨0, hn⟩ r j ⟨0 * 5000 + r.val, hr⟩ rfl)
          (blk_apply V c ⟨0, hn⟩ r j ⟨0 * 5000 + r.val, hr⟩ rfl))
  | n + 1, hn, j => by
    have hN : cfg1.N = 20 := N_1
    have hB : ¬(⟨n + 1, hn⟩ : Fin cfg1.N).val % 20 = 0 := by dsimp only; omega
    have e : outsAt1 (F := Ideal) V c (n + 1) hn
        = (k1_pay4 (iblk1 V c 0 ⟨n + 1, hn⟩) (outsAt1 V c n (Nat.lt_of_succ_lt hn)).1,
           k1_pay5 (iblk1 V c 0 ⟨n + 1, hn⟩) (outsAt1 V c n (Nat.lt_of_succ_lt hn)).2) :=
      outs_B V c ⟨n + 1, hn⟩ hB
    obtain ⟨ih1, ih2⟩ := inv n (Nat.lt_of_succ_lt hn) j
    rw [e]
    dsimp only
    refine ⟨(pay4_apply (iblk1 V c 0 ⟨n + 1, hn⟩) (outsAt1 V c n (Nat.lt_of_succ_lt hn)).1 j).trans ?_,
      (pay5_apply (iblk1 V c 0 ⟨n + 1, hn⟩) (outsAt1 V c n (Nat.lt_of_succ_lt hn)).2 j).trans ?_⟩
    · rw [ih1]
      exact Cert.Spec.tiles_succ_of_eq 5000 (col (V c main_v24) j) (n + 1) (by omega) _
        (fun r hr => blk_apply V c ⟨n + 1, hn⟩ r j ⟨(n + 1) * 5000 + r.val, hr⟩ rfl)
    · rw [ih2]
      exact Cert.Spec.tiles_succ_of_eq 5000 (col (mulf (V c main_v24) (V c main_v24)) j) (n + 1) (by omega) _
        (fun r hr => congrArg₂ (· * ·) (blk_apply V c ⟨n + 1, hn⟩ r j ⟨(n + 1) * 5000 + r.val, hr⟩ rfl)
          (blk_apply V c ⟨n + 1, hn⟩ r j ⟨(n + 1) * 5000 + r.val, hr⟩ rfl))

/-! ## From the last point's write-back to the arrays -/

/-- After the last point the accumulators hold the whole column sums. -/
theorem last (t : Fin cfg1.N) (h19 : t.val + 1 = 20) (j : Fin 128) :
    (outsAt1 (F := Ideal) V c t.val t.isLt).1 (ix2 (0 : Fin 1) j)
        = shapeCast S1x128 (Cert.Spec.colSum (F := Ideal) (V c main_v24)) shapeCasts_S128_S1x128 (ix2 (0 : Fin 1) j)
    ∧ (outsAt1 (F := Ideal) V c t.val t.isLt).2 (ix2 (0 : Fin 1) j)
        = shapeCast S1x128 (Cert.Spec.colSum (F := Ideal) (mulf (V c main_v24) (V c main_v24))) shapeCasts_S128_S1x128
            (ix2 (0 : Fin 1) j) := by
  obtain ⟨i1, i2⟩ := inv V c t.val t.isLt j
  rw [h19] at i1 i2
  refine ⟨i1.trans ?_, i2.trans ?_⟩
  · rw [spec_apply]; exact Cert.Spec.tiles_full 5000 (col (V c main_v24) j) 20 (by norm_num)
  · rw [spec_apply]; exact Cert.Spec.tiles_full 5000 (col (mulf (V c main_v24) (V c main_v24)) j) 20 (by norm_num)

/-- The first accumulator's one block is its whole one-row array, at every point. -/
theorem blkO1_apply (G : FVec Ideal S1x128 .f32) (t : Fin cfg1.N) (j : Fin 128) :
    (((cfg1.win 1).blk t).view.read (Elt Ideal) G : FVec Ideal S1x128 .f32) (ix2 (0 : Fin 1) j) = G (ix2 (0 : Fin 1) j) := by
  obtain ⟨-, -, e0, e1, -⟩ := idx_facts t
  rw [View.read_apply]
  show G _ = G _
  refine congrArg G (funext fun a => Fin.ext ?_)
  match a with
  | ⟨0, _⟩ => show win1_1.index t (0 : Fin 2) * 1 + 1 * 0 = 0; rw [e0]
  | ⟨1, _⟩ => show win1_1.index t (1 : Fin 2) * 128 + 1 * j.val = j.val; rw [e1]; omega

/-- The second accumulator's likewise. -/
theorem blkO2_apply (G : FVec Ideal S1x128 .f32) (t : Fin cfg1.N) (j : Fin 128) :
    (((cfg1.win 2).blk t).view.read (Elt Ideal) G : FVec Ideal S1x128 .f32) (ix2 (0 : Fin 1) j) = G (ix2 (0 : Fin 1) j) := by
  obtain ⟨-, -, -, -, e0, e1⟩ := idx_facts t
  rw [View.read_apply]
  show G _ = G _
  refine congrArg G (funext fun a => Fin.ext ?_)
  match a with
  | ⟨0, _⟩ => show win1_2.index t (0 : Fin 2) * 1 + 1 * 0 = 0; rw [e0]
  | ⟨1, _⟩ => show win1_2.index t (1 : Fin 2) * 128 + 1 * j.val = j.val; rw [e1]; omega

/-- THE ONE WRITE-BACK of the first accumulator, after the last point, writes the column sums of h. -/
theorem flushed1_eq (t : Fin cfg1.N) (hf : (cfg1.win 1).flush t = true) :
    (dat1 (F := Ideal) V c).flushed 1 t = ((cfg1.win 1).blk t).view.read (Elt Ideal)
      (shapeCast S1x128 (Cert.Spec.colSum (F := Ideal) (V c main_v24)) shapeCasts_S128_S1x128) := by
  have hN : cfg1.N = 20 := N_1
  have h19 : t.val + 1 = 20 := by have := (flush1_1 t).mp hf; have := t.isLt; omega
  show (cfg1.win 1).cut (grid1.coords t) ((dat1 V c).after 1 t) = _
  rw [after1_1]
  funext y
  obtain ⟨u, j, rfl⟩ : ∃ (u : Fin 1) (j : Fin 128), y = ix2 u j := ⟨y 0, y 1, eq_ix2 y⟩
  obtain rfl : u = 0 := Subsingleton.elim _ _
  refine Eq.trans ?_ (blkO1_apply _ t j).symm
  exact (last V c t h19 j).1

/-- THE ONE WRITE-BACK of the second accumulator writes the column sums of h · h. -/
theorem flushed2_eq (t : Fin cfg1.N) (hf : (cfg1.win 2).flush t = true) :
    (dat1 (F := Ideal) V c).flushed 2 t = ((cfg1.win 2).blk t).view.read (Elt Ideal)
      (shapeCast S1x128 (Cert.Spec.colSum (F := Ideal) (mulf (V c main_v24) (V c main_v24))) shapeCasts_S128_S1x128) := by
  have hN : cfg1.N = 20 := N_1
  have h19 : t.val + 1 = 20 := by have := (flush1_2 t).mp hf; have := t.isLt; omega
  show (cfg1.win 2).cut (grid1.coords t) ((dat1 V c).after 2 t) = _
  rw [after1_2]
  funext y
  obtain ⟨u, j, rfl⟩ : ∃ (u : Fin 1) (j : Fin 128), y = ix2 u j := ⟨y 0, y 1, eq_ix2 y⟩
  obtain rfl : u = 0 := Subsingleton.elim _ _
  refine Eq.trans ?_ (blkO2_apply _ t j).symm
  exact (last V c t h19 j).2

/-- The last point's block of the first accumulator is the whole one-row array. -/
theorem cover1 (i : S1x128.Idx) :
    ∃ t : Fin cfg1.N, (cfg1.win 1).flush t = true ∧ i ∈ ((cfg1.win 1).blk t).view.set := by
  have hi0 : (i 0).val < 1 := (i 0).isLt
  have hi1 : (i 1).val < 128 := (i 1).isLt
  have h19 : 19 < cfg1.N := by rw [show cfg1.N = 20 from N_1]; norm_num
  obtain ⟨-, -, e0, e1, -⟩ := idx_facts ⟨19, h19⟩
  refine ⟨⟨19, h19⟩, (flush1_1 _).mpr rfl, ?_⟩
  show i ∈ ((View.whole main_v25_0).slice (win1_1.rect ⟨19, h19⟩)).set
  rw [View.set_slice_whole, Rect.mem_set_unit]
  intro a
  match a with
  | ⟨0, _⟩ =>
    show win1_1.index ⟨19, h19⟩ (0 : Fin 2) * 1 ≤ (i 0).val ∧ (i 0).val < win1_1.index ⟨19, h19⟩ (0 : Fin 2) * 1 + 1
    rw [e0]; omega
  | ⟨1, _⟩ =>
    show win1_1.index ⟨19, h19⟩ (1 : Fin 2) * 128 ≤ (i 1).val ∧ (i 1).val < win1_1.index ⟨19, h19⟩ (1 : Fin 2) * 128 + 128
    rw [e1]; omega

/-- and of the second. -/
theorem cover2 (i : S1x128.Idx) :
    ∃ t : Fin cfg1.N, (cfg1.win 2).flush t = true ∧ i ∈ ((cfg1.win 2).blk t).view.set := by
  have hi0 : (i 0).val < 1 := (i 0).isLt
  have hi1 : (i 1).val < 128 := (i 1).isLt
  have h19 : 19 < cfg1.N := by rw [show cfg1.N = 20 from N_1]; norm_num
  obtain ⟨-, -, -, -, e0, e1⟩ := idx_facts ⟨19, h19⟩
  refine ⟨⟨19, h19⟩, (flush1_2 _).mpr rfl, ?_⟩
  show i ∈ ((View.whole main_v25_1).slice (win1_2.rect ⟨19, h19⟩)).set
  rw [View.set_slice_whole, Rect.mem_set_unit]
  intro a
  match a with
  | ⟨0, _⟩ =>
    show win1_2.index ⟨19, h19⟩ (0 : Fin 2) * 1 ≤ (i 0).val ∧ (i 0).val < win1_2.index ⟨19, h19⟩ (0 : Fin 2) * 1 + 1
    rw [e0]; omega
  | ⟨1, _⟩ =>
    show win1_2.index ⟨19, h19⟩ (1 : Fin 2) * 128 ≤ (i 1).val ∧ (i 1).val < win1_2.index ⟨19, h19⟩ (1 : Fin 2) * 128 + 128
    rw [e1]; omega

/-- THE FIRST RESULT ARRAY after the region: the column sums of the features the region finds, as one row. -/
theorem final_sum : (dat1 (F := Ideal) V c).arrAt 1 cfg1.N
      = shapeCast S1x128 (Cert.Spec.colSum (F := Ideal) (V c main_v24)) shapeCasts_S128_S1x128 :=
  (dat1 (F := Ideal) V c).arrAt_eq_of_cover 1 _ (flushed1_eq V c) cover1

/-- THE SECOND RESULT ARRAY: the column sums of their squares, as one row. -/
theorem final_sumsq : (dat1 (F := Ideal) V c).arrAt 2 cfg1.N
      = shapeCast S1x128 (Cert.Spec.colSum (F := Ideal) (mulf (V c main_v24) (V c main_v24))) shapeCasts_S128_S1x128 :=
  (dat1 (F := Ideal) V c).arrAt_eq_of_cover 2 _ (flushed2_eq V c) cover2

end Cert.KernelIdeal.Region1

end
-- ==== Proof.Region2.lean ====
/-
  THE BATCH-NORMALISATION APPLICATION. At each of the 20 grid points the body reads rows 5000t … 5000t + 4999 of the
  hidden features together with the four one-row arrays (mean, variance, scale, shift) and stores, row by row,
  (h − μ) · rsqrt(var + ε) · γ + β. Every operation is pointwise or repeats one row down the block, so what a point
  writes back is its block of ONE function of the whole arrays — the specification's affine application — and the
  20 blocks of 5000 rows tile the 100000 rows: the output array ends holding that function.
-/
import proofs.«103985_j71854802862201_1_alg».proof.Proof.Spec
import proofs.«103985_j71854802862201_1_alg».proof.Proof.Gen.ReferenceIdeal
import proofs.«103985_j71854802862201_1_alg».proof.Proof.Gen.KernelIdeal.Frame
import Idealize.ShloMosaic.Lib.ValueIdx
import Idealize.ShloMosaic.Lib.ValueLayout
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx

theorem hz : (![0, 0] : Fin 2 → Nat) = fun _ => 0 := funext fun a => by fin_cases a <;> rfl

/-- The normalisation of one entry: (a − m) · rsqrt(v + ε) · g + b, ε the float 1e-5. -/
def bnPt (a m v g b : Ideal .f32) : Ideal .f32 :=
  FloatOps.addf (FloatOps.mulf (FloatOps.mulf (FloatOps.subf a m)
    (FloatOps.rsqrt (FloatOps.addf v (Scalar.ofBits .f32 0x3727C5AC#32)))) g) b

/-- THE BODY'S ARITHMETIC AT AN ENTRY: row r, column j of the stored block is the normalisation of the block's
    entry (r, j) by the one-row arrays' entries at column j. -/
theorem pay_apply (x0 : FVec Ideal S5000x128 .f32) (x1 x2 x3 x4 : FVec Ideal S1x128 .f32) (r : Fin 5000) (j : Fin 128) :
    k2_pay1 (F := Ideal) x0 x1 x2 x3 x4 (ix2 r j)
      = bnPt (x0 (ix2 r j)) (x1 (ix2 (0 : Fin 1) j)) (x2 (ix2 (0 : Fin 1) j)) (x3 (ix2 (0 : Fin 1) j)) (x4 (ix2 (0 : Fin 1) j)) := by
  unfold k2_pay1
  simp only [shapeCast_self]
  have e1 := broadcastTo_1b_ab_apply (a := 5000) x1 broadcasts_S1x128_S5000x128 r j
  have e3 := broadcastTo_1b_ab_apply (a := 5000) x3 broadcasts_S1x128_S5000x128 r j
  have e4 := broadcastTo_1b_ab_apply (a := 5000) x4 broadcasts_S1x128_S5000x128 r j
  have e2 := broadcastTo_1b_ab_apply (a := 5000)
    (rsqrt (addf x2 (broadcast S1x128 (Scalar.ofBits (F := Ideal) .f32 0x3727C5AC#32)))) broadcasts_S1x128_S5000x128 r j
  show FloatOps.addf (FloatOps.mulf (FloatOps.mulf (FloatOps.subf (x0 (ix2 r j)) _) _) _) _ = _
  rw [e1, e2, e3, e4]
  rfl

/-- A one-row array repeated down the rows reads, at (R, j), its entry at column j. -/
theorem rows_apply (v : FVec Ideal S1x128 .f32) (R : Fin 100000) (j : Fin 128) :
    Cert.Spec.rows (F := Ideal) v (ix2 R j) = v (ix2 (0 : Fin 1) j) := by
  unfold Cert.Spec.rows
  refine broadcastInDim_apply _ _ v (ix2 R j) (ix2 (0 : Fin 1) j) fun a => ?_
  match a with
  | ⟨0, _⟩ => rfl
  | ⟨1, _⟩ => rfl

/-- THE SPECIFICATION AT AN ENTRY. -/
theorem bnApply_apply (h : FVec Ideal S100000x128 .f32) (mu var g b : FVec Ideal S1x128 .f32) (R : Fin 100000) (j : Fin 128) :
    Cert.Spec.bnApply (F := Ideal) h mu var g b (ix2 R j)
      = bnPt (h (ix2 R j)) (mu (ix2 (0 : Fin 1) j)) (var (ix2 (0 : Fin 1) j)) (g (ix2 (0 : Fin 1) j)) (b (ix2 (0 : Fin 1) j)) := by
  unfold Cert.Spec.bnApply
  show FloatOps.addf (FloatOps.mulf (FloatOps.mulf (FloatOps.subf (h (ix2 R j)) (Cert.Spec.rows mu (ix2 R j)))
    (Cert.Spec.rows _ (ix2 R j))) (Cert.Spec.rows g (ix2 R j))) (Cert.Spec.rows b (ix2 R j)) = _
  rw [rows_apply, rows_apply, rows_apply, rows_apply]
  rfl

variable (V : (c : Dev nD) → (b : Ref sig .tc) → Buf (Elt Ideal) ((c : Thread nD τ).loc b)) (c : Dev nD)

/-- The printed index maps, decided over the grid: at point t the feature block and the output block sit at block
    row t, the one-row arrays' blocks at the origin. -/
theorem idx_facts : ∀ t : Fin cfg2.N, win2_0.index t (0 : Fin 2) = t.val ∧ win2_0.index t (1 : Fin 2) = 0
    ∧ win2_5.index t (0 : Fin 2) = t.val ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- Row r, column j of the feature block at point t is row 5000t + r of the feature array. -/
theorem blk0_apply (t : Fin cfg2.N) (r : Fin 5000) (j : Fin 128) (R : Fin 100000) (hR : R.val = 5000 * t.val + r.val) :
    (iblk2 V c 0 t : FVec Ideal S5000x128 .f32) (ix2 r j) = (V c main_v24 : FVec Ideal S100000x128 .f32) (ix2 R j) := by
  obtain ⟨e0, e1, -⟩ := idx_facts t
  unfold iblk2
  rw [View.read_apply]
  show V c main_v24 _ = V c main_v24 _
  refine congrArg (V c main_v24) (funext fun a => Fin.ext ?_)
  match a with
  | ⟨0, _⟩ => show win2_0.index t (0 : Fin 2) * 5000 + 1 * r.val = R.val; rw [e0, hR]; omega
  | ⟨1, _⟩ => show win2_0.index t (1 : Fin 2) * 128 + 1 * j.val = j.val; rw [e1]; omega

/-- Row r, column j of the output block at point t of a whole-array function is its row 5000t + r. -/
theorem blk5_apply (G : FVec Ideal S100000x128 .f32) (t : Fin cfg2.N) (r : Fin 5000) (j : Fin 128) (R : Fin 100000)
    (hR : R.val = 5000 * t.val + r.val) :
    (((cfg2.win 5).blk t).view.read (Elt Ideal) G : FVec Ideal S5000x128 .f32) (ix2 r j) = G (ix2 R j) := by
  obtain ⟨-, -, e0, e1, -⟩ := idx_facts t
  rw [View.read_apply]
  show G _ = G _
  refine congrArg G (funext fun a => Fin.ext ?_)
  match a with
  | ⟨0, _⟩ => show win2_5.index t (0 : Fin 2) * 5000 + 1 * r.val = R.val; rw [e0, hR]; omega
  | ⟨1, _⟩ => show win2_5.index t (1 : Fin 2) * 128 + 1 * j.val = j.val; rw [e1]; omega

/-- The one-row arrays' blocks are the arrays themselves, at every point. -/
theorem blk1_apply (t : Fin cfg2.N) (j : Fin 128) :
    (iblk2 V c 1 t : FVec Ideal S1x128 .f32) (ix2 (0 : Fin 1) j) = (V c main_v34 : FVec Ideal S1x128 .f32) (ix2 (0 : Fin 1) j) := by
  obtain ⟨-, -, -, -, e0, e1, -⟩ := idx_facts t
  unfold iblk2
  rw [View.read_apply]
  show V c main_v34 _ = V c main_v34 _
  refine congrArg (V c main_v34) (funext fun a => Fin.ext ?_)
  match a with
  | ⟨0, _⟩ => show win2_1.index t (0 : Fin 2) * 1 + 1 * 0 = 0; rw [e0]
  | ⟨1, _⟩ => show win2_1.index t (1 : Fin 2) * 128 + 1 * j.val = j.val; rw [e1]; omega

theorem blk2_apply (t : Fin cfg2.N) (j : Fin 128) :
    (iblk2 V c 2 t : FVec Ideal S1x128 .f32) (ix2 (0 : Fin 1) j) = (V c main_v35 : FVec Ideal S1x128 .f32) (ix2 (0 : Fin 1) j) := by
  obtain ⟨-, -, -, -, -, -, e0, e1, -⟩ := idx_facts t
  unfold iblk2
  rw [View.read_apply]
  show V c main_v35 _ = V c main_v35 _
  refine congrArg (V c main_v35) (funext fun a => Fin.ext ?_)
  match a with
  | ⟨0, _⟩ => show win2_2.index t (0 : Fin 2) * 1 + 1 * 0 = 0; rw [e0]
  | ⟨1, _⟩ => show win2_2.index t (1 : Fin 2) * 128 + 1 * j.val = j.val; rw [e1]; omega

theorem blk3_apply (t : Fin cfg2.N) (j : Fin 128) :
    (iblk2 V c 3 t : FVec Ideal S1x128 .f32) (ix2 (0 : Fin 1) j) = (V c main_v36 : FVec Ideal S1x128 .f32) (ix2 (0 : Fin 1) j) := by
  obtain ⟨-, -, -, -, -, -, -, -, e0, e1, -⟩ := idx_facts t
  unfold iblk2
  rw [View.read_apply]
  show V c main_v36 _ = V c main_v36 _
  refine congrArg (V c main_v36) (funext fun a => Fin.ext ?_)
  match a with
  | ⟨0, _⟩ => show win2_3.index t (0 : Fin 2) * 1 + 1 * 0 = 0; rw [e0]
  | ⟨1, _⟩ => show win2_3.index t (1 : Fin 2) * 128 + 1 * j.val = j.val; rw [e1]; omega

theorem blk4_apply (t : Fin cfg2.N) (j : Fin 128) :
    (iblk2 V c 4 t : FVec Ideal S1x128 .f32) (ix2 (0 : Fin 1) j) = (V c main_v37 : FVec Ideal S1x128 .f32) (ix2 (0 : Fin 1) j) := by
  obtain ⟨-, -, -, -, -, -, -, -, -, -, e0, e1⟩ := idx_facts t
  unfold iblk2
  rw [View.read_apply]
  show V c main_v37 _ = V c main_v37 _
  refine congrArg (V c main_v37) (funext fun a => Fin.ext ?_)
  match a with
  | ⟨0, _⟩ => show win2_4.index t (0 : Fin 2) * 1 + 1 * 0 = 0; rw [e0]
  | ⟨1, _⟩ => show win2_4.index t (1 : Fin 2) * 128 + 1 * j.val = j.val; rw [e1]; omega

/-- WHAT POINT t WRITES BACK is block t of the affine application of the whole arrays. -/
theorem flushed_eq (t : Fin cfg2.N) :
    (dat2 (F := Ideal) V c).flushed 5 t = ((cfg2.win 5).blk t).view.read (Elt Ideal)
      (Cert.Spec.bnApply (F := Ideal) (V c main_v24) (V c main_v34) (V c main_v35) (V c main_v36) (V c main_v37)) := by
  show (cfg2.win 5).cut (grid2.coords t) ((dat2 V c).after 5 t) = _
  rw [after2_5]
  unfold out2_5
  rw [View.canon_unit_zero hz]
  simp only [View.ld_unit_zero (S := S5000x128) hz, View.ld_unit_zero (S := S1x128) hz]
  funext y
  obtain ⟨r, j, rfl⟩ : ∃ (r : Fin 5000) (j : Fin 128), y = ix2 r j := ⟨y 0, y 1, eq_ix2 y⟩
  have hN : t.val < 20 := lt_of_lt_of_eq t.isLt (show cfg2.N = 20 from N_2)
  have hR : (⟨5000 * t.val + r.val, by have := r.isLt; omega⟩ : Fin 100000).val = 5000 * t.val + r.val := rfl
  refine Eq.trans ?_ (blk5_apply _ t r j _ hR).symm
  rw [bnApply_apply]
  show k2_pay1 (F := Ideal) (iblk2 V c 0 t) (iblk2 V c 1 t) (iblk2 V c 2 t) (iblk2 V c 3 t) (iblk2 V c 4 t) (ix2 r j) = _
  refine (pay_apply (iblk2 V c 0 t) (iblk2 V c 1 t) (iblk2 V c 2 t) (iblk2 V c 3 t) (iblk2 V c 4 t) r j).trans ?_
  rw [blk0_apply V c t r j _ hR, blk1_apply V c t j, blk2_apply V c t j, blk3_apply V c t j, blk4_apply V c t j]

/-- An index of the output array is in point t's block iff each coordinate is in the block's range on its axis. -/
theorem mem_blk (t : Fin cfg2.N) (i : S100000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v38).slice (win2_5.rect t)).set ↔ _
  rw [View.set_slice_whole, Rect.mem_set_unit]
  exact Iff.rfl

/-- THE BLOCKS TILE THE ROWS: row R lies in the block of point R / 5000, and every point writes back. -/
theorem cover (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 20 := N_2
  have ht : (i 0).val / 5000 < cfg2.N := by rw [hN]; omega
  obtain ⟨-, -, e0, e1, -⟩ := idx_facts ⟨(i 0).val / 5000, ht⟩
  refine ⟨⟨(i 0).val / 5000, ht⟩, flush2_5 _, ?_⟩
  rw [mem_blk]
  intro a
  match a with
  | ⟨0, _⟩ =>
    show win2_5.index ⟨(i 0).val / 5000, ht⟩ (0 : Fin 2) * 5000 ≤ (i 0).val
      ∧ (i 0).val < win2_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win2_5.index ⟨(i 0).val / 5000, ht⟩ (1 : Fin 2) * 128 ≤ (i 1).val
      ∧ (i 1).val < win2_5.index ⟨(i 0).val / 5000, ht⟩ (1 : Fin 2) * 128 + 128
    rw [e1]; omega

/-- THE OUTPUT ARRAY after the region: the affine application of the arrays the region finds. -/
theorem final : (dat2 (F := Ideal) V c).arrAt 5 cfg2.N
      = Cert.Spec.bnApply (F := Ideal) (V c main_v24) (V c main_v34) (V c main_v35) (V c main_v36) (V c main_v37) :=
  (dat2 (F := Ideal) V c).arrAt_eq_of_cover 5 _ (fun t _ => flushed_eq V c t) cover

end Cert.KernelIdeal.Region2

end
-- ==== Proof.Region3.lean ====
/-
  THE SECOND LAYER AND THE HEAD. At each of the 20 grid points the body reads rows 5000t … 5000t + 4999 of the
  aggregated and of the hidden features, the two weight matrices, the bias row, the head's weights and its bias (the
  last five whole), and stores two blocks: the normalised affine combination of each node's two rows (the embedding),
  and the head on that embedding's first 64 columns. Both stored entries depend on the node's own two rows only, so
  what a point writes back is its block of ONE function of the whole arrays — the specification's layer, and its head —
  and the 20 blocks of 5000 rows tile the 100000 nodes.
-/
import proofs.«103985_j71854802862201_1_alg».proof.Proof.Spec
import proofs.«103985_j71854802862201_1_alg».proof.Proof.SageRow
import proofs.«103985_j71854802862201_1_alg».proof.Proof.SageAt
import proofs.«103985_j71854802862201_1_alg».proof.Proof.SagePay
import proofs.«103985_j71854802862201_1_alg».proof.Proof.Gen.ReferenceIdeal
import proofs.«103985_j71854802862201_1_alg».proof.Proof.Gen.KernelIdeal.Frame
import Idealize.ShloMosaic.Lib.ValueIdx
import Idealize.ShloMosaic.Lib.ValueLayout
import Idealize.ShloMosaic.Lib.Pipeline.Value

set_option maxRecDepth 16384

noncomputable section

namespace Cert.KernelIdeal.Region3

open Cert.KernelIdeal Cert.KernelIdeal.Gen Idealize.ShloMosaic Idealize.ShloMosaic.TcCoe Idealize.SL.Sem
open Idealize.ShloMosaic.ValueIdx

theorem hz : (![0, 0] : Fin 2 → Nat) = fun _ => 0 := funext fun a => by fin_cases a <;> rfl

variable (V : (c : Dev nD) → (b : Ref sig .tc) → Buf (Elt Ideal) ((c : Thread nD τ).loc b)) (c : Dev nD)

/-! ## The printed index maps, decided over the grid -/

/-- At point t the two feature blocks and the two output blocks sit at block row t. -/
theorem idx_rows : ∀ t : Fin cfg3.N, win3_0.index t (0 : Fin 2) = t.val ∧ win3_0.index t (1 : Fin 2) = 0
    ∧ win3_1.index t (0 : Fin 2) = t.val ∧ win3_1.index t (1 : Fin 2) = 0
    ∧ win3_7.index t (0 : Fin 2) = t.val ∧ win3_7.index t (1 : Fin 2) = 0
    ∧ win3_8.index t (0 : Fin 2) = t.val ∧ win3_8.index t (1 : Fin 2) = 0 :=
  (by decide +kernel : ∀ t : Fin grid3.N, _)

/-- The five parameter arrays' blocks sit at the origin. -/
theorem idx_whole : ∀ t : Fin cfg3.N, win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0 :=
  (by decide +kernel : ∀ t : Fin grid3.N, _)

/-! ## The blocks, read off the arrays -/

/-- Row r of the aggregated-feature block at point t is row 5000t + r of its array. -/
theorem blk0_apply (t : Fin cfg3.N) (r : Fin 5000) (k : Fin 128) (R : Fin 100000) (hR : R.val = 5000 * t.val + r.val) :
    (iblk3 V c 0 t : FVec Ideal S5000x128 .f32) (ix2 r k) = (V c main_v57 : FVec Ideal S100000x128 .f32) (ix2 R k) := by
  obtain ⟨e0, e1, -⟩ := idx_rows t
  unfold iblk3
  rw [View.read_apply]
  show V c main_v57 _ = V c main_v57 _
  refine congrArg (V c main_v57) (funext fun a => Fin.ext ?_)
  match a with
  | ⟨0, _⟩ => show win3_0.index t (0 : Fin 2) * 5000 + 1 * r.val = R.val; rw [e0, hR]; omega
  | ⟨1, _⟩ => show win3_0.index t (1 : Fin 2) * 128 + 1 * k.val = k.val; rw [e1]; omega

/-- Row r of the hidden-feature block at point t is row 5000t + r of its array. -/
theorem blk1_apply (t : Fin cfg3.N) (r : Fin 5000) (k : Fin 128) (R : Fin 100000) (hR : R.val = 5000 * t.val + r.val) :
    (iblk3 V c 1 t : FVec Ideal S5000x128 .f32) (ix2 r k) = (V c main_v38 : FVec Ideal S100000x128 .f32) (ix2 R k) := by
  obtain ⟨-, -, e0, e1, -⟩ := idx_rows t
  unfold iblk3
  rw [View.read_apply]
  show V c main_v38 _ = V c main_v38 _
  refine congrArg (V c main_v38) (funext fun a => Fin.ext ?_)
  match a with
  | ⟨0, _⟩ => show win3_1.index t (0 : Fin 2) * 5000 + 1 * r.val = R.val; rw [e0, hR]; omega
  | ⟨1, _⟩ => show win3_1.index t (1 : Fin 2) * 128 + 1 * k.val = k.val; rw [e1]; omega

/-- The parameter arrays' blocks are the arrays themselves, at every point. -/
theorem blk2_eq (t : Fin cfg3.N) : (iblk3 V c 2 t : FVec Ideal S128x128 .f32) = V c main_arg7 := by
  obtain ⟨e0, e1, -⟩ := idx_whole t
  funext y
  unfold iblk3
  rw [View.read_apply]
  show V c main_arg7 _ = V c main_arg7 _
  refine congrArg (V c main_arg7) (funext fun a => Fin.ext ?_)
  match a with
  | ⟨0, _⟩ => show win3_2.index t (0 : Fin 2) * 128 + 1 * (y 0).val = (y 0).val; rw [e0]; omega
  | ⟨1, _⟩ => show win3_2.index t (1 : Fin 2) * 128 + 1 * (y 1).val = (y 1).val; rw [e1]; omega

theorem blk3_eq (t : Fin cfg3.N) : (iblk3 V c 3 t : FVec Ideal S1x128 .f32) = V c main_v58 := by
  obtain ⟨-, -, e0, e1, -⟩ := idx_whole t
  funext y
  unfold iblk3
  rw [View.read_apply]
  show V c main_v58 _ = V c main_v58 _
  refine congrArg (V c main_v58) (funext fun a => Fin.ext ?_)
  match a with
  | ⟨0, _⟩ => show win3_3.index t (0 : Fin 2) * 1 + 1 * (y 0).val = (y 0).val; rw [e0]; omega
  | ⟨1, _⟩ => show win3_3.index t (1 : Fin 2) * 128 + 1 * (y 1).val = (y 1).val; rw [e1]; omega

theorem blk4_eq (t : Fin cfg3.N) : (iblk3 V c 4 t : FVec Ideal S128x128 .f32) = V c main_arg9 := by
  obtain ⟨-, -, -, -, e0, e1, -⟩ := idx_whole t
  funext y
  unfold iblk3
  rw [View.read_apply]
  show V c main_arg9 _ = V c main_arg9 _
  refine congrArg (V c main_arg9) (funext fun a => Fin.ext ?_)
  match a with
  | ⟨0, _⟩ => show win3_4.index t (0 : Fin 2) * 128 + 1 * (y 0).val = (y 0).val; rw [e0]; omega
  | ⟨1, _⟩ => show win3_4.index t (1 : Fin 2) * 128 + 1 * (y 1).val = (y 1).val; rw [e1]; omega

theorem blk5_eq (t : Fin cfg3.N) : (iblk3 V c 5 t : FVec Ideal S64x1 .f32) = V c main_arg10 := by
  obtain ⟨-, -, -, -, -, -, e0, e1, -⟩ := idx_whole t
  funext y
  unfold iblk3
  rw [View.read_apply]
  show V c main_arg10 _ = V c main_arg10 _
  refine congrArg (V c main_arg10) (funext fun a => Fin.ext ?_)
  match a with
  | ⟨0, _⟩ => show win3_5.index t (0 : Fin 2) * 64 + 1 * (y 0).val = (y 0).val; rw [e0]; omega
  | ⟨1, _⟩ => show win3_5.index t (1 : Fin 2) * 1 + 1 * (y 1).val = (y 1).val; rw [e1]; omega

theorem blk6_eq (t : Fin cfg3.N) : (iblk3 V c 6 t : FVec Ideal S1x1 .f32) = V c main_v59 := by
  obtain ⟨-, -, -, -, -, -, -, -, e0, e1⟩ := idx_whole t
  funext y
  unfold iblk3
  rw [View.read_apply]
  show V c main_v59 _ = V c main_v59 _
  refine congrArg (V c main_v59) (funext fun a => Fin.ext ?_)
  match a with
  | ⟨0, _⟩ => show win3_6.index t (0 : Fin 2) * 1 + 1 * (y 0).val = (y 0).val; rw [e0]; omega
  | ⟨1, _⟩ => show win3_6.index t (1 : Fin 2) * 1 + 1 * (y 1).val = (y 1).val; rw [e1]; omega

/-- Row r, column j of the embedding block at point t of a whole-array function is its row 5000t + r. -/
theorem blk7_apply (G : FVec Ideal S100000x128 .f32) (t : Fin cfg3.N) (r : Fin 5000) (j : Fin 128) (R : Fin 100000)
    (hR : R.val = 5000 * t.val + r.val) :
    (((cfg3.win 7).blk t).view.read (Elt Ideal) G : FVec Ideal S5000x128 .f32) (ix2 r j) = G (ix2 R j) := by
  obtain ⟨-, -, -, -, e0, e1, -⟩ := idx_rows t
  rw [View.read_apply]
  show G _ = G _
  refine congrArg G (funext fun a => Fin.ext ?_)
  match a with
  | ⟨0, _⟩ => show win3_7.index t (0 : Fin 2) * 5000 + 1 * r.val = R.val; rw [e0, hR]; omega
  | ⟨1, _⟩ => show win3_7.index t (1 : Fin 2) * 128 + 1 * j.val = j.val; rw [e1]; omega

/-- Row r of the prediction block at point t of a whole-array column is its row 5000t + r. -/
theorem blk8_apply (G : FVec Ideal S100000x1 .f32) (t : Fin cfg3.N) (r : Fin 5000) (R : Fin 100000)
    (hR : R.val = 5000 * t.val + r.val) :
    (((cfg3.win 8).blk t).view.read (Elt Ideal) G : FVec Ideal S5000x1 .f32) (ix2 r (0 : Fin 1)) = G (ix2 R (0 : Fin 1)) := by
  obtain ⟨-, -, -, -, -, -, e0, e1⟩ := idx_rows t
  rw [View.read_apply]
  show G _ = G _
  refine congrArg G (funext fun a => Fin.ext ?_)
  match a with
  | ⟨0, _⟩ => show win3_8.index t (0 : Fin 2) * 5000 + 1 * r.val = R.val; rw [e0, hR]; omega
  | ⟨1, _⟩ => show win3_8.index t (1 : Fin 2) * 1 + 1 * 0 = 0; rw [e1]

/-! ## What a point writes back -/

/-- The affine combination's row function at a node of the block is the array's at node 5000t + r. -/
theorem row_eq (t : Fin cfg3.N) (r : Fin 5000) (R : Fin 100000) (hR : R.val = 5000 * t.val + r.val) :
    Cert.Spec.linAt (fun k => (iblk3 V c 0 t : FVec Ideal S5000x128 .f32) (ix2 r k))
        (fun k => (iblk3 V c 1 t : FVec Ideal S5000x128 .f32) (ix2 r k))
        (iblk3 V c 2 t : FVec Ideal S128x128 .f32) (iblk3 V c 4 t : FVec Ideal S128x128 .f32) (iblk3 V c 3 t : FVec Ideal S1x128 .f32)
      = Cert.Spec.linAt (fun k => (V c main_v57 : FVec Ideal S100000x128 .f32) (ix2 R k))
        (fun k => (V c main_v38 : FVec Ideal S100000x128 .f32) (ix2 R k)) (V c main_arg7) (V c main_arg9) (V c main_v58) := by
  rw [blk2_eq V c t, blk3_eq V c t, blk4_eq V c t,
    show (fun k => (iblk3 V c 0 t : FVec Ideal S5000x128 .f32) (ix2 r k))
      = fun k => (V c main_v57 : FVec Ideal S100000x128 .f32) (ix2 R k) from funext fun k => blk0_apply V c t r k R hR,
    show (fun k => (iblk3 V c 1 t : FVec Ideal S5000x128 .f32) (ix2 r k))
      = fun k => (V c main_v38 : FVec Ideal S100000x128 .f32) (ix2 R k) from funext fun k => blk1_apply V c t r k R hR]

/-- WHAT POINT t WRITES BACK TO THE EMBEDDING is block t of the layer applied to the whole arrays. -/
theorem flushed7_eq (t : Fin cfg3.N) :
    (dat3 (F := Ideal) V c).flushed 7 t = ((cfg3.win 7).blk t).view.read (Elt Ideal)
      (Cert.Spec.sage2 (F := Ideal) (V c main_v57) (V c main_v38) (V c main_arg7) (V c main_v58) (V c main_arg9)) := by
  show (cfg3.win 7).cut (grid3.coords t) ((dat3 V c).after 7 t) = _
  rw [after3_7]
  unfold out3_7
  rw [View.canon_unit_zero hz]
  simp only [View.ld_unit_zero (S := S5000x128) hz, View.ld_unit_zero (S := S128x128) hz, View.ld_unit_zero (S := S1x128) hz]
  funext y
  obtain ⟨r, j, rfl⟩ : ∃ (r : Fin 5000) (j : Fin 128), y = ix2 r j := ⟨y 0, y 1, eq_ix2 y⟩
  have hN : t.val < 20 := lt_of_lt_of_eq t.isLt (show cfg3.N = 20 from N_3)
  have hR : (⟨5000 * t.val + r.val, by have := r.isLt; omega⟩ : Fin 100000).val = 5000 * t.val + r.val := rfl
  refine Eq.trans ?_ (blk7_apply _ t r j _ hR).symm
  rw [Cert.Spec.sage2_apply]
  show k3_pay1 (F := Ideal) (iblk3 V c 0 t) (iblk3 V c 1 t) (iblk3 V c 2 t) (iblk3 V c 4 t) (iblk3 V c 3 t) (ix2 r j) = _
  refine (SagePay.pay3_apply (iblk3 V c 0 t) (iblk3 V c 1 t) (iblk3 V c 2 t) (iblk3 V c 4 t) (iblk3 V c 3 t) r j).trans ?_
  exact congrArg (fun o => Cert.Spec.l2At o j) (row_eq V c t r _ hR)

/-- WHAT POINT t WRITES BACK TO THE PREDICTIONS is block t of the head on that layer. -/
theorem flushed8_eq (t : Fin cfg3.N) :
    (dat3 (F := Ideal) V c).flushed 8 t = ((cfg3.win 8).blk t).view.read (Elt Ideal)
      (Cert.Spec.head2 (F := Ideal)
        (Cert.Spec.sage2 (V c main_v57) (V c main_v38) (V c main_arg7) (V c main_v58) (V c main_arg9))
        (V c main_arg10) (V c main_v59)) := by
  show (cfg3.win 8).cut (grid3.coords t) ((dat3 V c).after 8 t) = _
  rw [after3_8]
  unfold out3_8
  rw [View.canon_unit_zero hz]
  simp only [View.ld_unit_zero (S := S5000x128) hz, View.ld_unit_zero (S := S128x128) hz, View.ld_unit_zero (S := S1x128) hz,
    View.ld_unit_zero (S := S64x1) hz, View.ld_unit_zero (S := S1x1) hz]
  funext y
  obtain ⟨r, u, rfl⟩ : ∃ (r : Fin 5000) (u : Fin 1), y = ix2 r u := ⟨y 0, y 1, eq_ix2 y⟩
  obtain rfl : u = 0 := Subsingleton.elim _ _
  have hN : t.val < 20 := lt_of_lt_of_eq t.isLt (show cfg3.N = 20 from N_3)
  have hR : (⟨5000 * t.val + r.val, by have := r.isLt; omega⟩ : Fin 100000).val = 5000 * t.val + r.val := rfl
  refine Eq.trans ?_ (blk8_apply _ t r _ hR).symm
  rw [Cert.Spec.head2_apply]
  show k3_pay2 (F := Ideal) (iblk3 V c 0 t) (iblk3 V c 1 t) (iblk3 V c 2 t) (iblk3 V c 4 t) (iblk3 V c 3 t)
    (iblk3 V c 5 t) (iblk3 V c 6 t) (ix2 r (0 : Fin 1)) = _
  refine (SagePay.pay3h_apply (iblk3 V c 0 t) (iblk3 V c 1 t) (iblk3 V c 2 t) (iblk3 V c 4 t) (iblk3 V c 3 t)
    (iblk3 V c 5 t) (iblk3 V c 6 t) r).trans ?_
  rw [blk5_eq V c t, blk6_eq V c t, row_eq V c t r _ hR]
  exact congrArg (fun e => Cert.Spec.headAt e (V c main_arg10) (V c main_v59))
    (funext fun j => (Cert.Spec.sage2_apply (V c main_v57) (V c main_v38) (V c main_arg7) (V c main_v58) (V c main_arg9) _ j).symm)

/-! ## The blocks tile the nodes -/

/-- Node R lies in the embedding block of point R / 5000, and every point writes back. -/
theorem cover7 (i : S100000x128.Idx) :
    ∃ t : Fin cfg3.N, (cfg3.win 7).flush t = true ∧ i ∈ ((cfg3.win 7).blk t).view.set := by
  have hi0 : (i 0).val < 100000 := (i 0).isLt
  have hi1 : (i 1).val < 128 := (i 1).isLt
  have ht : (i 0).val / 5000 < cfg3.N := by rw [show cfg3.N = 20 from N_3]; omega
  obtain ⟨-, -, -, -, e0, e1, -⟩ := idx_rows ⟨(i 0).val / 5000, ht⟩
  refine ⟨⟨(i 0).val / 5000, ht⟩, flush3_7 _, ?_⟩
  show i ∈ ((View.whole main_v60_0).slice (win3_7.rect ⟨(i 0).val / 5000, ht⟩)).set
  rw [View.set_slice_whole, Rect.mem_set_unit]
  intro a
  match a with
  | ⟨0, _⟩ =>
    show win3_7.index ⟨(i 0).val / 5000, ht⟩ (0 : Fin 2) * 5000 ≤ (i 0).val
      ∧ (i 0).val < win3_7.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win3_7.index ⟨(i 0).val / 5000, ht⟩ (1 : Fin 2) * 128 ≤ (i 1).val
      ∧ (i 1).val < win3_7.index ⟨(i 0).val / 5000, ht⟩ (1 : Fin 2) * 128 + 128
    rw [e1]; omega

/-- The same for the prediction column. -/
theorem cover8 (i : S100000x1.Idx) :
    ∃ t : Fin cfg3.N, (cfg3.win 8).flush t = true ∧ i ∈ ((cfg3.win 8).blk t).view.set := by
  have hi0 : (i 0).val < 100000 := (i 0).isLt
  have hi1 : (i 1).val < 1 := (i 1).isLt
  have ht : (i 0).val / 5000 < cfg3.N := by rw [show cfg3.N = 20 from N_3]; omega
  obtain ⟨-, -, -, -, -, -, e0, e1⟩ := idx_rows ⟨(i 0).val / 5000, ht⟩
  refine ⟨⟨(i 0).val / 5000, ht⟩, flush3_8 _, ?_⟩
  show i ∈ ((View.whole main_v60_1).slice (win3_8.rect ⟨(i 0).val / 5000, ht⟩)).set
  rw [View.set_slice_whole, Rect.mem_set_unit]
  intro a
  match a with
  | ⟨0, _⟩ =>
    show win3_8.index ⟨(i 0).val / 5000, ht⟩ (0 : Fin 2) * 5000 ≤ (i 0).val
      ∧ (i 0).val < win3_8.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win3_8.index ⟨(i 0).val / 5000, ht⟩ (1 : Fin 2) * 1 ≤ (i 1).val
      ∧ (i 1).val < win3_8.index ⟨(i 0).val / 5000, ht⟩ (1 : Fin 2) * 1 + 1
    rw [e1]; omega

/-- THE EMBEDDING ARRAY after the region: the layer applied to the arrays the region finds. -/
theorem final_embed : (dat3 (F := Ideal) V c).arrAt 7 cfg3.N
      = Cert.Spec.sage2 (F := Ideal) (V c main_v57) (V c main_v38) (V c main_arg7) (V c main_v58) (V c main_arg9) :=
  (dat3 (F := Ideal) V c).arrAt_eq_of_cover 7 _ (fun t _ => flushed7_eq V c t) cover7

/-- THE PREDICTION COLUMN after the region: the head on that layer. -/
theorem final_preds : (dat3 (F := Ideal) V c).arrAt 8 cfg3.N
      = Cert.Spec.head2 (F := Ideal)
          (Cert.Spec.sage2 (V c main_v57) (V c main_v38) (V c main_arg7) (V c main_v58) (V c main_arg9))
          (V c main_arg10) (V c main_v59) :=
  (dat3 (F := Ideal) V c).arrAt_eq_of_cover 8 _ (fun t _ => flushed8_eq V c t) cover8

end Cert.KernelIdeal.Region3

end
-- ==== Proof.RefRun.lean ====
/-
  The reference program's run, read back. Its @main is one straight line of host operations (a function it
  calls is the callee's operations at the call's buffers), cut here into eleven consecutive stretches, one per
  stage of the network. Each stretch computes one stage of `Cert.Spec` from the buffers it reads and leaves
  every other buffer as it was; chained, every weakly fair execution ends with the prediction vector at
  `head (embedOf (hiddenRef …))`, the embedding at `embedOf (hiddenRef …)` of the arguments' launch contents,
  and the arguments unchanged.
-/
import proofs.«103985_j71854802862201_1_alg».proof.Proof.Spec
import proofs.«103985_j71854802862201_1_alg».proof.Proof.Gen.ReferenceIdeal
import Idealize.ShloMosaic.Lib.StableHlo.Run

noncomputable section

namespace Cert.ReferenceIdeal.RefRun

open Cert.ReferenceIdeal Cert.ReferenceIdeal.Facts₀
open Idealize.ShloMosaic Idealize.ShloMosaic.TcCoe Idealize.SL.Sem Idealize.ShloMosaic.StableHlo

variable {F : FTy → Type} [FloatOps F]

/-- The fold over two lines run one after the other is the second's fold over the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- One operation writes a buffer of the listed ones. -/
local macro "wr" : tactic =>
  `(tactic| (simp only [nullary_writes, unary_writes, binary_writes, ternary_writes, reshape_writes,
      Finset.singleton_subset_iff, List.mem_toFinset]; exact List.mem_map_of_mem (by decide)))

/-! ## The stretches -/

/-- The two rows of the edge list: sources and destinations. -/
abbrev s1 : List (HloOp τ sig (Elt F)) :=
  [ unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    reshape main_v2 main_v3 rfl shapeCasts_S1x600000_S600000 ]

/-- The buffers the stretch writes. -/
abbrev s1_W : List (Ref sig .tc) := [main_v0, main_v1, main_v2, main_v3]
theorem s1_writes : (s1 : List (HloOp τ sig (Elt F))).Forall fun op =>
    op.writes ⊆ (s1_W.map (Proc.devRef (τ := τ) .tc)).toFinset := by
  simp only [List.Forall]
  exact ⟨by wr, by wr, by wr, by wr⟩
/-- A buffer the stretch does not write keeps its contents. -/
theorem s1_keep (W : Valuation τ sig (Elt F)) (r : Ref sig .tc) (h : r ∉ s1_W) :
    after s1 W (no_index (Proc.devRef .tc r)) = W (Proc.devRef .tc r) :=
  after_of_writes_sub s1 W s1_writes h
theorem s1_sub : (s1 : List (HloOp τ sig (Elt F))).Forall fun op => op.bufs ⊆ tcRefs τ sig :=
  ⟨unary_bufs_sub .., reshape_bufs_sub .., unary_bufs_sub .., reshape_bufs_sub ..⟩

/-- The mean over incoming edges of the input features. -/
abbrev s2 : List (HloOp τ sig (Elt F)) :=
  [ nullary main_c (constantI S_ 32 0#32),
    unary main_c main_v4 (broadcastInDim S600000 ![] bcast_S_S600000 : (⟨S_, .i32⟩ : BufTy).Contents (Elt F) → (⟨S600000, .i32⟩ : BufTy).Contents (Elt F)),
    binary main_v1 main_v4 main_v5 (cmpi .slt : (⟨S600000, .i32⟩ : BufTy).Contents (Elt F) → (⟨S600000, .i32⟩ : BufTy).Contents (Elt F) → (⟨S600000, .i1⟩ : BufTy).Contents (Elt F)),
    nullary main_c_0 (constantI S_ 32 100000#32),
    unary main_c_0 main_v6 (broadcastInDim S600000 ![] bcast_S_S600000 : (⟨S_, .i32⟩ : BufTy).Contents (Elt F) → (⟨S600000, .i32⟩ : BufTy).Contents (Elt F)),
    binary main_v1 main_v6 main_v7 (addi : (⟨S600000, .i32⟩ : BufTy).Contents (Elt F) → (⟨S600000, .i32⟩ : BufTy).Contents (Elt F) → (⟨S600000, .i32⟩ : BufTy).Contents (Elt F)),
    ternary main_v5 main_v7 main_v1 main_v8 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v8 main_v9 (broadcastInDim S600000x1 ![0] bcast_S600000_S600000x1_0 : (⟨S600000, .i32⟩ : BufTy).Contents (Elt F) → (⟨S600000x1, .i32⟩ : BufTy).Contents (Elt F)),
    binary main_arg0 main_v9 main_v10 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_v3 main_v12 (broadcastInDim S600000x1 ![0] bcast_S600000_S600000x1_0 : (⟨S600000, .i32⟩ : BufTy).Contents (Elt F) → (⟨S600000x1, .i32⟩ : BufTy).Contents (Elt F)),
    ternary main_v11 main_v12 main_v10 main_v13 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    nullary main_cst_1 (constant S_ .f32 0x3F800000#32),
    unary main_cst_1 main_v14 (broadcastInDim S600000 ![] bcast_S_S600000 : (⟨S_, .f32⟩ : BufTy).Contents (Elt F) → (⟨S600000, .f32⟩ : BufTy).Contents (Elt F)),
    nullary main_cst_2 (constant S_ .f32 0x00000000#32),
    unary main_cst_2 main_v15 (broadcastInDim S100000 ![] bcast_S_S100000 : (⟨S_, .f32⟩ : BufTy).Contents (Elt F) → (⟨S100000, .f32⟩ : BufTy).Contents (Elt F)),
    unary main_v3 main_v16 (broadcastInDim S600000x1 ![0] bcast_S600000_S600000x1_0 : (⟨S600000, .i32⟩ : BufTy).Contents (Elt F) → (⟨S600000x1, .i32⟩ : BufTy).Contents (Elt F)),
    ternary main_v15 main_v16 main_v14 main_v17 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    nullary main_cst_3 (constant S_ .f32 0x3F800000#32),
    unary main_cst_3 main_v18 (broadcastInDim S100000 ![] bcast_S_S100000 : (⟨S_, .f32⟩ : BufTy).Contents (Elt F) → (⟨S100000, .f32⟩ : BufTy).Contents (Elt F)),
    binary main_v17 main_v18 main_v19 (maximumf : (⟨S100000, .f32⟩ : BufTy).Contents (Elt F) → (⟨S100000, .f32⟩ : BufTy).Contents (Elt F) → (⟨S100000, .f32⟩ : BufTy).Contents (Elt F)),
    unary main_v19 main_v20 (broadcastInDim S100000x1 ![0] bcast_S100000_S100000x1_0 : (⟨S100000, .f32⟩ : BufTy).Contents (Elt F) → (⟨S100000x1, .f32⟩ : BufTy).Contents (Elt F)),
    unary main_v20 main_v21 (broadcastInDim S100000x128 ![0, 1] bcast_S100000x1_S100000x128_0_1 : (⟨S100000x1, .f32⟩ : BufTy).Contents (Elt F) → (⟨S100000x128, .f32⟩ : BufTy).Contents (Elt F)),
    binary main_v13 main_v21 main_v22 (Host.divf : (⟨S100000x128, .f32⟩ : BufTy).Contents (Elt F) → (⟨S100000x128, .f32⟩ : BufTy).Contents (Elt F) → (⟨S100000x128, .f32⟩ : BufTy).Contents (Elt F)) ]

/-- The buffers the stretch writes. -/
abbrev s2_W : List (Ref sig .tc) := [main_c, main_v4, main_v5, main_c_0, main_v6, main_v7, main_v8, main_v9, main_v10, main_cst, main_v11, main_v12, main_v13, main_cst_1, main_v14, main_cst_2, main_v15, main_v16, main_v17, main_cst_3, main_v18, main_v19, main_v20, main_v21, main_v22]
theorem s2_writes : (s2 : List (HloOp τ sig (Elt F))).Forall fun op =>
    op.writes ⊆ (s2_W.map (Proc.devRef (τ := τ) .tc)).toFinset := by
  simp only [List.Forall]
  exact ⟨by wr, by wr, by wr, by wr, by wr, by wr, by wr, by wr, by wr, by wr, by wr, by wr, by wr, by wr, by wr, by wr, by wr, by wr, by wr, by wr, by wr, by wr, by wr, by wr, by wr⟩
/-- A buffer the stretch does not write keeps its contents. -/
theorem s2_keep (W : Valuation τ sig (Elt F)) (r : Ref sig .tc) (h : r ∉ s2_W) :
    after s2 W (no_index (Proc.devRef .tc r)) = W (Proc.devRef .tc r) :=
  after_of_writes_sub s2 W s2_writes h
theorem s2_sub : (s2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩

/-- Layer one: the affine combination and the row normalisation. -/
abbrev s3 : List (HloOp τ sig (Elt F)) :=
  [ binary main_v22 main_arg2 main_v23 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg3 main_v24 (broadcastInDim S1x128 ![1] bcast_S128_S1x128_1 : (⟨S128, .f32⟩ : BufTy).Contents (Elt F) → (⟨S1x128, .f32⟩ : BufTy).Contents (Elt F)),
    unary main_v24 main_v25 (broadcastInDim S100000x128 ![0, 1] bcast_S1x128_S100000x128_0_1 : (⟨S1x128, .f32⟩ : BufTy).Contents (Elt F) → (⟨S100000x128, .f32⟩ : BufTy).Contents (Elt F)),
    binary main_v23 main_v25 main_v26 (addf : (⟨S100000x128, .f32⟩ : BufTy).Contents (Elt F) → (⟨S100000x128, .f32⟩ : BufTy).Contents (Elt F) → (⟨S100000x128, .f32⟩ : BufTy).Contents (Elt F)),
    binary main_arg0 main_arg4 main_v27 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v26 main_v27 main_v28 (addf : (⟨S100000x128, .f32⟩ : BufTy).Contents (Elt F) → (⟨S100000x128, .f32⟩ : BufTy).Contents (Elt F) → (⟨S100000x128, .f32⟩ : BufTy).Contents (Elt F)),
    TRef.binary (.of main_v28 : TRef sig ⟨S100000x128, .f32⟩) (.of main_v28 : TRef sig ⟨S100000x128, .f32⟩) main_call0.v0 mulf,
    TRef.nullary main_call0.cst (constant S_ .f32 0x00000000#32),
    TRef.binary main_call0.v0 main_call0.cst main_call0.v1 (fun x v => Host.reduceAdd x v reducesTo_S100000x128_S100000_d1 h_S_),
    TRef.unary main_call0.v1 main_call0.v2 (broadcastInDim S100000x1 ![0] bcast_S100000_S100000x1_0),
    TRef.unary main_call0.v2 main_call0.v3 Host.sqrt,
    nullary main_cst_4 (constant S_ .f32 0x2B8CBCCC#32),
    unary main_cst_4 main_v30 (broadcastInDim S100000x1 ![] bcast_S_S100000x1 : (⟨S_, .f32⟩ : BufTy).Contents (Elt F) → (⟨S100000x1, .f32⟩ : BufTy).Contents (Elt F)),
    binary main_v29 main_v30 main_v31 (maximumf : (⟨S100000x1, .f32⟩ : BufTy).Contents (Elt F) → (⟨S100000x1, .f32⟩ : BufTy).Contents (Elt F) → (⟨S100000x1, .f32⟩ : BufTy).Contents (Elt F)),
    unary main_v31 main_v32 (broadcastInDim S100000x128 ![0, 1] bcast_S100000x1_S100000x128_0_1 : (⟨S100000x1, .f32⟩ : BufTy).Contents (Elt F) → (⟨S100000x128, .f32⟩ : BufTy).Contents (Elt F)),
    binary main_v28 main_v32 main_v33 (Host.divf : (⟨S100000x128, .f32⟩ : BufTy).Contents (Elt F) → (⟨S100000x128, .f32⟩ : BufTy).Contents (Elt F) → (⟨S100000x128, .f32⟩ : BufTy).Contents (Elt F)) ]

/-- The buffers the stretch writes. -/
abbrev s3_W : List (Ref sig .tc) := [main_v23, main_v24, main_v25, main_v26, main_v27, main_v28, main_call0_v0, main_call0_cst, main_call0_v1, main_call0_v2, main_v29, main_cst_4, main_v30, main_v31, main_v32, main_v33]
theorem s3_writes : (s3 : List (HloOp τ sig (Elt F))).Forall fun op =>
    op.writes ⊆ (s3_W.map (Proc.devRef (τ := τ) .tc)).toFinset := by
  simp only [List.Forall]
  exact ⟨by wr, by wr, by wr, by wr, by wr, by wr, by wr, by wr, by wr, by wr, by wr, by wr, by wr, by wr, by wr, by wr⟩
/-- A buffer the stretch does not write keeps its contents. -/
theorem s3_keep (W : Valuation τ sig (Elt F)) (r : Ref sig .tc) (h : r ∉ s3_W) :
    after s3 W (no_index (Proc.devRef .tc r)) = W (Proc.devRef .tc r) :=
  after_of_writes_sub s3 W s3_writes h
theorem s3_sub : (s3 : List (HloOp τ sig (Elt F))).Forall fun op => op.bufs ⊆ tcRefs τ sig :=
  ⟨binary_bufs_sub .., unary_bufs_sub .., unary_bufs_sub .., binary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

/-- The positive part. -/
abbrev s4 : List (HloOp τ sig (Elt F)) :=
  [ TRef.nullary main_call1.cst (constant S_ .f32 0x00000000#32),
    TRef.unary main_call1.cst main_call1.v0 (broadcastInDim S100000x128 ![] bcast_S_S100000x128),
    TRef.binary (.of main_v33 : TRef sig ⟨S100000x128, .f32⟩) main_call1.v0 main_call1.v1 maximumf ]

/-- The buffers the stretch writes. -/
abbrev s4_W : List (Ref sig .tc) := [main_call1_cst, main_call1_v0, main_v34]
theorem s4_writes : (s4 : List (HloOp τ sig (Elt F))).Forall fun op =>
    op.writes ⊆ (s4_W.map (Proc.devRef (τ := τ) .tc)).toFinset := by
  simp only [List.Forall]
  exact ⟨by wr, by wr, by wr⟩
/-- A buffer the stretch does not write keeps its contents. -/
theorem s4_keep (W : Valuation τ sig (Elt F)) (r : Ref sig .tc) (h : r ∉ s4_W) :
    after s4 W (no_index (Proc.devRef .tc r)) = W (Proc.devRef .tc r) :=
  after_of_writes_sub s4 W s4_writes h
theorem s4_sub : (s4 : List (HloOp τ sig (Elt F))).Forall fun op => op.bufs ⊆ tcRefs τ sig :=
  ⟨nullary_bufs_sub .., unary_bufs_sub .., binary_bufs_sub ..⟩

/-- The column means. -/
abbrev s5 : List (HloOp τ sig (Elt F)) :=
  [ nullary main_cst_5 (constant S_ .f32 0x00000000#32),
    binary main_v34 main_cst_5 main_v35 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_6 (constant S_ .f32 0x47C35000#32),
    unary main_cst_6 main_v36 (broadcastInDim S128 ![] bcast_S_S128 : (⟨S_, .f32⟩ : BufTy).Contents (Elt F) → (⟨S128, .f32⟩ : BufTy).Contents (Elt F)),
    binary main_v35 main_v36 main_v37 (Host.divf : (⟨S128, .f32⟩ : BufTy).Contents (Elt F) → (⟨S128, .f32⟩ : BufTy).Contents (Elt F) → (⟨S128, .f32⟩ : BufTy).Contents (Elt F)) ]

/-- The buffers the stretch writes. -/
abbrev s5_W : List (Ref sig .tc) := [main_cst_5, main_v35, main_cst_6, main_v36, main_v37]
theorem s5_writes : (s5 : List (HloOp τ sig (Elt F))).Forall fun op =>
    op.writes ⊆ (s5_W.map (Proc.devRef (τ := τ) .tc)).toFinset := by
  simp only [List.Forall]
  exact ⟨by wr, by wr, by wr, by wr, by wr⟩
/-- A buffer the stretch does not write keeps its contents. -/
theorem s5_keep (W : Valuation τ sig (Elt F)) (r : Ref sig .tc) (h : r ∉ s5_W) :
    after s5 W (no_index (Proc.devRef .tc r)) = W (Proc.devRef .tc r) :=
  after_of_writes_sub s5 W s5_writes h
theorem s5_sub : (s5 : List (HloOp τ sig (Elt F))).Forall fun op => op.bufs ⊆ tcRefs τ sig :=
  ⟨nullary_bufs_sub .., binary_bufs_sub .., nullary_bufs_sub .., unary_bufs_sub .., binary_bufs_sub ..⟩

/-- The column variances, as the mean of squared deviations, under the guard `100000 - 0 > 0`. -/
abbrev s6 : List (HloOp τ sig (Elt F)) :=
  [ nullary main_c_7 (constantI S_ 32 0#32),
    TRef.nullary main_call2.cst (constant S_ .f32 0x00000000#32),
    TRef.binary (.of main_v34 : TRef sig ⟨S100000x128, .f32⟩) main_call2.cst main_call2.v0 (fun x v => Host.reduceAdd x v reducesTo_S100000x128_S128_d0 h_S_),
    TRef.unary main_call2.v0 main_call2.v1 (broadcastInDim S1x128 ![1] bcast_S128_S1x128_1),
    TRef.nullary main_call2.cst_0 (constant S_ .f32 0x47C35000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S100000x128 ![0, 1] bcast_S1x128_S100000x128_0_1),
    TRef.binary (.of main_v34 : TRef sig ⟨S100000x128, .f32⟩) main_call2.v4 main_call2.v5 subf,
    TRef.binary main_call2.v5 main_call2.v5 main_call2.v6 mulf,
    TRef.unary (.of main_c_7 : TRef sig ⟨S_, .i32⟩) main_call2.v7 (sitofp .f32),
    TRef.nullary main_call2.cst_1 (constant S_ .f32 0x47C35000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S100000x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b) ]

/-- The buffers the stretch writes. -/
abbrev s6_W : List (Ref sig .tc) := [main_c_7, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v38]
theorem s6_writes : (s6 : List (HloOp τ sig (Elt F))).Forall fun op =>
    op.writes ⊆ (s6_W.map (Proc.devRef (τ := τ) .tc)).toFinset := by
  simp only [List.Forall]
  exact ⟨by wr, by wr, by wr, by wr, by wr, by wr, by wr, by wr, by wr, by wr, by wr, by wr, by wr, by wr, by wr, by wr, by wr, by wr, by wr, by wr, by wr, by wr, by wr⟩
/-- A buffer the stretch does not write keeps its contents. -/
theorem s6_keep (W : Valuation τ sig (Elt F)) (r : Ref sig .tc) (h : r ∉ s6_W) :
    after s6 W (no_index (Proc.devRef .tc r)) = W (Proc.devRef .tc r) :=
  after_of_writes_sub s6 W s6_writes h
theorem s6_sub : (s6 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

/-- The centred features times the reciprocal square root of variance plus ε, and the scale as a row. -/
abbrev s7 : List (HloOp τ sig (Elt F)) :=
  [ unary main_v37 main_v39 (broadcastInDim S1x128 ![1] bcast_S128_S1x128_1 : (⟨S128, .f32⟩ : BufTy).Contents (Elt F) → (⟨S1x128, .f32⟩ : BufTy).Contents (Elt F)),
    unary main_v39 main_v40 (broadcastInDim S100000x128 ![0, 1] bcast_S1x128_S100000x128_0_1 : (⟨S1x128, .f32⟩ : BufTy).Contents (Elt F) → (⟨S100000x128, .f32⟩ : BufTy).Contents (Elt F)),
    binary main_v34 main_v40 main_v41 (subf : (⟨S100000x128, .f32⟩ : BufTy).Contents (Elt F) → (⟨S100000x128, .f32⟩ : BufTy).Contents (Elt F) → (⟨S100000x128, .f32⟩ : BufTy).Contents (Elt F)),
    nullary main_cst_8 (constant S_ .f32 0x3727C5AC#32),
    unary main_cst_8 main_v42 (broadcastInDim S128 ![] bcast_S_S128 : (⟨S_, .f32⟩ : BufTy).Contents (Elt F) → (⟨S128, .f32⟩ : BufTy).Contents (Elt F)),
    binary main_v38 main_v42 main_v43 (addf : (⟨S128, .f32⟩ : BufTy).Contents (Elt F) → (⟨S128, .f32⟩ : BufTy).Contents (Elt F) → (⟨S128, .f32⟩ : BufTy).Contents (Elt F)),
    unary main_v43 main_v44 (Host.rsqrt : (⟨S128, .f32⟩ : BufTy).Contents (Elt F) → (⟨S128, .f32⟩ : BufTy).Contents (Elt F)),
    unary main_v44 main_v45 (broadcastInDim S1x128 ![1] bcast_S128_S1x128_1 : (⟨S128, .f32⟩ : BufTy).Contents (Elt F) → (⟨S1x128, .f32⟩ : BufTy).Contents (Elt F)),
    unary main_v45 main_v46 (broadcastInDim S100000x128 ![0, 1] bcast_S1x128_S100000x128_0_1 : (⟨S1x128, .f32⟩ : BufTy).Contents (Elt F) → (⟨S100000x128, .f32⟩ : BufTy).Contents (Elt F)),
    binary main_v41 main_v46 main_v47 (mulf : (⟨S100000x128, .f32⟩ : BufTy).Contents (Elt F) → (⟨S100000x128, .f32⟩ : BufTy).Contents (Elt F) → (⟨S100000x128, .f32⟩ : BufTy).Contents (Elt F)),
    unary main_arg5 main_v48 (broadcastInDim S1x128 ![1] bcast_S128_S1x128_1 : (⟨S128, .f32⟩ : BufTy).Contents (Elt F) → (⟨S1x128, .f32⟩ : BufTy).Contents (Elt F)) ]

/-- The buffers the stretch writes. -/
abbrev s7_W : List (Ref sig .tc) := [main_v39, main_v40, main_v41, main_cst_8, main_v42, main_v43, main_v44, main_v45, main_v46, main_v47, main_v48]
theorem s7_writes : (s7 : List (HloOp τ sig (Elt F))).Forall fun op =>
    op.writes ⊆ (s7_W.map (Proc.devRef (τ := τ) .tc)).toFinset := by
  simp only [List.Forall]
  exact ⟨by wr, by wr, by wr, by wr, by wr, by wr, by wr, by wr, by wr, by wr, by wr⟩
/-- A buffer the stretch does not write keeps its contents. -/
theorem s7_keep (W : Valuation τ sig (Elt F)) (r : Ref sig .tc) (h : r ∉ s7_W) :
    after s7 W (no_index (Proc.devRef .tc r)) = W (Proc.devRef .tc r) :=
  after_of_writes_sub s7 W s7_writes h
theorem s7_sub : (s7 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub ..⟩

/-- The scale and the shift: the batch normalisation's result. -/
abbrev s8 : List (HloOp τ sig (Elt F)) :=
  [ unary main_v48 main_v49 (broadcastInDim S100000x128 ![0, 1] bcast_S1x128_S100000x128_0_1 : (⟨S1x128, .f32⟩ : BufTy).Contents (Elt F) → (⟨S100000x128, .f32⟩ : BufTy).Contents (Elt F)),
    binary main_v47 main_v49 main_v50 (mulf : (⟨S100000x128, .f32⟩ : BufTy).Contents (Elt F) → (⟨S100000x128, .f32⟩ : BufTy).Contents (Elt F) → (⟨S100000x128, .f32⟩ : BufTy).Contents (Elt F)),
    unary main_arg6 main_v51 (broadcastInDim S1x128 ![1] bcast_S128_S1x128_1 : (⟨S128, .f32⟩ : BufTy).Contents (Elt F) → (⟨S1x128, .f32⟩ : BufTy).Contents (Elt F)),
    unary main_v51 main_v52 (broadcastInDim S100000x128 ![0, 1] bcast_S1x128_S100000x128_0_1 : (⟨S1x128, .f32⟩ : BufTy).Contents (Elt F) → (⟨S100000x128, .f32⟩ : BufTy).Contents (Elt F)),
    binary main_v50 main_v52 main_v53 (addf : (⟨S100000x128, .f32⟩ : BufTy).Contents (Elt F) → (⟨S100000x128, .f32⟩ : BufTy).Contents (Elt F) → (⟨S100000x128, .f32⟩ : BufTy).Contents (Elt F)) ]

/-- The buffers the stretch writes. -/
abbrev s8_W : List (Ref sig .tc) := [main_v49, main_v50, main_v51, main_v52, main_v53]
theorem s8_writes : (s8 : List (HloOp τ sig (Elt F))).Forall fun op =>
    op.writes ⊆ (s8_W.map (Proc.devRef (τ := τ) .tc)).toFinset := by
  simp only [List.Forall]
  exact ⟨by wr, by wr, by wr, by wr, by wr⟩
/-- A buffer the stretch does not write keeps its contents. -/
theorem s8_keep (W : Valuation τ sig (Elt F)) (r : Ref sig .tc) (h : r ∉ s8_W) :
    after s8 W (no_index (Proc.devRef .tc r)) = W (Proc.devRef .tc r) :=
  after_of_writes_sub s8 W s8_writes h
theorem s8_sub : (s8 : List (HloOp τ sig (Elt F))).Forall fun op => op.bufs ⊆ tcRefs τ sig :=
  ⟨unary_bufs_sub .., binary_bufs_sub .., unary_bufs_sub .., unary_bufs_sub .., binary_bufs_sub ..⟩

/-- The mean over incoming edges of the hidden features. -/
abbrev s9 : List (HloOp τ sig (Elt F)) :=
  [ nullary main_c_9 (constantI S_ 32 0#32),
    unary main_c_9 main_v54 (broadcastInDim S600000 ![] bcast_S_S600000 : (⟨S_, .i32⟩ : BufTy).Contents (Elt F) → (⟨S600000, .i32⟩ : BufTy).Contents (Elt F)),
    binary main_v1 main_v54 main_v55 (cmpi .slt : (⟨S600000, .i32⟩ : BufTy).Contents (Elt F) → (⟨S600000, .i32⟩ : BufTy).Contents (Elt F) → (⟨S600000, .i1⟩ : BufTy).Contents (Elt F)),
    nullary main_c_10 (constantI S_ 32 100000#32),
    unary main_c_10 main_v56 (broadcastInDim S600000 ![] bcast_S_S600000 : (⟨S_, .i32⟩ : BufTy).Contents (Elt F) → (⟨S600000, .i32⟩ : BufTy).Contents (Elt F)),
    binary main_v1 main_v56 main_v57 (addi : (⟨S600000, .i32⟩ : BufTy).Contents (Elt F) → (⟨S600000, .i32⟩ : BufTy).Contents (Elt F) → (⟨S600000, .i32⟩ : BufTy).Contents (Elt F)),
    ternary main_v55 main_v57 main_v1 main_v58 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v58 main_v59 (broadcastInDim S600000x1 ![0] bcast_S600000_S600000x1_0 : (⟨S600000, .i32⟩ : BufTy).Contents (Elt F) → (⟨S600000x1, .i32⟩ : BufTy).Contents (Elt F)),
    binary main_v53 main_v59 main_v60 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    nullary main_cst_11 (constant S_ .f32 0x00000000#32),
    unary main_cst_11 main_v61 (broadcastInDim S100000x128 ![] bcast_S_S100000x128 : (⟨S_, .f32⟩ : BufTy).Contents (Elt F) → (⟨S100000x128, .f32⟩ : BufTy).Contents (Elt F)),
    unary main_v3 main_v62 (broadcastInDim S600000x1 ![0] bcast_S600000_S600000x1_0 : (⟨S600000, .i32⟩ : BufTy).Contents (Elt F) → (⟨S600000x1, .i32⟩ : BufTy).Contents (Elt F)),
    ternary main_v61 main_v62 main_v60 main_v63 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    nullary main_cst_12 (constant S_ .f32 0x3F800000#32),
    unary main_cst_12 main_v64 (broadcastInDim S600000 ![] bcast_S_S600000 : (⟨S_, .f32⟩ : BufTy).Contents (Elt F) → (⟨S600000, .f32⟩ : BufTy).Contents (Elt F)),
    nullary main_cst_13 (constant S_ .f32 0x00000000#32),
    unary main_cst_13 main_v65 (broadcastInDim S100000 ![] bcast_S_S100000 : (⟨S_, .f32⟩ : BufTy).Contents (Elt F) → (⟨S100000, .f32⟩ : BufTy).Contents (Elt F)),
    unary main_v3 main_v66 (broadcastInDim S600000x1 ![0] bcast_S600000_S600000x1_0 : (⟨S600000, .i32⟩ : BufTy).Contents (Elt F) → (⟨S600000x1, .i32⟩ : BufTy).Contents (Elt F)),
    ternary main_v65 main_v66 main_v64 main_v67 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    nullary main_cst_14 (constant S_ .f32 0x3F800000#32),
    unary main_cst_14 main_v68 (broadcastInDim S100000 ![] bcast_S_S100000 : (⟨S_, .f32⟩ : BufTy).Contents (Elt F) → (⟨S100000, .f32⟩ : BufTy).Contents (Elt F)),
    binary main_v67 main_v68 main_v69 (maximumf : (⟨S100000, .f32⟩ : BufTy).Contents (Elt F) → (⟨S100000, .f32⟩ : BufTy).Contents (Elt F) → (⟨S100000, .f32⟩ : BufTy).Contents (Elt F)),
    unary main_v69 main_v70 (broadcastInDim S100000x1 ![0] bcast_S100000_S100000x1_0 : (⟨S100000, .f32⟩ : BufTy).Contents (Elt F) → (⟨S100000x1, .f32⟩ : BufTy).Contents (Elt F)),
    unary main_v70 main_v71 (broadcastInDim S100000x128 ![0, 1] bcast_S100000x1_S100000x128_0_1 : (⟨S100000x1, .f32⟩ : BufTy).Contents (Elt F) → (⟨S100000x128, .f32⟩ : BufTy).Contents (Elt F)),
    binary main_v63 main_v71 main_v72 (Host.divf : (⟨S100000x128, .f32⟩ : BufTy).Contents (Elt F) → (⟨S100000x128, .f32⟩ : BufTy).Contents (Elt F) → (⟨S100000x128, .f32⟩ : BufTy).Contents (Elt F)) ]

/-- The buffers the stretch writes. -/
abbrev s9_W : List (Ref sig .tc) := [main_c_9, main_v54, main_v55, main_c_10, main_v56, main_v57, main_v58, main_v59, main_v60, main_cst_11, main_v61, main_v62, main_v63, main_cst_12, main_v64, main_cst_13, main_v65, main_v66, main_v67, main_cst_14, main_v68, main_v69, main_v70, main_v71, main_v72]
theorem s9_writes : (s9 : List (HloOp τ sig (Elt F))).Forall fun op =>
    op.writes ⊆ (s9_W.map (Proc.devRef (τ := τ) .tc)).toFinset := by
  simp only [List.Forall]
  exact ⟨by wr, by wr, by wr, by wr, by wr, by wr, by wr, by wr, by wr, by wr, by wr, by wr, by wr, by wr, by wr, by wr, by wr, by wr, by wr, by wr, by wr, by wr, by wr, by wr, by wr⟩
/-- A buffer the stretch does not write keeps its contents. -/
theorem s9_keep (W : Valuation τ sig (Elt F)) (r : Ref sig .tc) (h : r ∉ s9_W) :
    after s9 W (no_index (Proc.devRef .tc r)) = W (Proc.devRef .tc r) :=
  after_of_writes_sub s9 W s9_writes h
theorem s9_sub : (s9 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩

/-- Layer two: the embedding. -/
abbrev s10 : List (HloOp τ sig (Elt F)) :=
  [ binary main_v72 main_arg7 main_v73 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg8 main_v74 (broadcastInDim S1x128 ![1] bcast_S128_S1x128_1 : (⟨S128, .f32⟩ : BufTy).Contents (Elt F) → (⟨S1x128, .f32⟩ : BufTy).Contents (Elt F)),
    unary main_v74 main_v75 (broadcastInDim S100000x128 ![0, 1] bcast_S1x128_S100000x128_0_1 : (⟨S1x128, .f32⟩ : BufTy).Contents (Elt F) → (⟨S100000x128, .f32⟩ : BufTy).Contents (Elt F)),
    binary main_v73 main_v75 main_v76 (addf : (⟨S100000x128, .f32⟩ : BufTy).Contents (Elt F) → (⟨S100000x128, .f32⟩ : BufTy).Contents (Elt F) → (⟨S100000x128, .f32⟩ : BufTy).Contents (Elt F)),
    binary main_v53 main_arg9 main_v77 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v76 main_v77 main_v78 (addf : (⟨S100000x128, .f32⟩ : BufTy).Contents (Elt F) → (⟨S100000x128, .f32⟩ : BufTy).Contents (Elt F) → (⟨S100000x128, .f32⟩ : BufTy).Contents (Elt F)),
    TRef.binary (.of main_v78 : TRef sig ⟨S100000x128, .f32⟩) (.of main_v78 : TRef sig ⟨S100000x128, .f32⟩) main_call3.v0 mulf,
    TRef.nullary main_call3.cst (constant S_ .f32 0x00000000#32),
    TRef.binary main_call3.v0 main_call3.cst main_call3.v1 (fun x v => Host.reduceAdd x v reducesTo_S100000x128_S100000_d1 h_S_),
    TRef.unary main_call3.v1 main_call3.v2 (broadcastInDim S100000x1 ![0] bcast_S100000_S100000x1_0),
    TRef.unary main_call3.v2 main_call3.v3 Host.sqrt,
    nullary main_cst_15 (constant S_ .f32 0x2B8CBCCC#32),
    unary main_cst_15 main_v80 (broadcastInDim S100000x1 ![] bcast_S_S100000x1 : (⟨S_, .f32⟩ : BufTy).Contents (Elt F) → (⟨S100000x1, .f32⟩ : BufTy).Contents (Elt F)),
    binary main_v79 main_v80 main_v81 (maximumf : (⟨S100000x1, .f32⟩ : BufTy).Contents (Elt F) → (⟨S100000x1, .f32⟩ : BufTy).Contents (Elt F) → (⟨S100000x1, .f32⟩ : BufTy).Contents (Elt F)),
    unary main_v81 main_v82 (broadcastInDim S100000x128 ![0, 1] bcast_S100000x1_S100000x128_0_1 : (⟨S100000x1, .f32⟩ : BufTy).Contents (Elt F) → (⟨S100000x128, .f32⟩ : BufTy).Contents (Elt F)),
    binary main_v78 main_v82 main_v83 (Host.divf : (⟨S100000x128, .f32⟩ : BufTy).Contents (Elt F) → (⟨S100000x128, .f32⟩ : BufTy).Contents (Elt F) → (⟨S100000x128, .f32⟩ : BufTy).Contents (Elt F)) ]

/-- The buffers the stretch writes. -/
abbrev s10_W : List (Ref sig .tc) := [main_v73, main_v74, main_v75, main_v76, main_v77, main_v78, main_call3_v0, main_call3_cst, main_call3_v1, main_call3_v2, main_v79, main_cst_15, main_v80, main_v81, main_v82, main_v83]
theorem s10_writes : (s10 : List (HloOp τ sig (Elt F))).Forall fun op =>
    op.writes ⊆ (s10_W.map (Proc.devRef (τ := τ) .tc)).toFinset := by
  simp only [List.Forall]
  exact ⟨by wr, by wr, by wr, by wr, by wr, by wr, by wr, by wr, by wr, by wr, by wr, by wr, by wr, by wr, by wr, by wr⟩
/-- A buffer the stretch does not write keeps its contents. -/
theorem s10_keep (W : Valuation τ sig (Elt F)) (r : Ref sig .tc) (h : r ∉ s10_W) :
    after s10 W (no_index (Proc.devRef .tc r)) = W (Proc.devRef .tc r) :=
  after_of_writes_sub s10 W s10_writes h
theorem s10_sub : (s10 : List (HloOp τ sig (Elt F))).Forall fun op => op.bufs ⊆ tcRefs τ sig :=
  ⟨binary_bufs_sub .., unary_bufs_sub .., unary_bufs_sub .., binary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

/-- The linear head on the first 64 columns. -/
abbrev s11 : List (HloOp τ sig (Elt F)) :=
  [ unary main_v83 main_v84 ((extractStridedSlice S100000x64 ![0, 0] · slices_S100000x128_S100000x64_0_0) : (⟨S100000x128, .f32⟩ : BufTy).Contents (Elt F) → (⟨S100000x64, .f32⟩ : BufTy).Contents (Elt F)),
    binary main_v84 main_arg10 main_v85 ((fun l r => Host.dotGeneral dot_S100000x64_S64x1_S100000x1_1_0_0_1_n_n none l r) : (⟨S100000x64, .f32⟩ : BufTy).Contents (Elt F) → (⟨S64x1, .f32⟩ : BufTy).Contents (Elt F) → (⟨S100000x1, .f32⟩ : BufTy).Contents (Elt F)),
    unary main_arg11 main_v86 (broadcastInDim S1x1 ![1] bcast_S1_S1x1_1 : (⟨S1, .f32⟩ : BufTy).Contents (Elt F) → (⟨S1x1, .f32⟩ : BufTy).Contents (Elt F)),
    unary main_v86 main_v87 (broadcastInDim S100000x1 ![0, 1] bcast_S1x1_S100000x1_0_1 : (⟨S1x1, .f32⟩ : BufTy).Contents (Elt F) → (⟨S100000x1, .f32⟩ : BufTy).Contents (Elt F)),
    binary main_v85 main_v87 main_v88 (addf : (⟨S100000x1, .f32⟩ : BufTy).Contents (Elt F) → (⟨S100000x1, .f32⟩ : BufTy).Contents (Elt F) → (⟨S100000x1, .f32⟩ : BufTy).Contents (Elt F)),
    reshape main_v88 main_v89 rfl shapeCasts_S100000x1_S100000 ]

/-- The buffers the stretch writes. -/
abbrev s11_W : List (Ref sig .tc) := [main_v84, main_v85, main_v86, main_v87, main_v88, main_v89]
theorem s11_writes : (s11 : List (HloOp τ sig (Elt F))).Forall fun op =>
    op.writes ⊆ (s11_W.map (Proc.devRef (τ := τ) .tc)).toFinset := by
  simp only [List.Forall]
  exact ⟨by wr, by wr, by wr, by wr, by wr, by wr⟩
/-- A buffer the stretch does not write keeps its contents. -/
theorem s11_keep (W : Valuation τ sig (Elt F)) (r : Ref sig .tc) (h : r ∉ s11_W) :
    after s11 W (no_index (Proc.devRef .tc r)) = W (Proc.devRef .tc r) :=
  after_of_writes_sub s11 W s11_writes h
theorem s11_sub : (s11 : List (HloOp τ sig (Elt F))).Forall fun op => op.bufs ⊆ tcRefs τ sig :=
  ⟨unary_bufs_sub .., binary_bufs_sub .., unary_bufs_sub .., unary_bufs_sub .., binary_bufs_sub .., reshape_bufs_sub ..⟩

/-! ## What each stretch computes

From any contents `W`: the stretch's result buffer holds the stage of `Cert.Spec` at the buffers the stretch reads.
The fold is unrolled, each operation read at the buffer it writes; what is left is the stage's definition. The
sums, products and index searches inside the operations are never opened. -/

section Values

attribute [local irreducible] Host.gather Host.scatterAdd Host.reduceAdd

variable (W : Valuation τ sig (Elt F))

theorem s1_v1 :
    after s1 W (no_index (Proc.devRef .tc main_v1)) =
      Cert.Spec.srcOf (W (Proc.devRef .tc main_arg1)) := by
  simp only [s1]
  after_results_simp
  all_goals rfl

theorem s1_v3 :
    after s1 W (no_index (Proc.devRef .tc main_v3)) =
      Cert.Spec.dstOf (W (Proc.devRef .tc main_arg1)) := by
  simp only [s1]
  after_results_simp
  all_goals rfl

theorem s2_v22 :
    after s2 W (no_index (Proc.devRef .tc main_v22)) =
      Cert.Spec.aggr (W (Proc.devRef .tc main_arg0)) (W (Proc.devRef .tc main_v1)) (W (Proc.devRef .tc main_v3)) := by
  simp only [s2]
  after_results_simp
  all_goals rfl

theorem s3_v33 :
    after s3 W (no_index (Proc.devRef .tc main_v33)) =
      Cert.Spec.sage2 (W (Proc.devRef .tc main_v22)) (W (Proc.devRef .tc main_arg0)) (W (Proc.devRef .tc main_arg2)) (Cert.Spec.row (W (Proc.devRef .tc main_arg3))) (W (Proc.devRef .tc main_arg4)) := by
  simp only [s3]
  after_results_simp
  all_goals rfl

theorem s4_v34 :
    after s4 W (no_index (Proc.devRef .tc main_v34)) =
      Cert.Spec.relu (W (Proc.devRef .tc main_v33)) := by
  simp only [s4]
  after_results_simp
  all_goals rfl

theorem s5_v37 :
    after s5 W (no_index (Proc.devRef .tc main_v37)) =
      Cert.Spec.muRef (W (Proc.devRef .tc main_v34)) := by
  simp only [s5]
  after_results_simp
  all_goals rfl

theorem s6_v38 :
    after s6 W (no_index (Proc.devRef .tc main_v38)) =
      Cert.Spec.varRef (W (Proc.devRef .tc main_v34)) := by
  simp only [s6]
  after_results_simp
  all_goals rfl

theorem s7_v47 :
    after s7 W (no_index (Proc.devRef .tc main_v47)) =
      mulf (subf (W (Proc.devRef .tc main_v34) : FVec F S100000x128 .f32) (Cert.Spec.rows (Cert.Spec.row (W (Proc.devRef .tc main_v37)))))
        (Cert.Spec.rows (Cert.Spec.row (Host.rsqrt (addf (W (Proc.devRef .tc main_v38) : FVec F S128 .f32)
          (broadcastInDim S128 ![] bcast_S_S128 (constant S_ .f32 0x3727C5AC#32)))))) := by
  simp only [s7]
  after_results_simp
  all_goals rfl

theorem s7_v48 :
    after s7 W (no_index (Proc.devRef .tc main_v48)) =
      Cert.Spec.row (W (Proc.devRef .tc main_arg5)) := by
  simp only [s7]
  after_results_simp
  all_goals rfl

theorem s8_v53 :
    after s8 W (no_index (Proc.devRef .tc main_v53)) =
      addf (mulf (W (Proc.devRef .tc main_v47) : FVec F S100000x128 .f32) (Cert.Spec.rows (W (Proc.devRef .tc main_v48))))
        (Cert.Spec.rows (Cert.Spec.row (W (Proc.devRef .tc main_arg6)))) := by
  simp only [s8]
  after_results_simp
  all_goals rfl

theorem s9_v72 :
    after s9 W (no_index (Proc.devRef .tc main_v72)) =
      Cert.Spec.aggr (W (Proc.devRef .tc main_v53)) (W (Proc.devRef .tc main_v1)) (W (Proc.devRef .tc main_v3)) := by
  simp only [s9]
  after_results_simp
  all_goals rfl

theorem s10_v83 :
    after s10 W (no_index (Proc.devRef .tc main_v83)) =
      Cert.Spec.sage2 (W (Proc.devRef .tc main_v72)) (W (Proc.devRef .tc main_v53)) (W (Proc.devRef .tc main_arg7)) (Cert.Spec.row (W (Proc.devRef .tc main_arg8))) (W (Proc.devRef .tc main_arg9)) := by
  simp only [s10]
  after_results_simp
  all_goals rfl

theorem s11_v89 :
    after s11 W (no_index (Proc.devRef .tc main_v89)) =
      Cert.Spec.head (W (Proc.devRef .tc main_v83)) (W (Proc.devRef .tc main_arg10)) (W (Proc.devRef .tc main_arg11)) := by
  simp only [s11]
  after_results_simp
  all_goals rfl

end Values

/-! ## The chain -/

/-- @main's operations: the first seven stretches are its first window, the last four its second. -/
abbrev opsA : List (HloOp τ sig (Elt F)) := s1 ++ (s2 ++ (s3 ++ (s4 ++ (s5 ++ (s6 ++ s7)))))
@[inherit_doc opsA]
abbrev opsB : List (HloOp τ sig (Elt F)) := s8 ++ (s9 ++ (s10 ++ s11))
@[inherit_doc opsA]
abbrev ops : List (HloOp τ sig (Elt F)) := opsA ++ opsB

theorem after_ops (V : Valuation τ sig (Elt F)) :
    after ops V = after s11 (after s10 (after s9 (after s8 (after s7 (after s6 (after s5 (after s4 (after s3 (after s2 (after s1 (V))))))))))) := by
  simp only [ops, opsA, opsB, after_app]

section Chain

variable (V : Valuation τ sig (Elt F))

/-- The embedding, after the tenth stretch and so after the eleventh: each stage read at the stage before,
    the untouched buffers carried back to the launch contents. -/
theorem nest_v83 :
    after s11 (after s10 (after s9 (after s8 (after s7 (after s6 (after s5 (after s4 (after s3 (after s2 (after s1 (V))))))))))) (Proc.devRef .tc main_v83) =
      (Cert.Spec.embedOf (Cert.Spec.hiddenRef (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))) (V (Proc.devRef .tc main_arg1)) (V (Proc.devRef .tc main_arg7)) (V (Proc.devRef .tc main_arg8)) (V (Proc.devRef .tc main_arg9))) := by
  simp (disch := decide) only [s1_v1, s1_v3, s2_v22, s3_v33, s4_v34, s5_v37, s6_v38, s7_v47, s7_v48, s8_v53, s9_v72, s10_v83, s11_v89, s1_keep, s2_keep, s3_keep, s4_keep, s5_keep, s6_keep, s7_keep, s8_keep, s9_keep, s10_keep, s11_keep]
  rfl

/-- The prediction vector. -/
theorem nest_v89 :
    after s11 (after s10 (after s9 (after s8 (after s7 (after s6 (after s5 (after s4 (after s3 (after s2 (after s1 (V))))))))))) (Proc.devRef .tc main_v89) =
      Cert.Spec.head (Cert.Spec.embedOf (Cert.Spec.hiddenRef (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))) (V (Proc.devRef .tc main_arg1)) (V (Proc.devRef .tc main_arg7)) (V (Proc.devRef .tc main_arg8)) (V (Proc.devRef .tc main_arg9))) (V (Proc.devRef .tc main_arg10)) (V (Proc.devRef .tc main_arg11)) := by
  simp (disch := decide) only [s1_v1, s1_v3, s2_v22, s3_v33, s4_v34, s5_v37, s6_v38, s7_v47, s7_v48, s8_v53, s9_v72, s10_v83, s11_v89, s1_keep, s2_keep, s3_keep, s4_keep, s5_keep, s6_keep, s7_keep, s8_keep, s9_keep, s10_keep, s11_keep]
  rfl

/-- No stretch writes an argument. -/
theorem nest_arg (r : Ref sig .tc)
    (h : r ∉ s1_W ∧ r ∉ s2_W ∧ r ∉ s3_W ∧ r ∉ s4_W ∧ r ∉ s5_W ∧ r ∉ s6_W ∧ r ∉ s7_W ∧ r ∉ s8_W ∧ r ∉ s9_W ∧ r ∉ s10_W
      ∧ r ∉ s11_W) :
    after s11 (after s10 (after s9 (after s8 (after s7 (after s6 (after s5 (after s4 (after s3 (after s2 (after s1 (V))))))))))) (Proc.devRef .tc r) = V (Proc.devRef .tc r) := by
  obtain ⟨h1, h2, h3, h4, h5, h6, h7, h8, h9, h10, h11⟩ := h
  rw [s11_keep _ r h11, s10_keep _ r h10, s9_keep _ r h9, s8_keep _ r h8, s7_keep _ r h7, s6_keep _ r h6, s5_keep _ r h5,
    s4_keep _ r h4, s3_keep _ r h3, s2_keep _ r h2, s1_keep _ r h1]

end Chain

/-! ## The program is that line -/

set_option maxRecDepth 65536 in
set_option maxHeartbeats 4000000 in
/-- @main's first window is the first seven stretches: the called functions' definitions unfolded at their calls
    and the sequencing re-associated, both sides are one chain of operations. -/
theorem part0_eq (c : Dev nD) : main_part0 (F := F) c = seq opsA := by
  simp only [main_part0, fn_norm.body, fn_relu.body, fn_var.body, fn_where.body, opsA, seq_append, seq, bind_assoc, pure_bind]
  rfl

set_option maxRecDepth 65536 in
set_option maxHeartbeats 4000000 in
/-- @main's second window is the last four stretches. -/
theorem part1_eq (c : Dev nD) : main_part1 (F := F) c = seq opsB := by
  simp only [main_part1, fn_norm.body, opsB, seq_append, seq, bind_assoc, pure_bind]

theorem main_eq (c : Dev nD) : main (F := F) c = seq ops := by
  simp only [ops, seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, opsA, opsB, List.mem_append] at h
    rcases h with (h | h | h | h | h | h | h) | (h | h | h | h)
    exacts [List.forall_iff_forall_mem.mp s1_sub op h,
      List.forall_iff_forall_mem.mp s2_sub op h,
      List.forall_iff_forall_mem.mp s3_sub op h,
      List.forall_iff_forall_mem.mp s4_sub op h,
      List.forall_iff_forall_mem.mp s5_sub op h,
      List.forall_iff_forall_mem.mp s6_sub op h,
      List.forall_iff_forall_mem.mp s7_sub op h,
      List.forall_iff_forall_mem.mp s8_sub op h,
      List.forall_iff_forall_mem.mp s9_sub op h,
      List.forall_iff_forall_mem.mp s10_sub op h,
      List.forall_iff_forall_mem.mp s11_sub op h]

/-! ## The run -/

/-- On every device, for any float values, from any memory with zero counters: every weakly fair execution of
    @main terminates with the prediction vector and the embedding at the network's stages composed over the
    arguments' launch contents, and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v89) =
          Cert.Spec.head (F := F) (Cert.Spec.embedOf (Cert.Spec.hiddenRef (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg1)) (m ((c.tc : Thread nD τ).loc main_arg7)) (m ((c.tc : Thread nD τ).loc main_arg8)) (m ((c.tc : Thread nD τ).loc main_arg9))) (m ((c.tc : Thread nD τ).loc main_arg10)) (m ((c.tc : Thread nD τ).loc main_arg11))
      ∧ r.2.mem ((c.tc : Thread nD τ).loc main_v83) =
          Cert.Spec.embedOf (F := F) (Cert.Spec.hiddenRef (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg1)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨
      (h c main_v89).trans ((congrFun (after_ops _) _).trans (nest_v89 (launchContents m c))),
      (h c main_v83).trans ((congrFun (after_ops _) _).trans (nest_v83 (launchContents m c))),
      (h c main_arg0).trans ((congrFun (after_ops _) _).trans (nest_arg (launchContents m c) main_arg0 (by decide))),
      (h c main_arg1).trans ((congrFun (after_ops _) _).trans (nest_arg (launchContents m c) main_arg1 (by decide))),
      (h c main_arg2).trans ((congrFun (after_ops _) _).trans (nest_arg (launchContents m c) main_arg2 (by decide))),
      (h c main_arg3).trans ((congrFun (after_ops _) _).trans (nest_arg (launchContents m c) main_arg3 (by decide))),
      (h c main_arg4).trans ((congrFun (after_ops _) _).trans (nest_arg (launchContents m c) main_arg4 (by decide))),
      (h c main_arg5).trans ((congrFun (after_ops _) _).trans (nest_arg (launchContents m c) main_arg5 (by decide))),
      (h c main_arg6).trans ((congrFun (after_ops _) _).trans (nest_arg (launchContents m c) main_arg6 (by decide))),
      (h c main_arg7).trans ((congrFun (after_ops _) _).trans (nest_arg (launchContents m c) main_arg7 (by decide))),
      (h c main_arg8).trans ((congrFun (after_ops _) _).trans (nest_arg (launchContents m c) main_arg8 (by decide))),
      (h c main_arg9).trans ((congrFun (after_ops _) _).trans (nest_arg (launchContents m c) main_arg9 (by decide))),
      (h c main_arg10).trans ((congrFun (after_ops _) _).trans (nest_arg (launchContents m c) main_arg10 (by decide))),
      (h c main_arg11).trans ((congrFun (after_ops _) _).trans (nest_arg (launchContents m c) main_arg11 (by decide)))⟩)
    (run_seq scopedRefs_eq scopedSems_eq defs main (fun _ => ops) main_eq (fun _ => ops_sub) m ρ)

end Cert.ReferenceIdeal.RefRun

end
-- ==== Proof.BnAlgebra.lean ====
/-
  The one algebraic law of the batch normalisation: over features that are real numbers at every index, the mean of
  the squared deviations from the column mean is the mean of the squares minus the squared mean, so the reference's
  and the kernel's arrangements of the normalisation are one function. The features it is applied to — the positive
  part of rows divided by max(their Euclidean norm, ε) — are real at every index whatever the rows are: a row whose
  norm is infinite is divided to zero, and a row whose norm is finite has only finite entries.
-/
import proofs.«103985_j71854802862201_1_alg».proof.Proof.Spec
import proofs.«103985_j71854802862201_1_alg».proof.Proof.Gen.ReferenceIdeal
import proofs.«103985_j71854802862201_1_alg».proof.Proof.Gen.KernelIdeal
import Idealize.ShloMosaic.PureOps.Ideal.Laws
import Idealize.ShloMosaic.Lib.ValueLayout

noncomputable section

namespace Cert.Spec.BnAlgebra

open Idealize.ShloMosaic Idealize.ShloMosaic.ValueIdx

/-! ## Extended reals: sums of reals, and the variance identity -/

/-- The coercion of a finite sum of reals is the sum of the coercions. -/
theorem coe_sum {ι : Type*} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The coercion of the larger of two reals is the larger of the coercions. -/
theorem coe_max (a b : ℝ) : ((max a b : ℝ) : EReal) = max (a : EReal) (b : EReal) :=
  EReal.coe_strictMono.monotone.map_max

/-- Over the reals: the mean of the squared deviations from the mean is the mean of the squares minus the squared
    mean, the means taken over all `n` terms. -/
theorem real_var {ι : Type*} [Fintype ι] (g : ι → ℝ) (n : ℝ) (hn : n ≠ 0) (hc : (Fintype.card ι : ℝ) = n) :
    (∑ i, (g i - (∑ i, g i) / n) * (g i - (∑ i, g i) / n)) / n
      = (∑ i, g i * g i) / n - ((∑ i, g i) / n) * ((∑ i, g i) / n) := by
  have h1 : ∀ μ : ℝ, ∑ i, (g i - μ) * (g i - μ) = (∑ i, g i * g i) - 2 * μ * (∑ i, g i) + n * (μ * μ) := by
    intro μ
    have : ∀ i, (g i - μ) * (g i - μ) = g i * g i - 2 * μ * g i + μ * μ := fun i => by ring
    simp only [this, Finset.sum_add_distrib, Finset.sum_sub_distrib, ← Finset.mul_sum, Finset.sum_const, Finset.card_univ,
      nsmul_eq_mul, hc]
    ring
  rw [h1]
  field_simp
  ring

/-- The same over the extended reals, at real terms, in the two spellings the programs use: the quotient `x / y` is
    `Ideal.div`, the sums start from zero, and the reference divides the squared deviations by `n - 0`. -/
theorem ereal_var {ι : Type*} [Fintype ι] (g : ι → ℝ) (n : ℝ) (hn : n ≠ 0) (hc : (Fintype.card ι : ℝ) = n) :
    Ideal.div
        (0 + ∑ i, ((g i : EReal) - Ideal.div (0 + ∑ i, (g i : EReal)) (n : EReal))
          * ((g i : EReal) - Ideal.div (0 + ∑ i, (g i : EReal)) (n : EReal)))
        ((n : EReal) - ((0 : ℝ) : EReal))
      = Ideal.div (0 + ∑ i, (g i : EReal) * (g i : EReal)) (n : EReal)
        - Ideal.div (0 + ∑ i, (g i : EReal)) (n : EReal) * Ideal.div (0 + ∑ i, (g i : EReal)) (n : EReal) := by
  have hd : ∀ x : ℝ, Ideal.div (x : EReal) (n : EReal) = ((x / n : ℝ) : EReal) := fun x => by
    rw [Ideal.div_coe hn, ← EReal.coe_mul, mul_one_div]
  simp only [zero_add, ← coe_sum, hd, ← EReal.coe_sub, ← EReal.coe_mul, sub_zero]
  rw [real_var g n hn hc]

/-! ## A normalised row is real -/

/-- Whatever the extended reals `y` are: `y k` divided by max(√(0 + ∑ y²), e), `e` a positive real, then the positive
    part, is a real number. The sum of squares is never `⊥`; if it is `⊤` so is its root and the quotient is
    `y k · 0 = 0`; if it is finite every square is, so `y k` is real, and the divisor is a positive real. -/
theorem real_normalised {ι : Type*} [Fintype ι] (y : ι → EReal) (k : ι) (e : ℝ) (he : 0 < e) :
    ∃ r : ℝ, max (Ideal.div (y k) (max (Ideal.sqrt (0 + ∑ j, y j * y j)) (e : EReal))) 0 = (r : EReal) := by
  have hsq : ∀ x : EReal, 0 ≤ x * x := by
    intro x
    induction x using EReal.rec with
    | bot => rw [EReal.bot_mul_bot]; exact le_top
    | top => rw [EReal.top_mul_top]; exact le_top
    | coe r => rw [← EReal.coe_mul]; exact_mod_cast mul_self_nonneg r
  have hS0 : 0 ≤ ∑ j, y j * y j := Finset.sum_nonneg fun j _ => hsq _
  have hk : y k * y k ≤ ∑ j, y j * y j := Finset.single_le_sum (fun j _ => hsq (y j)) (Finset.mem_univ k)
  rw [zero_add]
  generalize (∑ j, y j * y j) = S at hS0 hk ⊢
  induction S using EReal.rec with
  | bot => exact absurd hS0 (by simp)
  | top =>
    refine ⟨0, ?_⟩
    have hdiv : Ideal.div (y k) ⊤ = 0 := by
      unfold Ideal.div
      rw [if_neg EReal.top_ne_zero, EReal.inv_top, mul_zero]
    rw [Ideal.sqrt_top, max_eq_left le_top, hdiv, max_self, EReal.coe_zero]
  | coe s =>
    have hs0 : 0 ≤ s := by exact_mod_cast hS0
    have hreal : ∃ t : ℝ, y k = (t : EReal) := by
      generalize y k = x at hk
      induction x using EReal.rec with
      | bot => rw [EReal.bot_mul_bot] at hk; exact absurd hk (by simp)
      | top => rw [EReal.top_mul_top] at hk; exact absurd hk (by simp)
      | coe t => exact ⟨t, rfl⟩
    obtain ⟨t, ht⟩ := hreal
    have hd : 0 < max (Real.sqrt s) e := lt_max_of_lt_right he
    refine ⟨max (t * (1 / max (Real.sqrt s) e)) 0, ?_⟩
    rw [ht, Ideal.sqrt_coe, if_neg (not_lt.mpr hs0), ← coe_max, Ideal.div_coe hd.ne', ← EReal.coe_mul,
      ← EReal.coe_zero, ← coe_max]

/-! ## The constants -/

/-- The float `100000` denotes the real `100000`. -/
theorem ofBits_N : Ideal.ofBits .f32 0x47C35000#32 = ((100000 : ℝ) : EReal) := by
  simp [Ideal.ofBits, Ideal.ieee, -EReal.coe_mul]; norm_num

/-- The float `1e-12` denotes a positive real. -/
theorem ofBits_eps12 : ∃ e : ℝ, 0 < e ∧ Ideal.ofBits .f32 0x2B8CBCCC#32 = (e : EReal) := by
  refine ⟨(9223372 : ℝ) * (2 : ℝ) ^ (-63 : ℤ), by positivity, ?_⟩
  simp [Ideal.ofBits, Ideal.ieee, -EReal.coe_mul]

/-! ## The arrays read at an index -/

section Reads

open Cert.ReferenceIdeal Cert.ReferenceIdeal.Facts₀

variable {s : Shape}

theorem hostDivf_apply (a b : FVec Ideal s .f32) (i : s.Idx) : Host.divf a b i = Ideal.div (a i) (b i) := rfl
theorem hostSqrt_apply (a : FVec Ideal s .f32) (i : s.Idx) : Host.sqrt a i = Ideal.sqrt (a i) := rfl
theorem hostRsqrt_apply (a : FVec Ideal s .f32) (i : s.Idx) : Host.rsqrt a i = Ideal.rsqrt (a i) := rfl
theorem rsqrt_apply (a : FVec Ideal s .f32) (i : s.Idx) : rsqrt a i = Ideal.rsqrt (a i) := rfl

/-- A scalar broadcast reads the scalar. -/
theorem bcast0_apply {α : Type} {t : Shape} (h : S_.BroadcastsInDim t (![] : Fin 0 → Fin t.rank)) (x : S_.Idx → α) (j : t.Idx) :
    (no_index (broadcastInDim t ![] h x j)) = x ix0 :=
  broadcastInDim_apply _ h x j ix0 (fun a => a.elim0)

/-- A one-row array repeated down the rows reads the row at the column. -/
theorem bcastRows_apply {α : Type} (r : S1x128.Idx → α) (p : Fin 100000) (c : Fin 128) :
    (no_index (broadcastInDim S100000x128 ![0, 1] bcast_S1x128_S100000x128_0_1 r (ix2 p c))) = r (ix2 (0 : Fin 1) c) := by
  refine broadcastInDim_apply _ _ r (ix2 p c) (ix2 (0 : Fin 1) c) fun a => ?_
  match a with
  | ⟨0, _⟩ => rfl
  | ⟨1, _⟩ => rfl

/-- A vector as a one-row array (by broadcast) reads the vector at the column. -/
theorem bcastRow_apply {α : Type} (b : S128.Idx → α) (u : Fin 1) (c : Fin 128) :
    (no_index (broadcastInDim S1x128 ![1] bcast_S128_S1x128_1 b (ix2 u c))) = b (ix1 c) := by
  refine broadcastInDim_apply _ _ b (ix2 u c) (ix1 c) fun a => ?_
  match a with
  | ⟨0, _⟩ => rfl

/-- A vector as a one-row array (by re-reading its elements in row-major order) reads the vector at the column. -/
theorem row1_apply (b : FVec Ideal S128 .f32) (u : Fin 1) (c : Fin 128) : row1 b (ix2 u c) = b (ix1 c) :=
  shapeCast_a_1a_apply b _ u c

theorem red0 : S100000x128.Reduces [0] S128 := by decide
theorem red1 : S100000x128.Reduces [1] S100000 := by decide

/-- A column sum is zero plus the sum down the column. -/
theorem colSum_apply (x : FVec Ideal S100000x128 .f32) (c : Fin 128) :
    colSum x (ix1 c) = 0 + ∑ p : Fin 100000, x (ix2 p c) := by
  show Ideal.hostReduceAdd reducesTo_S100000x128_S128_d0 x (Ideal.ofBits .f32 0x00000000#32) (ix1 c) = _
  rw [Ideal.hostReduceAdd_single _ red0, Ideal.ofBits_zero_f32]
  refine congrArg (0 + ·) (Finset.sum_congr rfl fun k _ => congrArg x ?_)
  funext a
  match a with
  | ⟨0, _⟩ => exact Fin.ext rfl
  | ⟨1, _⟩ => exact Fin.ext rfl

/-- A row's sum of squares is zero plus the sum along the row. -/
theorem rowSq_apply (x : FVec Ideal S100000x128 .f32) (p : Fin 100000) :
    Host.reduceAdd (mulf x x) (constant S_ .f32 0x00000000#32) reducesTo_S100000x128_S100000_d1 h_S_ (ix1 p)
      = 0 + ∑ k : Fin 128, x (ix2 p k) * x (ix2 p k) := by
  show Ideal.hostReduceAdd reducesTo_S100000x128_S100000_d1 (mulf x x) (Ideal.ofBits .f32 0x00000000#32) (ix1 p) = _
  rw [Ideal.hostReduceAdd_single _ red1, Ideal.ofBits_zero_f32]
  refine congrArg (0 + ·) (Finset.sum_congr rfl fun k _ => ?_)
  have : red1.lift (ix1 p) k = ix2 p k := by
    funext a
    match a with
    | ⟨0, _⟩ => exact Fin.ext rfl
    | ⟨1, _⟩ => exact Fin.ext rfl
  rw [this]; rfl

/-- A row-normalised entry. -/
theorem l2n_apply (x : FVec Ideal S100000x128 .f32) (p : Fin 100000) (c : Fin 128) :
    l2n x (ix2 p c) = Ideal.div (x (ix2 p c))
      (max (Ideal.sqrt (0 + ∑ k : Fin 128, x (ix2 p k) * x (ix2 p k))) (Ideal.ofBits .f32 0x2B8CBCCC#32)) := by
  unfold l2n
  rw [hostDivf_apply]
  rw [broadcastInDim_apply _ bcast_S100000x1_S100000x128_0_1 _ (ix2 p c) (ix2 p (0 : Fin 1))
    (fun a => by match a with | ⟨0, _⟩ => rfl | ⟨1, _⟩ => rfl)]
  rw [maximumf_apply, hostSqrt_apply, bcast0_apply, constant_apply]
  rw [broadcastInDim_apply _ bcast_S100000_S100000x1_0 _ (ix2 p (0 : Fin 1)) (ix1 p)
    (fun a => by match a with | ⟨0, _⟩ => rfl)]
  rw [rowSq_apply]

/-- The positive part of an entry. -/
theorem relu_apply (x : FVec Ideal S100000x128 .f32) (i : S100000x128.Idx) : relu x i = max (x i) 0 := by
  unfold relu
  rw [maximumf_apply, bcast0_apply, constant_apply, Ideal.ofBits_zero_f32]

end Reads

/-! ## The normalised features are real -/

open Cert.ReferenceIdeal in
theorem relu_l2n_real (out : FVec Ideal S100000x128 .f32) :
    ∃ f : S100000x128.Idx → ℝ, relu (l2n out) = fun i => (f i : EReal) := by
  obtain ⟨e, he, hee⟩ := ofBits_eps12
  have : ∀ i, ∃ r : ℝ, relu (l2n out) i = (r : EReal) := by
    intro i
    obtain ⟨p, c, rfl⟩ : ∃ (p : Fin 100000) (c : Fin 128), i = ix2 p c := ⟨i 0, i 1, eq_ix2 i⟩
    rw [relu_apply, l2n_apply, hee]
    exact real_normalised (fun k => out (ix2 p k)) c e he
  choose f hf using this
  exact ⟨f, funext hf⟩

/-! ## The two variances agree on real features -/

section Var

open Cert.ReferenceIdeal Cert.ReferenceIdeal.Facts₀

/-- The integer `0` as a float is the real `0`. -/
theorem sitofp_zero_apply : (sitofp .f32 (constantI S_ 32 0#32) : FVec Ideal S_ .f32) ix0 = ((0 : ℝ) : EReal) := by
  show (((0#32 : BitVec 32).toInt : ℝ) : EReal) = _
  rw [BitVec.toInt_zero, Int.cast_zero]

/-- The guard `100000 - 0 > 0` holds. -/
theorem guard_one : Ideal.cmp .ogt (((100000 : ℝ) : EReal) - ((0 : ℝ) : EReal)) 0 = 1#1 := by
  have h : (0 : EReal) < ((100000 : ℝ) : EReal) - ((0 : ℝ) : EReal) := by
    rw [← EReal.coe_sub]; exact_mod_cast (by norm_num : (0 : ℝ) < 100000 - 0)
  unfold Ideal.cmp
  simp only [decide_eq_true h]
  rfl

theorem var_eq (f : S100000x128.Idx → ℝ) (c : Fin 128) :
    varRef (F := Ideal) (fun i => (f i : EReal)) (ix1 c) = varKer (F := Ideal) (fun i => (f i : EReal)) (ix1 c) := by
  unfold varRef varKer muRef nCols
  simp only [select_apply, bcast0_apply, cmpf_apply, hostDivf_apply, subf_apply, mulf_apply, colSum_apply, bcastRows_apply,
    bcastRow_apply, constant_apply, sitofp_zero_apply, Ideal.ofBits_zero_f32, ofBits_N, Ideal.cmpf_def, guard_one, select_one]
  exact ereal_var (fun p => f (ix2 p c)) 100000 (by norm_num) (by simp)

end Var

/-! ## The law -/

section Law

open Cert.ReferenceIdeal Cert.ReferenceIdeal.Facts₀

/-- On features that are real at every index the reference's and the kernel's batch normalisations agree: index by
    index both are `(h - μ) · rsqrt(var + ε) · γ + β` at the column's statistics, the two variances equal. -/
theorem bn_eq_of_real (h : FVec Ideal S100000x128 .f32) (f : S100000x128.Idx → ℝ) (hf : h = fun i => ((f i : ℝ) : EReal))
    (γ β : FVec Ideal S128 .f32) : bnRef (F := Ideal) h γ β = bnKer (F := Ideal) h γ β := by
  subst hf
  funext i
  obtain ⟨p, c, rfl⟩ : ∃ (p : Fin 100000) (c : Fin 128), i = ix2 p c := ⟨i 0, i 1, eq_ix2 i⟩
  unfold bnRef bnKer bnApply rows row
  simp only [addf_apply, mulf_apply, subf_apply, bcastRows_apply, bcastRow_apply, row1_apply, hostRsqrt_apply, rsqrt_apply,
    bcast0_apply, broadcast_apply, constant_apply, var_eq]
  rfl

theorem bn_eq (out : FVec Ideal S100000x128 .f32) (γ β : FVec Ideal S128 .f32) :
    bnRef (F := Ideal) (relu (l2n out)) γ β = bnKer (F := Ideal) (relu (l2n out)) γ β := by
  obtain ⟨f, hf⟩ := relu_l2n_real out
  exact bn_eq_of_real _ f hf γ β

end Law

end Cert.Spec.BnAlgebra

end
-- ==== Proof.lean ====
/-
  The certificate of the two-layer mean-aggregation network. Both idealised programs end with the embedding
  `sage2 (aggr h̃ …) h̃ …` of the batch-normalised hidden features h̃ and with the head's predictions on it. The kernel
  reaches them through four tiled regions and the host operations between them (KerRun, KerChain, Region0 … Region3),
  the reference through one straight line of host operations (RefRun). The one place where the two differ as
  functions' spellings is the batch variance — the mean of the squares minus the squared mean against the mean of the
  squared deviations —, equal on the hidden features because a normalised row's positive part is a real number at
  every entry (BnAlgebra); the rest is two layouts of a bias vector (Bridges).
-/
import proofs.«103985_j71854802862201_1_alg».proof.Defs
import proofs.«103985_j71854802862201_1_alg».proof.Proof.Gen.Kernel
import proofs.«103985_j71854802862201_1_alg».proof.Proof.Gen.Kernel.Frame
import proofs.«103985_j71854802862201_1_alg».proof.Proof.Gen.KernelIdeal
import proofs.«103985_j71854802862201_1_alg».proof.Proof.Gen.KernelIdeal.Frame
import proofs.«103985_j71854802862201_1_alg».proof.Proof.Gen.ReferenceIdeal
import proofs.«103985_j71854802862201_1_alg».proof.Proof.Gen.Pre_finite_inputs
import proofs.«103985_j71854802862201_1_alg».proof.Proof.Spec
import proofs.«103985_j71854802862201_1_alg».proof.Proof.Bridges
import proofs.«103985_j71854802862201_1_alg».proof.Proof.KerRun
import proofs.«103985_j71854802862201_1_alg».proof.Proof.KerChain
import proofs.«103985_j71854802862201_1_alg».proof.Proof.Region0
import proofs.«103985_j71854802862201_1_alg».proof.Proof.Region1
import proofs.«103985_j71854802862201_1_alg».proof.Proof.Region2
import proofs.«103985_j71854802862201_1_alg».proof.Proof.Region3
import proofs.«103985_j71854802862201_1_alg».proof.Proof.RefRun
import proofs.«103985_j71854802862201_1_alg».proof.Proof.BnAlgebra
import Idealize.ShloMosaic.Adequacy
import Idealize.ShloMosaic.Init

set_option maxRecDepth 16384

noncomputable section

namespace Cert.Proof

open Idealize.ShloMosaic Idealize.ShloMosaic.TcCoe Idealize.SL.Sem

/-- The four regions' results, gathered. -/
theorem regions : Cert.KernelIdeal.Chain.Regions :=
  ⟨Cert.KernelIdeal.Region0.final, Cert.KernelIdeal.Region1.final_sum, Cert.KernelIdeal.Region1.final_sumsq,
    Cert.KernelIdeal.Region2.final, Cert.KernelIdeal.Region3.final_embed, Cert.KernelIdeal.Region3.final_preds⟩

section Kernel
variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- The kernel's embedding is the reference's function of the arguments: the bias rows are one array in two
    spellings, and on the hidden features the kernel's variance is the reference's. -/
theorem emb_eq : Cert.KernelIdeal.Chain.emb m ρ c = (Cert.Spec.embedOf (F := Ideal) (Cert.Spec.hiddenRef (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (m ((c.tc : Thread Cert.KernelIdeal.nD Cert.KernelIdeal.τ).loc Cert.KernelIdeal.main_arg1)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) := by
  unfold Cert.KernelIdeal.Chain.emb Cert.KernelIdeal.Chain.hb Cert.KernelIdeal.Chain.h1 Cert.KernelIdeal.Chain.srcA
    Cert.KernelIdeal.Chain.dstA Cert.Spec.embedOf Cert.Spec.hiddenRef
  rw [Cert.Spec.row1_eq_row, Cert.Spec.row1_eq_row]
  unfold Cert.Spec.sage2
  rw [← Cert.Spec.BnAlgebra.bn_eq]

/-- The kernel's predictions likewise. -/
theorem preds_eq : shapeCast Cert.KernelIdeal.S100000 (Cert.Spec.head2 (F := Ideal) (Cert.KernelIdeal.Chain.emb m ρ c)
      (Cert.KernelIdeal.Gen.W0 m ρ c (Proc.devRef .tc Cert.KernelIdeal.main_arg10))
      (shapeCast Cert.KernelIdeal.S1x1 (Cert.KernelIdeal.Gen.W0 m ρ c (Proc.devRef .tc Cert.KernelIdeal.main_arg11)) Cert.KernelIdeal.Facts₀.shapeCasts_S1_S1x1))
      Cert.KernelIdeal.Facts₀.shapeCasts_S100000x1_S100000
    = Cert.Spec.head (F := Ideal) (Cert.Spec.embedOf (F := Ideal) (Cert.Spec.hiddenRef (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (m ((c.tc : Thread Cert.KernelIdeal.nD Cert.KernelIdeal.τ).loc Cert.KernelIdeal.main_arg1)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) := by
  rw [emb_eq]
  exact congrArg (fun z => shapeCast Cert.KernelIdeal.S100000 (Cert.Spec.head2 (F := Ideal) (Cert.Spec.embedOf (F := Ideal) (Cert.Spec.hiddenRef (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (m ((c.tc : Thread Cert.KernelIdeal.nD Cert.KernelIdeal.τ).loc Cert.KernelIdeal.main_arg1)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) (m ((c.tc : Thread Cert.KernelIdeal.nD Cert.KernelIdeal.τ).loc Cert.KernelIdeal.main_arg10)) z)
    Cert.KernelIdeal.Facts₀.shapeCasts_S100000x1_S100000) (Cert.Spec.fcb_eq (F := Ideal) (m ((c.tc : Thread Cert.KernelIdeal.nD Cert.KernelIdeal.τ).loc Cert.KernelIdeal.main_arg11)))

end Kernel

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.RefRun.run (F := Ideal) m ρ)

/-- Both programs end, from memories agreeing on the arguments, with the same predictions and the same embedding. -/
theorem algebraic : Cert.algebraic_KernelIdeal_ReferenceIdeal := by
  intro m ρ m' ρ' _ hagree
  refine ⟨fun c => Cert.Spec.head (F := Ideal) (Cert.Spec.embedOf (F := Ideal) (Cert.Spec.hiddenRef (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (m ((c.tc : Thread Cert.KernelIdeal.nD Cert.KernelIdeal.τ).loc Cert.KernelIdeal.main_arg1)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), fun c => (Cert.Spec.embedOf (F := Ideal) (Cert.Spec.hiddenRef (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (m ((c.tc : Thread Cert.KernelIdeal.nD Cert.KernelIdeal.τ).loc Cert.KernelIdeal.main_arg1)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))), ?_, ?_⟩
  · refine (θ_run Cert.KernelIdeal.defs _ _).mono (fun r h c => ⟨(h c).1.trans ?_, (h c).2.1.trans ?_, (h c).2.2⟩)
      (Cert.KernelIdeal.Run.run_values (F := Ideal) m ρ)
    · exact (Cert.KernelIdeal.Chain.w8_preds m ρ c regions).trans (preds_eq m ρ c)
    · exact (Cert.KernelIdeal.Chain.w8_emb m ρ c regions).trans (emb_eq m ρ c)
  · refine (θ_run Cert.ReferenceIdeal.defs _ _).mono (fun r h c => ⟨(h c).1.trans ?_, (h c).2.1.trans ?_, (h c).2.2⟩)
      (Cert.ReferenceIdeal.RefRun.run (F := Ideal) m' ρ')
    · obtain ⟨h0, h1, h2, h3, h4, h5, h6, h7, h8, h9, h10, h11⟩ := hagree c
      rw [h0, h1, h2, h3, h4, h5, h6, h7, h8, h9, h10, h11]
    · obtain ⟨h0, h1, h2, h3, h4, h5, h6, h7, h8, h9, h10, h11⟩ := hagree c
      rw [h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
